-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x128 : Shape := ⟨3, ![128, 512, 128]⟩
abbrev S128x512x128x4 : Shape := ⟨4, ![128, 512, 128, 4]⟩
abbrev S128 : Shape := ⟨1, ![128]⟩
abbrev S128x64 : Shape := ⟨2, ![128, 64]⟩
abbrev S_ : Shape := ⟨0, ![]⟩

class Facts : Prop where
  bcast_S_S128x512x128 : S_.BroadcastsInDim S128x512x128 (![] : Fin 0 → Fin S128x512x128.rank)
  reducesTo_S128x512x128_S_d0_1_2 : S128x512x128.ReducesTo [0, 1, 2] S_
  h_S_ : 0 < S_.numel
  bcast_S_S128x512x128x4 : S_.BroadcastsInDim S128x512x128x4 (![] : Fin 0 → Fin S128x512x128x4.rank)
  reducesTo_S128x512x128x4_S_d0_1_2_3 : S128x512x128x4.ReducesTo [0, 1, 2, 3] S_

variable [Facts]

def fn {F : FTy → Type} [FloatOps F] (main_arg0 : FVec F S128x512x128 .f32) (main_arg1 : FVec F S128x512x128x4 .f32) (main_arg2 : IVec S128 32) (main_arg3 : IVec S128x64 32) : IVec S_ 1 :=
  let main_v0 : FVec F S128x512x128 .f32 := Host.absf main_arg0
  let main_cst : FVec F S_ .f32 := constant S_ .f32 0x7F800000#32
  let main_v1 : FVec F S128x512x128 .f32 := broadcastInDim S128x512x128 ![] bcast_S_S128x512x128 main_cst
  let main_v2 : IVec S128x512x128 1 := cmpf .olt main_v0 main_v1
  let main_c : IVec S_ 1 := constantI S_ 1 1#1
  let main_v3 : IVec S_ 1 := (fun x v => Host.reduce IntOp.andi x v reducesTo_S128x512x128_S_d0_1_2 h_S_) main_v2 main_c
  let main_v4 : FVec F S128x512x128x4 .f32 := Host.absf main_arg1
  let main_cst_0 : FVec F S_ .f32 := constant S_ .f32 0x7F800000#32
  let main_v5 : FVec F S128x512x128x4 .f32 := broadcastInDim S128x512x128x4 ![] bcast_S_S128x512x128x4 main_cst_0
  let main_v6 : IVec S128x512x128x4 1 := cmpf .olt main_v4 main_v5
  let main_c_1 : IVec S_ 1 := constantI S_ 1 1#1
  let main_v7 : IVec S_ 1 := (fun x v => Host.reduce IntOp.andi x v reducesTo_S128x512x128x4_S_d0_1_2_3 h_S_) main_v6 main_c_1
  let main_v8 : IVec S_ 1 := andi main_v3 main_v7
  main_v8
-- ==== Kernel.lean ====
abbrev S128x512x128 : Shape := ⟨3, ![128, 512, 128]⟩
abbrev S128x512x128x4 : Shape := ⟨4, ![128, 512, 128, 4]⟩
abbrev S128 : Shape := ⟨1, ![128]⟩
abbrev S128x64 : Shape := ⟨2, ![128, 64]⟩
abbrev S4 : Shape := ⟨1, ![4]⟩
abbrev S4x128x512x128 : Shape := ⟨4, ![4, 128, 512, 128]⟩
abbrev S65536x128 : Shape := ⟨2, ![65536, 128]⟩
abbrev S_ : Shape := ⟨0, ![]⟩
abbrev S128x64x1 : Shape := ⟨3, ![128, 64, 1]⟩
abbrev S128x64x128 : Shape := ⟨3, ![128, 64, 128]⟩
abbrev S128x1 : Shape := ⟨2, ![128, 1]⟩
abbrev S1x4 : Shape := ⟨2, ![1, 4]⟩
abbrev S4x8x512x128 : Shape := ⟨4, ![4, 8, 512, 128]⟩
abbrev S8x512x128 : Shape := ⟨3, ![8, 512, 128]⟩
abbrev S8x64x128 : Shape := ⟨3, ![8, 64, 128]⟩
abbrev S8x1 : Shape := ⟨2, ![8, 1]⟩
abbrev S8x512 : Shape := ⟨2, ![8, 512]⟩
abbrev S1x8x511x128 : Shape := ⟨4, ![1, 8, 511, 128]⟩
abbrev S8x511x128 : Shape := ⟨3, ![8, 511, 128]⟩
abbrev S8x511 : Shape := ⟨2, ![8, 511]⟩
abbrev S8x511x1 : Shape := ⟨3, ![8, 511, 1]⟩
abbrev S8x511x64 : Shape := ⟨3, ![8, 511, 64]⟩
abbrev S8x511x65 : Shape := ⟨3, ![8, 511, 65]⟩
abbrev S8 : Shape := ⟨1, ![8]⟩
abbrev S1 : Shape := ⟨1, ![1]⟩
abbrev S1x1 : Shape := ⟨2, ![1, 1]⟩
abbrev S1x8x510x128 : Shape := ⟨4, ![1, 8, 510, 128]⟩
abbrev S8x510x128 : Shape := ⟨3, ![8, 510, 128]⟩
abbrev S8x510 : Shape := ⟨2, ![8, 510]⟩
abbrev S8x510x1 : Shape := ⟨3, ![8, 510, 1]⟩
abbrev S8x510x64 : Shape := ⟨3, ![8, 510, 64]⟩
abbrev S8x510x65 : Shape := ⟨3, ![8, 510, 65]⟩
abbrev S1x8x509x128 : Shape := ⟨4, ![1, 8, 509, 128]⟩
abbrev S8x509x128 : Shape := ⟨3, ![8, 509, 128]⟩
abbrev S8x509 : Shape := ⟨2, ![8, 509]⟩
abbrev S8x509x1 : Shape := ⟨3, ![8, 509, 1]⟩
abbrev S8x509x64 : Shape := ⟨3, ![8, 509, 64]⟩
abbrev S8x509x65 : Shape := ⟨3, ![8, 509, 65]⟩
abbrev S1x8x508x128 : Shape := ⟨4, ![1, 8, 508, 128]⟩
abbrev S8x508x128 : Shape := ⟨3, ![8, 508, 128]⟩
abbrev S8x508 : Shape := ⟨2, ![8, 508]⟩
abbrev S8x508x1 : Shape := ⟨3, ![8, 508, 1]⟩
abbrev S8x508x64 : Shape := ⟨3, ![8, 508, 64]⟩
abbrev S8x508x65 : Shape := ⟨3, ![8, 508, 65]⟩

abbrev nBuf : Space → Nat
  | .hbm => 26
  | .vmem => 9
  | .smem => 0
  | _ => 0

abbrev bufTy : (tb : Table) → Fin (tcTables nBuf tb) → BufTy
  | .hbm, ⟨0, _⟩ => ⟨S128x512x128, .f32⟩
  | .hbm, ⟨1, _⟩ => ⟨S128x512x128x4, .f32⟩
  | .hbm, ⟨2, _⟩ => ⟨S128, .i32⟩
  | .hbm, ⟨3, _⟩ => ⟨S128x64, .i32⟩
  | .hbm, ⟨4, _⟩ => ⟨S4, .f32⟩
  | .hbm, ⟨5, _⟩ => ⟨S128x512x128, .bf16⟩
  | .hbm, ⟨6, _⟩ => ⟨S128x512x128x4, .bf16⟩
  | .hbm, ⟨7, _⟩ => ⟨S4x128x512x128, .bf16⟩
  | .hbm, ⟨8, _⟩ => ⟨S65536x128, .bf16⟩
  | .hbm, ⟨9, _⟩ => ⟨S_, .i32⟩
  | .hbm, ⟨10, _⟩ => ⟨S128x64, .i32⟩
  | .hbm, ⟨11, _⟩ => ⟨S128x64, .i1⟩
  | .hbm, ⟨12, _⟩ => ⟨S_, .i32⟩
  | .hbm, ⟨13, _⟩ => ⟨S128x64, .i32⟩
  | .hbm, ⟨14, _⟩ => ⟨S128x64, .i32⟩
  | .hbm, ⟨15, _⟩ => ⟨S128x64, .i32⟩
  | .hbm, ⟨16, _⟩ => ⟨S128x64x1, .i32⟩
  | .hbm, ⟨17, _⟩ => ⟨S128x64x128, .bf16⟩
  | .hbm, ⟨18, _⟩ => ⟨S128x1, .i32⟩
  | .hbm, ⟨19, _⟩ => ⟨S1x4, .f32⟩
  | .hbm, ⟨20, _⟩ => ⟨S4, .f32⟩
  | .hbm, ⟨21, _⟩ => ⟨S4, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S4x8x512x128, .bf16⟩
  | .local _ .vmem, ⟨1, _⟩ => ⟨S4x8x512x128, .bf16⟩
  | .local _ .vmem, ⟨2, _⟩ => ⟨S8x512x128, .bf16⟩
  | .local _ .vmem, ⟨3, _⟩ => ⟨S8x512x128, .bf16⟩
  | .local _ .vmem, ⟨4, _⟩ => ⟨S8x64x128, .bf16⟩
  | .local _ .vmem, ⟨5, _⟩ => ⟨S8x64x128, .bf16⟩
  | .local _ .vmem, ⟨6, _⟩ => ⟨S8x1, .i32⟩
  | .local _ .vmem, ⟨7, _⟩ => ⟨S8x1, .i32⟩
  | .local _ .vmem, ⟨8, _⟩ => ⟨S1x4, .f32⟩
  | _, _ => ⟨S128x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  bitsLt_bf16_f32 : FTy.bits .bf16 < FTy.bits .f32
  transposes_S128x512x128x4_S4x128x512x128_3_0_1_2 : S128x512x128x4.Transposes [3, 0, 1, 2] S4x128x512x128
  shapeCasts_S128x512x128_S65536x128 : S128x512x128.ShapeCasts S65536x128
  bcast_S_S128x64 : S_.BroadcastsInDim S128x64 (![] : Fin 0 → Fin S128x64.rank)
  bcast_S128x64_S128x64x1_0_1 : S128x64.BroadcastsInDim S128x64x1 (![0, 1] : Fin 2 → Fin S128x64x1.rank)
  shapeCasts_S128_S128x1 : S128.ShapeCasts S128x1
  inb_S1x4_S1x4_0_0 : ∀ a, (![0, 0] : Fin 2 → Nat) a + S1x4.size a ≤ S1x4.size a
  h_S1x4 : 0 < S1x4.numel
  iota_S8x512_d1_w32 : S8x512.Iotas .tc 32 [1]
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x512 : S8x1.Broadcasts S8x512
  natLt_1_32 : 1 < 32
  inb_S8x64x128_S8x64x128_0_0_0 : ∀ a, (![0, 0, 0] : Fin 3 → Nat) a + S8x64x128.size a ≤ S8x64x128.size a
  h_S8x64x128 : 0 < S8x64x128.numel
  shapeCasts_S8x64x128_S8x64x128 : S8x64x128.ShapeCasts S8x64x128
  inb_S4x8x512x128_S1x8x511x128_0_0_0_0 : ∀ a, (![0, 0, 0, 0] : Fin 4 → Nat) a + S1x8x511x128.size a ≤ S4x8x512x128.size a
  h_S1x8x511x128 : 0 < S1x8x511x128.numel
  shapeCasts_S1x8x511x128_S8x511x128 : S1x8x511x128.ShapeCasts S8x511x128
  slices_S8x512_o0_0_S8x511 : S8x512.Slices ![0, 0] S8x511
  shapeCasts_S8x511_S8x511x1 : S8x511.ShapeCasts S8x511x1
  broadcasts_S8x511x1_S8x511x128 : S8x511x1.Broadcasts S8x511x128
  inb_S8x512x128_S8x511x128_0_1_0 : ∀ a, (![0, 1, 0] : Fin 3 → Nat) a + S8x511x128.size a ≤ S8x512x128.size a
  h_S8x511x128 : 0 < S8x511x128.numel
  shapeCasts_S8x511x128_S8x511x128 : S8x511x128.ShapeCasts S8x511x128
  reduces_S8x511x128_S8x511 : S8x511x128.Reduces [2] S8x511
  concatenates_S8x511x1_S8x511x64_S8x511x65_d2 : Shape.Concatenates [S8x511x1, S8x511x64] S8x511x65 2
  reduces_S8x511x65_S8x511 : S8x511x65.Reduces [2] S8x511
  broadcasts_S8x511x1_S8x511x65 : S8x511x1.Broadcasts S8x511x65
  slices_S8x511x65_o0_0_0_S8x511x1 : S8x511x65.Slices ![0, 0, 0] S8x511x1
  shapeCasts_S8x511x1_S8x511 : S8x511x1.ShapeCasts S8x511
  reduces_S8x511_S8 : S8x511.Reduces [1] S8
  shapeCasts_S8_S8x1 : S8.ShapeCasts S8x1
  reduces_S8x1_S1 : S8x1.Reduces [0] S1
  shapeCasts_S1_S1x1 : S1.ShapeCasts S1x1
  inb_S4x8x512x128_S1x8x510x128_1_0_0_0 : ∀ a, (![1, 0, 0, 0] : Fin 4 → Nat) a + S1x8x510x128.size a ≤ S4x8x512x128.size a
  h_S1x8x510x128 : 0 < S1x8x510x128.numel
  shapeCasts_S1x8x510x128_S8x510x128 : S1x8x510x128.ShapeCasts S8x510x128
  slices_S8x512_o0_0_S8x510 : S8x512.Slices ![0, 0] S8x510
  shapeCasts_S8x510_S8x510x1 : S8x510.ShapeCasts S8x510x1
  broadcasts_S8x510x1_S8x510x128 : S8x510x1.Broadcasts S8x510x128
  inb_S8x512x128_S8x510x128_0_2_0 : ∀ a, (![0, 2, 0] : Fin 3 → Nat) a + S8x510x128.size a ≤ S8x512x128.size a
  h_S8x510x128 : 0 < S8x510x128.numel
  shapeCasts_S8x510x128_S8x510x128 : S8x510x128.ShapeCasts S8x510x128
  reduces_S8x510x128_S8x510 : S8x510x128.Reduces [2] S8x510
  concatenates_S8x510x1_S8x510x64_S8x510x65_d2 : Shape.Concatenates [S8x510x1, S8x510x64] S8x510x65 2
  reduces_S8x510x65_S8x510 : S8x510x65.Reduces [2] S8x510
  broadcasts_S8x510x1_S8x510x65 : S8x510x1.Broadcasts S8x510x65
  slices_S8x510x65_o0_0_0_S8x510x1 : S8x510x65.Slices ![0, 0, 0] S8x510x1
  shapeCasts_S8x510x1_S8x510 : S8x510x1.ShapeCasts S8x510
  reduces_S8x510_S8 : S8x510.Reduces [1] S8
  inb_S4x8x512x128_S1x8x509x128_2_0_0_0 : ∀ a, (![2, 0, 0, 0] : Fin 4 → Nat) a + S1x8x509x128.size a ≤ S4x8x512x128.size a
  h_S1x8x509x128 : 0 < S1x8x509x128.numel
  shapeCasts_S1x8x509x128_S8x509x128 : S1x8x509x128.ShapeCasts S8x509x128
  slices_S8x512_o0_0_S8x509 : S8x512.Slices ![0, 0] S8x509
  shapeCasts_S8x509_S8x509x1 : S8x509.ShapeCasts S8x509x1
  broadcasts_S8x509x1_S8x509x128 : S8x509x1.Broadcasts S8x509x128
  inb_S8x512x128_S8x509x128_0_3_0 : ∀ a, (![0, 3, 0] : Fin 3 → Nat) a + S8x509x128.size a ≤ S8x512x128.size a
  h_S8x509x128 : 0 < S8x509x128.numel
  shapeCasts_S8x509x128_S8x509x128 : S8x509x128.ShapeCasts S8x509x128
  reduces_S8x509x128_S8x509 : S8x509x128.Reduces [2] S8x509
  concatenates_S8x509x1_S8x509x64_S8x509x65_d2 : Shape.Concatenates [S8x509x1, S8x509x64] S8x509x65 2
  reduces_S8x509x65_S8x509 : S8x509x65.Reduces [2] S8x509
  broadcasts_S8x509x1_S8x509x65 : S8x509x1.Broadcasts S8x509x65
  slices_S8x509x65_o0_0_0_S8x509x1 : S8x509x65.Slices ![0, 0, 0] S8x509x1
  shapeCasts_S8x509x1_S8x509 : S8x509x1.ShapeCasts S8x509
  reduces_S8x509_S8 : S8x509.Reduces [1] S8
  inb_S4x8x512x128_S1x8x508x128_3_0_0_0 : ∀ a, (![3, 0, 0, 0] : Fin 4 → Nat) a + S1x8x508x128.size a ≤ S4x8x512x128.size a
  h_S1x8x508x128 : 0 < S1x8x508x128.numel
  shapeCasts_S1x8x508x128_S8x508x128 : S1x8x508x128.ShapeCasts S8x508x128
  slices_S8x512_o0_0_S8x508 : S8x512.Slices ![0, 0] S8x508
  shapeCasts_S8x508_S8x508x1 : S8x508.ShapeCasts S8x508x1
  broadcasts_S8x508x1_S8x508x128 : S8x508x1.Broadcasts S8x508x128
  inb_S8x512x128_S8x508x128_0_4_0 : ∀ a, (![0, 4, 0] : Fin 3 → Nat) a + S8x508x128.size a ≤ S8x512x128.size a
  h_S8x508x128 : 0 < S8x508x128.numel
  shapeCasts_S8x508x128_S8x508x128 : S8x508x128.ShapeCasts S8x508x128
  reduces_S8x508x128_S8x508 : S8x508x128.Reduces [2] S8x508
  concatenates_S8x508x1_S8x508x64_S8x508x65_d2 : Shape.Concatenates [S8x508x1, S8x508x64] S8x508x65 2
  reduces_S8x508x65_S8x508 : S8x508x65.Reduces [2] S8x508
  broadcasts_S8x508x1_S8x508x65 : S8x508x1.Broadcasts S8x508x65
  slices_S8x508x65_o0_0_0_S8x508x1 : S8x508x65.Slices ![0, 0, 0] S8x508x1
  shapeCasts_S8x508x1_S8x508 : S8x508x1.ShapeCasts S8x508
  reduces_S8x508_S8 : S8x508.Reduces [1] S8
  concatenates_S1x1_S1x1_S1x1_S1x1_S1x4_d1 : Shape.Concatenates [S1x1, S1x1, S1x1, S1x1] S1x4 1
  shapeCasts_S1x4_S1x4 : S1x4.ShapeCasts S1x4
  shapeCasts_S1x4_S4 : S1x4.ShapeCasts S4
  reducesTo_S4_S_d0 : S4.ReducesTo [0] S_
  h_S_ : 0 < S_.numel
  gather_S65536x128_S128x64x1_S128x64x128_2_0_n_n_0_2_1128_wf : GatherDims.WF S65536x128 S128x64x1 S128x64x128 [2] [0] [] [0] [] 2 ![1, 128]
  dot_S8x511x128_S8x64x128_S8x511x64_2_2_1_1_0_0_wf : DotDims.WF S8x511x128 S8x64x128 S8x511x64 [2] [2] [1] [1] [0] [0]
  dot_S8x510x128_S8x64x128_S8x510x64_2_2_1_1_0_0_wf : DotDims.WF S8x510x128 S8x64x128 S8x510x64 [2] [2] [1] [1] [0] [0]
  dot_S8x509x128_S8x64x128_S8x509x64_2_2_1_1_0_0_wf : DotDims.WF S8x509x128 S8x64x128 S8x509x64 [2] [2] [1] [1] [0] [0]
  dot_S8x508x128_S8x64x128_S8x508x64_2_2_1_1_0_0_wf : DotDims.WF S8x508x128 S8x64x128 S8x508x64 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x8x512x128.size a ≤ S4x128x512x128.size a
  hwx0_0 : ∀ i : grid0.Coords, EltTy.bits .bf16 = 32 ∨ (Rect.block (s := S4x128x512x128) S4x8x512x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x128.size a ≤ S128x512x128.size a
  hwx0_1 : ∀ i : grid0.Coords, EltTy.bits .bf16 = 32 ∨ (Rect.block (s := S128x512x128) S8x512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x64x128.size a ≤ S128x64x128.size a
  hwx0_2 : ∀ i : grid0.Coords, EltTy.bits .bf16 = 32 ∨ (Rect.block (s := S128x64x128) S8x64x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S128x1.size a
  hwx0_3 : ∀ i : grid0.Coords, EltTy.bits .i32 = 32 ∨ (Rect.block (s := S128x1) S8x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4.size a ≤ S1x4.size a
  hwx0_4 : ∀ i : grid0.Coords, EltTy.bits .f32 = 32 ∨ (Rect.block (s := S1x4) S1x4.size (cc0_transform_4 i) (hinb0_4 i)).WholeWords (EltTy.packing .f32)

variable [Facts₀]

def gather_S65536x128_S128x64x1_S128x64x128_2_0_n_n_0_2_1128 : GatherDims S65536x128 S128x64x1 S128x64x128 where
  offsetDims := [2]
  collapsedSliceDims := [0]
  operandBatchingDims := []
  startIndicesBatchingDims := []
  startIndexMap := [0]
  indexVectorDim := 2
  sliceSizes := ![1, 128]
  wf := gather_S65536x128_S128x64x1_S128x64x128_2_0_n_n_0_2_1128_wf
def dot_S8x511x128_S8x64x128_S8x511x64_2_2_1_1_0_0 : DotDims S8x511x128 S8x64x128 S8x511x64 where
  lhsContracting := [2]
  rhsContracting := [2]
  lhsNonContracting := [1]
  rhsNonContracting := [1]
  lhsBatch := [0]
  rhsBatch := [0]
  wf := dot_S8x511x128_S8x64x128_S8x511x64_2_2_1_1_0_0_wf
def dot_S8x510x128_S8x64x128_S8x510x64_2_2_1_1_0_0 : DotDims S8x510x128 S8x64x128 S8x510x64 where
  lhsContracting := [2]
  rhsContracting := [2]
  lhsNonContracting := [1]
  rhsNonContracting := [1]
  lhsBatch := [0]
  rhsBatch := [0]
  wf := dot_S8x510x128_S8x64x128_S8x510x64_2_2_1_1_0_0_wf
def dot_S8x509x128_S8x64x128_S8x509x64_2_2_1_1_0_0 : DotDims S8x509x128 S8x64x128 S8x509x64 where
  lhsContracting := [2]
  rhsContracting := [2]
  lhsNonContracting := [1]
  rhsNonContracting := [1]
  lhsBatch := [0]
  rhsBatch := [0]
  wf := dot_S8x509x128_S8x64x128_S8x509x64_2_2_1_1_0_0_wf
def dot_S8x508x128_S8x64x128_S8x508x64_2_2_1_1_0_0 : DotDims S8x508x128 S8x64x128 S8x508x64 where
  lhsContracting := [2]
  rhsContracting := [2]
  lhsNonContracting := [1]
  rhsNonContracting := [1]
  lhsBatch := [0]
  rhsBatch := [0]
  wf := dot_S8x508x128_S8x64x128_S8x508x64_2_2_1_1_0_0_wf

abbrev win0_0 : Pipeline.Window sig grid0 :=
  Pipeline.Window.ofSpec (Memref.whole main_v2) S4x8x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S8x64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S8x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x4.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x512x128 : Shape := ⟨3, ![128, 512, 128]⟩
abbrev S128x512x128x4 : Shape := ⟨4, ![128, 512, 128, 4]⟩
abbrev S128 : Shape := ⟨1, ![128]⟩
abbrev S128x64 : Shape := ⟨2, ![128, 64]⟩
abbrev S512 : Shape := ⟨1, ![512]⟩
abbrev S1x512 : Shape := ⟨2, ![1, 512]⟩
abbrev S128x1 : Shape := ⟨2, ![128, 1]⟩
abbrev S128x512 : Shape := ⟨2, ![128, 512]⟩
abbrev S128x512x1x1 : Shape := ⟨4, ![128, 512, 1, 1]⟩
abbrev S65536x128 : Shape := ⟨2, ![65536, 128]⟩
abbrev S_ : Shape := ⟨0, ![]⟩
abbrev S128x64x1 : Shape := ⟨3, ![128, 64, 1]⟩
abbrev S128x64x128 : Shape := ⟨3, ![128, 64, 128]⟩
abbrev S128x511x128x1 : Shape := ⟨4, ![128, 511, 128, 1]⟩
abbrev S128x511x128 : Shape := ⟨3, ![128, 511, 128]⟩
abbrev S128x511 : Shape := ⟨2, ![128, 511]⟩
abbrev S128x511x64 : Shape := ⟨3, ![128, 511, 64]⟩
abbrev S128x511x1 : Shape := ⟨3, ![128, 511, 1]⟩
abbrev S128x511x65 : Shape := ⟨3, ![128, 511, 65]⟩
abbrev S128x510x128x1 : Shape := ⟨4, ![128, 510, 128, 1]⟩
abbrev S128x510x128 : Shape := ⟨3, ![128, 510, 128]⟩
abbrev S128x510 : Shape := ⟨2, ![128, 510]⟩
abbrev S128x510x64 : Shape := ⟨3, ![128, 510, 64]⟩
abbrev S128x510x1 : Shape := ⟨3, ![128, 510, 1]⟩
abbrev S128x510x65 : Shape := ⟨3, ![128, 510, 65]⟩
abbrev S128x509x128x1 : Shape := ⟨4, ![128, 509, 128, 1]⟩
abbrev S128x509x128 : Shape := ⟨3, ![128, 509, 128]⟩
abbrev S128x509 : Shape := ⟨2, ![128, 509]⟩
abbrev S128x509x64 : Shape := ⟨3, ![128, 509, 64]⟩
abbrev S128x509x1 : Shape := ⟨3, ![128, 509, 1]⟩
abbrev S128x509x65 : Shape := ⟨3, ![128, 509, 65]⟩
abbrev S128x508x128x1 : Shape := ⟨4, ![128, 508, 128, 1]⟩
abbrev S128x508x128 : Shape := ⟨3, ![128, 508, 128]⟩
abbrev S128x508 : Shape := ⟨2, ![128, 508]⟩
abbrev S128x508x64 : Shape := ⟨3, ![128, 508, 64]⟩
abbrev S128x508x1 : Shape := ⟨3, ![128, 508, 1]⟩
abbrev S128x508x65 : Shape := ⟨3, ![128, 508, 65]⟩
abbrev S1 : Shape := ⟨1, ![1]⟩
abbrev S4 : Shape := ⟨1, ![4]⟩

abbrev nBuf : Space → Nat
  | .hbm => 157
  | .vmem => 0
  | .smem => 0
  | _ => 0

abbrev hbmTy0_0 (i : Nat) : BufTy := match i % 128 with
  | 0 => ⟨S128x512x128, .f32⟩
  | 1 => ⟨S128x512x128x4, .f32⟩
  | 2 => ⟨S128, .i32⟩
  | 3 => ⟨S128x64, .i32⟩
  | 4 => ⟨S512, .i32⟩
  | 5 => ⟨S1x512, .i32⟩
  | 6 => ⟨S128x1, .i32⟩
  | 7 => ⟨S128x512, .i32⟩
  | 8 => ⟨S128x512, .i32⟩
  | 9 => ⟨S128x512, .i1⟩
  | 10 => ⟨S128x512, .f32⟩
  | 11 => ⟨S128x512x1x1, .f32⟩
  | 12 => ⟨S128x512x128x4, .f32⟩
  | 13 => ⟨S128x512x128x4, .f32⟩
  | 14 => ⟨S65536x128, .f32⟩
  | 15 => ⟨S_, .i32⟩
  | 16 => ⟨S128x64, .i32⟩
  | 17 => ⟨S128x64, .i1⟩
  | 18 => ⟨S_, .i32⟩
  | 19 => ⟨S128x64, .i32⟩
  | 20 => ⟨S128x64, .i32⟩
  | 21 => ⟨S128x64, .i32⟩
  | 22 => ⟨S128x64x1, .i32⟩
  | 23 => ⟨S128x64x128, .f32⟩
  | 24 => ⟨S128x511x128x1, .f32⟩
  | 25 => ⟨S128x511x128, .f32⟩
  | 26 => ⟨S128x511x128, .f32⟩
  | 27 => ⟨S128x511x128, .f32⟩
  | 28 => ⟨S_, .f32⟩
  | 29 => ⟨S128x511, .f32⟩
  | 30 => ⟨S128x511x64, .f32⟩
  | 31 => ⟨S128x511x1, .f32⟩
  | 32 => ⟨S128x511x65, .f32⟩
  | 33 => ⟨S_, .f32⟩
  | 34 => ⟨S128x511, .f32⟩
  | 35 => ⟨S_, .f32⟩
  | 36 => ⟨S128x511, .f32⟩
  | 37 => ⟨S128x511, .f32⟩
  | 38 => ⟨S128x511x1, .f32⟩
  | 39 => ⟨S128x511x65, .f32⟩
  | 40 => ⟨S128x511x65, .f32⟩
  | 41 => ⟨S128x511x65, .f32⟩
  | 42 => ⟨S_, .f32⟩
  | 43 => ⟨S128x511, .f32⟩
  | 44 => ⟨S128x511x1, .f32⟩
  | 45 => ⟨S128x511x1, .f32⟩
  | 46 => ⟨S128x511x65, .f32⟩
  | 47 => ⟨S128x511x65, .f32⟩
  | 48 => ⟨S128x511x1, .f32⟩
  | 49 => ⟨S128x511, .f32⟩
  | 50 => ⟨S_, .f32⟩
  | 51 => ⟨S_, .f32⟩
  | 52 => ⟨S_, .f32⟩
  | 53 => ⟨S_, .f32⟩
  | 54 => ⟨S_, .f32⟩
  | 55 => ⟨S128x510x128x1, .f32⟩
  | 56 => ⟨S128x510x128, .f32⟩
  | 57 => ⟨S128x510x128, .f32⟩
  | 58 => ⟨S128x510x128, .f32⟩
  | 59 => ⟨S_, .f32⟩
  | 60 => ⟨S128x510, .f32⟩
  | 61 => ⟨S128x510x64, .f32⟩
  | 62 => ⟨S128x510x1, .f32⟩
  | 63 => ⟨S128x510x65, .f32⟩
  | 64 => ⟨S_, .f32⟩
  | 65 => ⟨S128x510, .f32⟩
  | 66 => ⟨S_, .f32⟩
  | 67 => ⟨S128x510, .f32⟩
  | 68 => ⟨S128x510, .f32⟩
  | 69 => ⟨S128x510x1, .f32⟩
  | 70 => ⟨S128x510x65, .f32⟩
  | 71 => ⟨S128x510x65, .f32⟩
  | 72 => ⟨S128x510x65, .f32⟩
  | 73 => ⟨S_, .f32⟩
  | 74 => ⟨S128x510, .f32⟩
  | 75 => ⟨S128x510x1, .f32⟩
  | 76 => ⟨S128x510x1, .f32⟩
  | 77 => ⟨S128x510x65, .f32⟩
  | 78 => ⟨S128x510x65, .f32⟩
  | 79 => ⟨S128x510x1, .f32⟩
  | 80 => ⟨S128x510, .f32⟩
  | 81 => ⟨S_, .f32⟩
  | 82 => ⟨S_, .f32⟩
  | 83 => ⟨S_, .f32⟩
  | 84 => ⟨S_, .f32⟩
  | 85 => ⟨S_, .f32⟩
  | 86 => ⟨S128x509x128x1, .f32⟩
  | 87 => ⟨S128x509x128, .f32⟩
  | 88 => ⟨S128x509x128, .f32⟩
  | 89 => ⟨S128x509x128, .f32⟩
  | 90 => ⟨S_, .f32⟩
  | 91 => ⟨S128x509, .f32⟩
  | 92 => ⟨S128x509x64, .f32⟩
  | 93 => ⟨S128x509x1, .f32⟩
  | 94 => ⟨S128x509x65, .f32⟩
  | 95 => ⟨S_, .f32⟩
  | 96 => ⟨S128x509, .f32⟩
  | 97 => ⟨S_, .f32⟩
  | 98 => ⟨S128x509, .f32⟩
  | 99 => ⟨S128x509, .f32⟩
  | 100 => ⟨S128x509x1, .f32⟩
  | 101 => ⟨S128x509x65, .f32⟩
  | 102 => ⟨S128x509x65, .f32⟩
  | 103 => ⟨S128x509x65, .f32⟩
  | 104 => ⟨S_, .f32⟩
  | 105 => ⟨S128x509, .f32⟩
  | 106 => ⟨S128x509x1, .f32⟩
  | 107 => ⟨S128x509x1, .f32⟩
  | 108 => ⟨S128x509x65, .f32⟩
  | 109 => ⟨S128x509x65, .f32⟩
  | 110 => ⟨S128x509x1, .f32⟩
  | 111 => ⟨S128x509, .f32⟩
  | 112 => ⟨S_, .f32⟩
  | 113 => ⟨S_, .f32⟩
  | 114 => ⟨S_, .f32⟩
  | 115 => ⟨S_, .f32⟩
  | 116 => ⟨S_, .f32⟩
  | 117 => ⟨S128x508x128x1, .f32⟩
  | 118 => ⟨S128x508x128, .f32⟩
  | 119 => ⟨S128x508x128, .f32⟩
  | 120 => ⟨S128x508x128, .f32⟩
  | 121 => ⟨S_, .f32⟩
  | 122 => ⟨S128x508, .f32⟩
  | 123 => ⟨S128x508x64, .f32⟩
  | 124 => ⟨S128x508x1, .f32⟩
  | 125 => ⟨S128x508x65, .f32⟩
  | 126 => ⟨S_, .f32⟩
  | 127 => ⟨S128x508, .f32⟩
  | _ => ⟨S128x512x128, .f32⟩

abbrev hbmTy0_1 (i : Nat) : BufTy := match i % 128 with
  | 0 => ⟨S_, .f32⟩
  | 1 => ⟨S128x508, .f32⟩
  | 2 => ⟨S128x508, .f32⟩
  | 3 => ⟨S128x508x1, .f32⟩
  | 4 => ⟨S128x508x65, .f32⟩
  | 5 => ⟨S128x508x65, .f32⟩
  | 6 => ⟨S128x508x65, .f32⟩
  | 7 => ⟨S_, .f32⟩
  | 8 => ⟨S128x508, .f32⟩
  | 9 => ⟨S128x508x1, .f32⟩
  | 10 => ⟨S128x508x1, .f32⟩
  | 11 => ⟨S128x508x65, .f32⟩
  | 12 => ⟨S128x508x65, .f32⟩
  | 13 => ⟨S128x508x1, .f32⟩
  | 14 => ⟨S128x508, .f32⟩
  | 15 => ⟨S_, .f32⟩
  | 16 => ⟨S_, .f32⟩
  | 17 => ⟨S_, .f32⟩
  | 18 => ⟨S_, .f32⟩
  | 19 => ⟨S_, .f32⟩
  | 20 => ⟨S1, .f32⟩
  | 21 => ⟨S1, .f32⟩
  | 22 => ⟨S1, .f32⟩
  | 23 => ⟨S1, .f32⟩
  | 24 => ⟨S4, .f32⟩
  | 25 => ⟨S_, .f32⟩
  | 26 => ⟨S_, .f32⟩
  | 27 => ⟨S_, .f32⟩
  | 28 => ⟨S_, .f32⟩
  | _ => ⟨S128x512x128, .f32⟩

abbrev hbmTy (i : Nat) : BufTy := match i / 128 with
  | 0 => hbmTy0_0 i
  | 1 => hbmTy0_1 i
  | _ => ⟨S128x512x128, .f32⟩

abbrev bufTy : (tb : Table) → Fin (tcTables nBuf tb) → BufTy
  | .hbm, ⟨i, _⟩ => hbmTy i
  | _, _ => ⟨S128x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_call0_cst : Ref sig .tc := ⟨.hbm, 33, rfl⟩
abbrev main_call0_v0 : Ref sig .tc := ⟨.hbm, 34, rfl⟩
abbrev main_call0_cst_0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_cst_1 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_1 : Ref sig .tc := ⟨.hbm, 50, rfl⟩
abbrev main_v29 : Ref sig .tc := ⟨.hbm, 51, rfl⟩
abbrev main_cst_2 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_3 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call1_cst : Ref sig .tc := ⟨.hbm, 64, rfl⟩
abbrev main_call1_v0 : Ref sig .tc := ⟨.hbm, 65, rfl⟩
abbrev main_call1_cst_0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_cst_1 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_cst_4 : Ref sig .tc := ⟨.hbm, 81, rfl⟩
abbrev main_v43 : Ref sig .tc := ⟨.hbm, 82, rfl⟩
abbrev main_cst_5 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_cst_6 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_call2_cst : Ref sig .tc := ⟨.hbm, 95, rfl⟩
abbrev main_call2_v0 : Ref sig .tc := ⟨.hbm, 96, rfl⟩
abbrev main_call2_cst_0 : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_call2_v6 : Ref sig .tc := ⟨.hbm, 103, rfl⟩
abbrev main_call2_cst_1 : Ref sig .tc := ⟨.hbm, 104, rfl⟩
abbrev main_call2_v7 : Ref sig .tc := ⟨.hbm, 105, rfl⟩
abbrev main_call2_v8 : Ref sig .tc := ⟨.hbm, 106, rfl⟩
abbrev main_call2_v9 : Ref sig .tc := ⟨.hbm, 107, rfl⟩
abbrev main_call2_v10 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_cst_7 : Ref sig .tc := ⟨.hbm, 112, rfl⟩
abbrev main_v57 : Ref sig .tc := ⟨.hbm, 113, rfl⟩
abbrev main_cst_8 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_cst_9 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_call3_cst : Ref sig .tc := ⟨.hbm, 126, rfl⟩
abbrev main_call3_v0 : Ref sig .tc := ⟨.hbm, 127, rfl⟩
abbrev main_call3_cst_0 : Ref sig .tc := ⟨.hbm, 128, rfl⟩
abbrev main_call3_v1 : Ref sig .tc := ⟨.hbm, 129, rfl⟩
abbrev main_call3_v2 : Ref sig .tc := ⟨.hbm, 130, rfl⟩
abbrev main_call3_v3 : Ref sig .tc := ⟨.hbm, 131, rfl⟩
abbrev main_call3_v4 : Ref sig .tc := ⟨.hbm, 132, rfl⟩
abbrev main_call3_v5 : Ref sig .tc := ⟨.hbm, 133, rfl⟩
abbrev main_call3_v6 : Ref sig .tc := ⟨.hbm, 134, rfl⟩
abbrev main_call3_cst_1 : Ref sig .tc := ⟨.hbm, 135, rfl⟩
abbrev main_call3_v7 : Ref sig .tc := ⟨.hbm, 136, rfl⟩
abbrev main_call3_v8 : Ref sig .tc := ⟨.hbm, 137, rfl⟩
abbrev main_call3_v9 : Ref sig .tc := ⟨.hbm, 138, rfl⟩
abbrev main_call3_v10 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_cst_10 : Ref sig .tc := ⟨.hbm, 143, rfl⟩
abbrev main_v71 : Ref sig .tc := ⟨.hbm, 144, rfl⟩
abbrev main_cst_11 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_cst_12 : Ref sig .tc := ⟨.hbm, 153, rfl⟩
abbrev main_v79 : Ref sig .tc := ⟨.hbm, 154, rfl⟩
abbrev main_cst_13 : Ref sig .tc := ⟨.hbm, 155, rfl⟩
abbrev main_v80 : Ref sig .tc := ⟨.hbm, 156, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S128_S128x1_0 : S128.BroadcastsInDim S128x1 (![0] : Fin 1 → Fin S128x1.rank)
  bcast_S1x512_S128x512_0_1 : S1x512.BroadcastsInDim S128x512 (![0, 1] : Fin 2 → Fin S128x512.rank)
  bcast_S128x1_S128x512_0_1 : S128x1.BroadcastsInDim S128x512 (![0, 1] : Fin 2 → Fin S128x512.rank)
  bcast_S128x512_S128x512x1x1_0_1 : S128x512.BroadcastsInDim S128x512x1x1 (![0, 1] : Fin 2 → Fin S128x512x1x1.rank)
  bcast_S128x512x1x1_S128x512x128x4_0_1_2_3 : S128x512x1x1.BroadcastsInDim S128x512x128x4 (![0, 1, 2, 3] : Fin 4 → Fin S128x512x128x4.rank)
  shapeCasts_S128x512x128_S65536x128 : S128x512x128.ShapeCasts S65536x128
  bcast_S_S128x64 : S_.BroadcastsInDim S128x64 (![] : Fin 0 → Fin S128x64.rank)
  bcast_S128x64_S128x64x1_0_1 : S128x64.BroadcastsInDim S128x64x1 (![0, 1] : Fin 2 → Fin S128x64x1.rank)
  slices_S128x512x128x4_S128x511x128x1_0_0_0_0 : S128x512x128x4.Slices ![0, 0, 0, 0] S128x511x128x1
  shapeCasts_S128x511x128x1_S128x511x128 : S128x511x128x1.ShapeCasts S128x511x128
  slices_S128x512x128_S128x511x128_0_1_0 : S128x512x128.Slices ![0, 1, 0] S128x511x128
  reducesTo_S128x511x128_S128x511_d2 : S128x511x128.ReducesTo [2] S128x511
  h_S_ : 0 < S_.numel
  bcast_S128x511_S128x511x1_0_1 : S128x511.BroadcastsInDim S128x511x1 (![0, 1] : Fin 2 → Fin S128x511x1.rank)
  concatenates_S128x511x1_S128x511x64_S128x511x65_d2 : Shape.Concatenates [S128x511x1, S128x511x64] S128x511x65 2
  reducesTo_S128x511x65_S128x511_d2 : S128x511x65.ReducesTo [2] S128x511
  bcast_S_S128x511 : S_.BroadcastsInDim S128x511 (![] : Fin 0 → Fin S128x511.rank)
  bcast_S128x511x1_S128x511x65_0_1_2 : S128x511x1.BroadcastsInDim S128x511x65 (![0, 1, 2] : Fin 3 → Fin S128x511x65.rank)
  slices_S128x511x65_S128x511x1_0_0_0 : S128x511x65.Slices ![0, 0, 0] S128x511x1
  shapeCasts_S128x511x1_S128x511 : S128x511x1.ShapeCasts S128x511
  reducesTo_S128x511_S_d0_1 : S128x511.ReducesTo [0, 1] S_
  slices_S128x512x128x4_S128x510x128x1_0_0_0_1 : S128x512x128x4.Slices ![0, 0, 0, 1] S128x510x128x1
  shapeCasts_S128x510x128x1_S128x510x128 : S128x510x128x1.ShapeCasts S128x510x128
  slices_S128x512x128_S128x510x128_0_2_0 : S128x512x128.Slices ![0, 2, 0] S128x510x128
  reducesTo_S128x510x128_S128x510_d2 : S128x510x128.ReducesTo [2] S128x510
  bcast_S128x510_S128x510x1_0_1 : S128x510.BroadcastsInDim S128x510x1 (![0, 1] : Fin 2 → Fin S128x510x1.rank)
  concatenates_S128x510x1_S128x510x64_S128x510x65_d2 : Shape.Concatenates [S128x510x1, S128x510x64] S128x510x65 2
  reducesTo_S128x510x65_S128x510_d2 : S128x510x65.ReducesTo [2] S128x510
  bcast_S_S128x510 : S_.BroadcastsInDim S128x510 (![] : Fin 0 → Fin S128x510.rank)
  bcast_S128x510x1_S128x510x65_0_1_2 : S128x510x1.BroadcastsInDim S128x510x65 (![0, 1, 2] : Fin 3 → Fin S128x510x65.rank)
  slices_S128x510x65_S128x510x1_0_0_0 : S128x510x65.Slices ![0, 0, 0] S128x510x1
  shapeCasts_S128x510x1_S128x510 : S128x510x1.ShapeCasts S128x510
  reducesTo_S128x510_S_d0_1 : S128x510.ReducesTo [0, 1] S_
  slices_S128x512x128x4_S128x509x128x1_0_0_0_2 : S128x512x128x4.Slices ![0, 0, 0, 2] S128x509x128x1
  shapeCasts_S128x509x128x1_S128x509x128 : S128x509x128x1.ShapeCasts S128x509x128
  slices_S128x512x128_S128x509x128_0_3_0 : S128x512x128.Slices ![0, 3, 0] S128x509x128
  reducesTo_S128x509x128_S128x509_d2 : S128x509x128.ReducesTo [2] S128x509
  bcast_S128x509_S128x509x1_0_1 : S128x509.BroadcastsInDim S128x509x1 (![0, 1] : Fin 2 → Fin S128x509x1.rank)
  concatenates_S128x509x1_S128x509x64_S128x509x65_d2 : Shape.Concatenates [S128x509x1, S128x509x64] S128x509x65 2
  reducesTo_S128x509x65_S128x509_d2 : S128x509x65.ReducesTo [2] S128x509
  bcast_S_S128x509 : S_.BroadcastsInDim S128x509 (![] : Fin 0 → Fin S128x509.rank)
  bcast_S128x509x1_S128x509x65_0_1_2 : S128x509x1.BroadcastsInDim S128x509x65 (![0, 1, 2] : Fin 3 → Fin S128x509x65.rank)
  slices_S128x509x65_S128x509x1_0_0_0 : S128x509x65.Slices ![0, 0, 0] S128x509x1
  shapeCasts_S128x509x1_S128x509 : S128x509x1.ShapeCasts S128x509
  reducesTo_S128x509_S_d0_1 : S128x509.ReducesTo [0, 1] S_
  slices_S128x512x128x4_S128x508x128x1_0_0_0_3 : S128x512x128x4.Slices ![0, 0, 0, 3] S128x508x128x1
  shapeCasts_S128x508x128x1_S128x508x128 : S128x508x128x1.ShapeCasts S128x508x128
  slices_S128x512x128_S128x508x128_0_4_0 : S128x512x128.Slices ![0, 4, 0] S128x508x128
  reducesTo_S128x508x128_S128x508_d2 : S128x508x128.ReducesTo [2] S128x508
  bcast_S128x508_S128x508x1_0_1 : S128x508.BroadcastsInDim S128x508x1 (![0, 1] : Fin 2 → Fin S128x508x1.rank)
  concatenates_S128x508x1_S128x508x64_S128x508x65_d2 : Shape.Concatenates [S128x508x1, S128x508x64] S128x508x65 2
  reducesTo_S128x508x65_S128x508_d2 : S128x508x65.ReducesTo [2] S128x508
  bcast_S_S128x508 : S_.BroadcastsInDim S128x508 (![] : Fin 0 → Fin S128x508.rank)
  bcast_S128x508x1_S128x508x65_0_1_2 : S128x508x1.BroadcastsInDim S128x508x65 (![0, 1, 2] : Fin 3 → Fin S128x508x65.rank)
  slices_S128x508x65_S128x508x1_0_0_0 : S128x508x65.Slices ![0, 0, 0] S128x508x1
  shapeCasts_S128x508x1_S128x508 : S128x508x1.ShapeCasts S128x508
  reducesTo_S128x508_S_d0_1 : S128x508.ReducesTo [0, 1] S_
  bcast_S_S1 : S_.BroadcastsInDim S1 (![] : Fin 0 → Fin S1.rank)
  concatenates_S1_S1_S1_S1_S4_d0 : Shape.Concatenates [S1, S1, S1, S1] S4 0
  reducesTo_S4_S_d0 : S4.ReducesTo [0] S_
  gather_S65536x128_S128x64x1_S128x64x128_2_0_n_n_0_2_1128_wf : GatherDims.WF S65536x128 S128x64x1 S128x64x128 [2] [0] [] [0] [] 2 ![1, 128]
  dot_S128x511x128_S128x64x128_S128x511x64_2_2_1_1_0_0_wf : DotDims.WF S128x511x128 S128x64x128 S128x511x64 [2] [2] [1] [1] [0] [0]
  dot_S128x510x128_S128x64x128_S128x510x64_2_2_1_1_0_0_wf : DotDims.WF S128x510x128 S128x64x128 S128x510x64 [2] [2] [1] [1] [0] [0]
  dot_S128x509x128_S128x64x128_S128x509x64_2_2_1_1_0_0_wf : DotDims.WF S128x509x128 S128x64x128 S128x509x64 [2] [2] [1] [1] [0] [0]
  dot_S128x508x128_S128x64x128_S128x508x64_2_2_1_1_0_0_wf : DotDims.WF S128x508x128 S128x64x128 S128x508x64 [2] [2] [1] [1] [0] [0]

variable [Facts₀]

def gather_S65536x128_S128x64x1_S128x64x128_2_0_n_n_0_2_1128 : GatherDims S65536x128 S128x64x1 S128x64x128 where
  offsetDims := [2]
  collapsedSliceDims := [0]
  operandBatchingDims := []
  startIndicesBatchingDims := []
  startIndexMap := [0]
  indexVectorDim := 2
  sliceSizes := ![1, 128]
  wf := gather_S65536x128_S128x64x1_S128x64x128_2_0_n_n_0_2_1128_wf
def dot_S128x511x128_S128x64x128_S128x511x64_2_2_1_1_0_0 : DotDims S128x511x128 S128x64x128 S128x511x64 where
  lhsContracting := [2]
  rhsContracting := [2]
  lhsNonContracting := [1]
  rhsNonContracting := [1]
  lhsBatch := [0]
  rhsBatch := [0]
  wf := dot_S128x511x128_S128x64x128_S128x511x64_2_2_1_1_0_0_wf
def dot_S128x510x128_S128x64x128_S128x510x64_2_2_1_1_0_0 : DotDims S128x510x128 S128x64x128 S128x510x64 where
  lhsContracting := [2]
  rhsContracting := [2]
  lhsNonContracting := [1]
  rhsNonContracting := [1]
  lhsBatch := [0]
  rhsBatch := [0]
  wf := dot_S128x510x128_S128x64x128_S128x510x64_2_2_1_1_0_0_wf
def dot_S128x509x128_S128x64x128_S128x509x64_2_2_1_1_0_0 : DotDims S128x509x128 S128x64x128 S128x509x64 where
  lhsContracting := [2]
  rhsContracting := [2]
  lhsNonContracting := [1]
  rhsNonContracting := [1]
  lhsBatch := [0]
  rhsBatch := [0]
  wf := dot_S128x509x128_S128x64x128_S128x509x64_2_2_1_1_0_0_wf
def dot_S128x508x128_S128x64x128_S128x508x64_2_2_1_1_0_0 : DotDims S128x508x128 S128x64x128 S128x508x64 where
  lhsContracting := [2]
  rhsContracting := [2]
  lhsNonContracting := [1]
  rhsNonContracting := [1]
  lhsBatch := [0]
  rhsBatch := [0]
  wf := dot_S128x508x128_S128x64x128_S128x508x64_2_2_1_1_0_0_wf

class Facts : Prop extends Facts₀ where

variable [Facts]
-- ==== Proof.Spec.lean ====
/-
  The quantities both programs compute, as functions of the argument arrays read by coordinates.

  For a prediction step `s` (1 ≤ s ≤ 4, `n = 512 − s` time positions) and a batch row `b`, position `t < n`:
    * the masked context vector  c(b, t, ·) = ctx(b, t, ·) · [t < len b]   (a position past the row's length is zeroed);
    * the row of 65 logits       l(b, t, 0)     = Σ_e c(b, t, e) · base(b, t + s, e)        (the positive score),
                                 l(b, t, 1 + q) = Σ_e c(b, t, e) · negs(b, q, e)            (the 64 negative scores);
    * the first log-softmax entry  (l 0 − M) − log Σ_j exp (l j − M),  M the row's maximum (taken from −∞, and once more
      against −∞, as both programs do).
  The step's loss is minus the mean of that entry over all (b, t); the result is the mean of the four step losses.
-/
import Idealize.ShloMosaic.PureOps.Ideal
import Idealize.ShloMosaic.Lib.ValueIdx

noncomputable section

open scoped BigOperators

namespace Cert.CPC

open Idealize.ShloMosaic

/-- The single-precision word of −∞, read as an extended real. -/
abbrev ninf : EReal := Ideal.ofBits .f32 0xFF800000#32

/-- The single-precision zero word, read as an extended real. -/
abbrev zw : EReal := Ideal.ofBits .f32 0x00000000#32

/-- The maximum of a row of 65 logits: the running maximum from −∞, compared once more with −∞. -/
def rowMax (l : Fin 65 → EReal) : EReal := max ninf ((Finset.univ : Finset (Fin 65)).fold max ninf l)

/-- The first entry of the log-softmax of a row of 65 logits, with the row's maximum as the shift. -/
def lp0 (l : Fin 65 → EReal) : EReal :=
  (l 0 - rowMax l) - Ideal.log (∑ j : Fin 65, Ideal.exp (l j - rowMax l))

/-- The length mask at position `t` of a row of length `len` (a signed 32-bit word): 1 if `t < len`, else 0. -/
def msk (len : BitVec 32) (t : ℕ) : EReal := (((IntOp.cmpi .slt (BitVec.ofNat 32 t) len).toNat : ℝ) : EReal)

/-- The row of 65 logits of step `s` at batch row `b` and position `t < n = 512 − s`. -/
def row (n s : ℕ) (hn : n + s = 512) (base ctx : Fin 128 → Fin 512 → Fin 128 → EReal) (len : Fin 128 → BitVec 32)
    (negs : Fin 128 → Fin 64 → Fin 128 → EReal) (b : Fin 128) (t : Fin n) (j : Fin 65) : EReal :=
  if j.val = 0 then
    ∑ e : Fin 128, (ctx b ⟨t.val, by have := t.isLt; omega⟩ e * msk (len b) t.val) * base b ⟨t.val + s, by have := t.isLt; omega⟩ e
  else
    ∑ e : Fin 128, (ctx b ⟨t.val, by have := t.isLt; omega⟩ e * msk (len b) t.val) * negs b ⟨j.val - 1, by have := j.isLt; omega⟩ e

/-! ## The argument arrays by coordinates -/

/-- The base array `[128, 512, 128]` as a function of (row, position, feature). -/
def baseOf (x0 : (⟨3, ![128, 512, 128]⟩ : Shape).Idx → EReal) : Fin 128 → Fin 512 → Fin 128 → EReal :=
  fun b t e => x0 (ValueIdx.ix3 b t e)

/-- Channel `k` of the context array `[128, 512, 128, 4]` as a function of (row, position, feature). -/
def ctxOf (x1 : (⟨4, ![128, 512, 128, 4]⟩ : Shape).Idx → EReal) (k : Fin 4) : Fin 128 → Fin 512 → Fin 128 → EReal :=
  fun b t e => x1 (ValueIdx.ix4 b t e k)

/-- The lengths `[128]` as a function of the row. -/
def lenOf (x2 : (⟨1, ![128]⟩ : Shape).Idx → BitVec 32) : Fin 128 → BitVec 32 := fun b => x2 (ValueIdx.ix1 b)

/-- The gathered negative samples `[128, 64, 128]` as a function of (row, sample, feature). -/
def negsOf (g : (⟨3, ![128, 64, 128]⟩ : Shape).Idx → EReal) : Fin 128 → Fin 64 → Fin 128 → EReal :=
  fun b q e => g (ValueIdx.ix3 b q e)

/-! ## A step's total, in the two arrangements -/

section
variable (x0 : (⟨3, ![128, 512, 128]⟩ : Shape).Idx → EReal) (x1 : (⟨4, ![128, 512, 128, 4]⟩ : Shape).Idx → EReal)
  (x2 : (⟨1, ![128]⟩ : Shape).Idx → BitVec 32) (g : (⟨3, ![128, 64, 128]⟩ : Shape).Idx → EReal)

/-- The first log-softmax entry of step `s` (channel `k`) at row `b`, position `t`. -/
def entry (n s : ℕ) (hn : n + s = 512) (k : Fin 4) (b : Fin 128) (t : Fin n) : EReal :=
  lp0 (row n s hn (baseOf x0) (ctxOf x1 k) (lenOf x2) (negsOf g) b t)

/-- One sum over all rows and positions: the arrangement of a whole-array mean. -/
def stepSum (n s : ℕ) (hn : n + s = 512) (k : Fin 4) : EReal :=
  ∑ b : Fin 128, ∑ t : Fin n, entry x0 x1 x2 g n s hn k b t

/-- The negated entries of the eight rows of block `blk`, summed over positions and then over the rows. -/
def blockSum (n s : ℕ) (hn : n + s = 512) (k : Fin 4) (blk : Fin 16) : EReal :=
  ∑ b' : Fin 8, ∑ t : Fin n, (zw - entry x0 x1 x2 g n s hn k ⟨8 * blk.val + b'.val, by have := blk.isLt; have := b'.isLt; omega⟩ t)

/-- The sixteen block sums added up from zero: the arrangement of an accumulator carried across the blocks. -/
def accSum (n s : ℕ) (hn : n + s = 512) (k : Fin 4) : EReal :=
  zw + ∑ blk : Fin 16, blockSum x0 x1 x2 g n s hn k blk

/-- The result with each step's loss as minus the mean of the entries. -/
def refResult : EReal :=
  Ideal.div (zw + (-(Ideal.div (zw + stepSum x0 x1 x2 g 511 1 rfl 0) (Ideal.ofBits .f32 0x477F8000#32))
      + -(Ideal.div (zw + stepSum x0 x1 x2 g 510 2 rfl 1) (Ideal.ofBits .f32 0x477F0000#32))
      + -(Ideal.div (zw + stepSum x0 x1 x2 g 509 3 rfl 2) (Ideal.ofBits .f32 0x477E8000#32))
      + -(Ideal.div (zw + stepSum x0 x1 x2 g 508 4 rfl 3) (Ideal.ofBits .f32 0x477E0000#32))))
    (Ideal.ofBits .f32 0x40800000#32)

/-- The result with each step's loss as the accumulated negated entries over the count. -/
def accResult : EReal :=
  Ideal.div (zw + (Ideal.div (accSum x0 x1 x2 g 511 1 rfl 0) (Ideal.ofBits .f32 0x477F8000#32)
      + Ideal.div (accSum x0 x1 x2 g 510 2 rfl 1) (Ideal.ofBits .f32 0x477F0000#32)
      + Ideal.div (accSum x0 x1 x2 g 509 3 rfl 2) (Ideal.ofBits .f32 0x477E8000#32)
      + Ideal.div (accSum x0 x1 x2 g 508 4 rfl 3) (Ideal.ofBits .f32 0x477E0000#32)))
    (Ideal.ofBits .f32 0x40800000#32)

end

end Cert.CPC

end
-- ==== Proof.LibLogSumExp.lean ====
/-
  The shift law of the logarithm of a sum of exponentials over the reals, and the passage between real
  arithmetic and the arithmetic of the extended reals at real arguments.

  For a finite nonempty family of reals `l` and any real `M`,
  `log (∑ exp (l j - M)) = log (∑ exp (l j)) - M`: subtracting a common shift before exponentiating divides the
  sum by `exp M`, which the logarithm turns back into the subtraction of `M`.  So a log-softmax entry does not
  depend on the shift.  On the extended reals the exact operations (square root, exponential, logarithm,
  division, maximum, finite sums) send real arguments in their domains to the coercions of the real results;
  the lemmas of the second half say so one operation at a time.
-/
import Idealize.ShloMosaic.PureOps.Ideal

noncomputable section

namespace Cert.LogSumExp

open Idealize.ShloMosaic

variable {ι : Type*} [Fintype ι]

/-! ## The reals -/

/-- A finite nonempty sum of exponentials is positive. -/
theorem sum_exp_pos [Nonempty ι] (l : ι → ℝ) : 0 < ∑ j, Real.exp (l j) :=
  Finset.sum_pos (fun j _ => Real.exp_pos (l j)) Finset.univ_nonempty

/-- Shifting every exponent by `M` shifts the logarithm of the sum of exponentials by `M`. -/
theorem log_sum_exp_sub [Nonempty ι] (l : ι → ℝ) (M : ℝ) :
    Real.log (∑ j, Real.exp (l j - M)) = Real.log (∑ j, Real.exp (l j)) - M := by
  have h : ∑ j, Real.exp (l j - M) = (∑ j, Real.exp (l j)) * Real.exp (-M) := by
    rw [Finset.sum_mul]
    refine Finset.sum_congr rfl fun j _ => ?_
    rw [sub_eq_add_neg, Real.exp_add]
  rw [h, Real.log_mul (sum_exp_pos l).ne' (Real.exp_pos _).ne', Real.log_exp]
  ring

/-- The negated log-softmax entry at `i`, computed with any shift `M`, is the logarithm of the sum of the
    exponentials less the entry itself. -/
theorem neg_log_softmax [Nonempty ι] (l : ι → ℝ) (M : ℝ) (i : ι) :
    -((l i - M) - Real.log (∑ j, Real.exp (l j - M))) = Real.log (∑ j, Real.exp (l j)) - l i := by
  rw [log_sum_exp_sub]; ring

/-- The negated mean of a family is the mean of the negated family. -/
theorem neg_mean (f : ι → ℝ) (n : ℝ) : -((∑ i, f i) / n) = (∑ i, -f i) / n := by
  rw [Finset.sum_neg_distrib, neg_div]

/-- A sum of squares is not negative. -/
theorem sum_mul_self_nonneg (a : ι → ℝ) : 0 ≤ ∑ d, a d * a d :=
  Finset.sum_nonneg fun d _ => mul_self_nonneg (a d)

/-- A maximum against a positive number is positive. -/
theorem max_pos_of_right {x ε : ℝ} (h : 0 < ε) : 0 < max x ε := lt_max_of_lt_right h

/-! ## Real arguments inside the extended reals -/

/-- The coercion of a finite sum of reals is the sum of the coercions. -/
theorem coe_finset_sum {κ : Type*} (s : Finset κ) (f : κ → ℝ) :
    ((∑ k ∈ s, f k : ℝ) : EReal) = ∑ k ∈ s, ((f k : ℝ) : EReal) := by
  classical
  refine Finset.induction_on s (by simp) ?_
  intro a s ha ih
  rw [Finset.sum_insert ha, Finset.sum_insert ha, EReal.coe_add, ih]

/-- The exact square root at a real that is not negative. -/
theorem sqrt_coe_of_nonneg {r : ℝ} (h : 0 ≤ r) : Ideal.sqrt (r : EReal) = ((Real.sqrt r : ℝ) : EReal) := by
  rw [Ideal.sqrt_coe, if_neg (not_lt.mpr h)]

/-- The exact logarithm at a positive real. -/
theorem log_coe_of_pos {r : ℝ} (h : 0 < r) : Ideal.log (r : EReal) = ((Real.log r : ℝ) : EReal) := by
  rw [Ideal.log_coe, if_neg (not_le.mpr h)]

/-- The exact exponential at a real. -/
theorem exp_coe (r : ℝ) : Ideal.exp (r : EReal) = ((Real.exp r : ℝ) : EReal) := rfl

/-- The exact quotient of two reals, the divisor not zero. -/
theorem div_coe_coe (x : ℝ) {y : ℝ} (h : y ≠ 0) : Ideal.div (x : EReal) (y : EReal) = ((x / y : ℝ) : EReal) := by
  rw [Ideal.div_coe h, ← EReal.coe_mul, mul_one_div]

/-- The maximum of two reals. -/
theorem max_coe_coe (x y : ℝ) : max (x : EReal) (y : EReal) = ((max x y : ℝ) : EReal) :=
  (EReal.coe_strictMono.monotone.map_max (a := x) (b := y)).symm

/-- From the bottom element, the running maximum over a finite nonempty family of reals is a real. -/
theorem fold_max_bot_coe {κ : Type*} (s : Finset κ) (hs : s.Nonempty) (g : κ → ℝ) :
    ∃ M : ℝ, s.fold max (⊥ : EReal) (fun k => ((g k : ℝ) : EReal)) = (M : EReal) := by
  classical
  have key : ∀ t : Finset κ, (t = ∅ ∧ t.fold max (⊥ : EReal) (fun k => ((g k : ℝ) : EReal)) = ⊥)
      ∨ ∃ M : ℝ, t.fold max (⊥ : EReal) (fun k => ((g k : ℝ) : EReal)) = (M : EReal) := by
    intro t
    refine Finset.induction_on t (Or.inl ⟨rfl, Finset.fold_empty⟩) ?_
    intro a t ha ih
    right
    rw [Finset.fold_insert ha]
    rcases ih with ⟨_, h⟩ | ⟨M, h⟩
    · exact ⟨g a, by rw [h, max_bot_right]⟩
    · exact ⟨max (g a) M, by rw [h, max_coe_coe]⟩
  rcases key s with ⟨h, _⟩ | h
  · exact absurd h hs.ne_empty
  · exact h

/-- One log-softmax entry computed in the extended reals from real logits `l` with a real shift `M`: every
    intermediate is the coercion of the real one. -/
theorem log_softmax_coe [Nonempty ι] (l : ι → ℝ) (M : ℝ) (i : ι) :
    ((l i : ℝ) : EReal) - (M : EReal) - Ideal.log (∑ j, Ideal.exp (((l j : ℝ) : EReal) - (M : EReal)))
      = (((l i - M) - Real.log (∑ j, Real.exp (l j - M)) : ℝ) : EReal) := by
  have h : ∀ j, Ideal.exp (((l j : ℝ) : EReal) - (M : EReal)) = ((Real.exp (l j - M) : ℝ) : EReal) := fun j => by
    rw [← EReal.coe_sub]; rfl
  simp only [h]
  rw [← coe_finset_sum, log_coe_of_pos (sum_exp_pos _), ← EReal.coe_sub, ← EReal.coe_sub]

/-- The negated exact quotient of a real by a real that is not zero. -/
theorem neg_div_coe_coe (x : ℝ) {y : ℝ} (h : y ≠ 0) : -Ideal.div (x : EReal) (y : EReal) = ((-(x / y) : ℝ) : EReal) := by
  rw [div_coe_coe x h, ← EReal.coe_neg]

end Cert.LogSumExp

end
-- ==== Proof.LibRealImage.lean ====
/-
  GENERAL LEMMAS: real numbers inside the extended reals, under finite sums and maxima.
  • `coe_sum`: the image of a finite sum of reals is the sum of the images;
  • `coe_max`: the image of a maximum of two reals is the maximum of the images;
  • `sum_mul_real`: a finite sum of reals times a real is the sum of the products, computed on the extended reals
    (the distributive law, which fails there at infinities, holds when every term and the factor are real).
-/
import Mathlib.Data.EReal.Basic
import Mathlib.Data.EReal.Operations
import Mathlib.Algebra.BigOperators.Fin

open scoped BigOperators

namespace Cert.Lib.RealImage

/-- The image of a finite sum of reals is the sum of the images. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The image of a maximum of reals is the maximum of the images. -/
theorem coe_max (a b : ℝ) : ((max a b : ℝ) : EReal) = max (a : EReal) (b : EReal) :=
  EReal.coe_strictMono.monotone.map_max

/-- A sum of reals times a real is the sum of the products, on the extended reals. -/
theorem sum_mul_real {ι : Type*} (s : Finset ι) (h : ι → ℝ) (e : ℝ) :
    (∑ i ∈ s, (h i : EReal)) * (e : EReal) = ∑ i ∈ s, (h i : EReal) * (e : EReal) := by
  rw [← coe_sum, ← EReal.coe_mul, Finset.sum_mul, coe_sum]
  exact Finset.sum_congr rfl fun i _ => EReal.coe_mul _ _

end Cert.Lib.RealImage
-- ==== Proof.LibRealClosure.lean ====
/-
  GENERAL LEMMAS: arrays of extended reals all of whose entries are (images of) reals stay so under the host
  operations that only move, multiply and add entries.
  • `sum_real`, `add_real`, `mul_real`: finite sums, sums and products of reals are real;
  • `scatterAdd_real`: an accumulating scatter of real updates into a real array is real, whatever the indices
    (each entry is the operand's entry plus a finite sum of update entries);
  • `mulf_real`, `gather_real`, `broadcastInDim_real`, `constant_zero_real`: an entrywise product, a gather, a
    broadcast of real arrays, and the zero scalar.
-/
import Idealize.ShloMosaic.PureOps.Ideal
import Idealize.ShloMosaic.PureOps.Ideal.Laws
import proofs.«132647_j30640296690406_2_alg».proof.Proof.LibRealImage

noncomputable section

open Idealize.ShloMosaic
open scoped BigOperators

namespace Cert.Lib.RealClosure

theorem sum_real {ι : Type*} (s : Finset ι) (f : ι → EReal) (hf : ∀ j, ∃ y : ℝ, f j = (y : EReal)) :
    ∃ y : ℝ, ∑ j ∈ s, f j = (y : EReal) := by
  choose f' hf' using hf
  exact ⟨∑ j ∈ s, f' j, by rw [Cert.Lib.RealImage.coe_sum]; exact Finset.sum_congr rfl fun j _ => hf' j⟩

theorem add_real (a b : EReal) (ha : ∃ y : ℝ, a = (y : EReal)) (hb : ∃ y : ℝ, b = (y : EReal)) : ∃ y : ℝ, a + b = (y : EReal) := by
  obtain ⟨a', rfl⟩ := ha; obtain ⟨b', rfl⟩ := hb; exact ⟨a' + b', (EReal.coe_add _ _).symm⟩

theorem mul_real (a b : EReal) (ha : ∃ y : ℝ, a = (y : EReal)) (hb : ∃ y : ℝ, b = (y : EReal)) : ∃ y : ℝ, a * b = (y : EReal) := by
  obtain ⟨a', rfl⟩ := ha; obtain ⟨b', rfl⟩ := hb; exact ⟨a' * b', (EReal.coe_mul _ _).symm⟩

/-- An accumulating scatter of real updates into a real array is real, whatever the indices. -/
theorem scatterAdd_real {s si su : Shape} (d : ScatterDims s si su) {w : ℕ} (x : FVec Ideal s .f32) (idx : IVec si w)
    (upd : FVec Ideal su .f32) (hx : ∀ i, ∃ y : ℝ, x i = (y : EReal)) (hu : ∀ j, ∃ y : ℝ, upd j = (y : EReal)) (i : s.Idx) :
    ∃ y : ℝ, Host.scatterAdd d x idx upd i = (y : EReal) := by
  simp only [Host.scatterAdd, Ideal.hostScatterAdd_def]
  unfold Ideal.hostScatterAdd
  exact add_real _ _ (hx i) (sum_real _ _ hu)

/-- A product of a gathered real array and a broadcast real array is real, entry by entry. -/
theorem mulf_real {s : Shape} (a b : FVec Ideal s .f32) (ha : ∀ j, ∃ y : ℝ, a j = (y : EReal)) (hb : ∀ j, ∃ y : ℝ, b j = (y : EReal))
    (j : s.Idx) : ∃ y : ℝ, mulf a b j = (y : EReal) :=
  mul_real _ _ (ha j) (hb j)

theorem gather_real {s si t : Shape} {w : ℕ} (d : GatherDims s si t) (x : FVec Ideal s .f32) (idx : IVec si w)
    (hx : ∀ i, ∃ y : ℝ, x i = (y : EReal)) (j : t.Idx) : ∃ y : ℝ, Host.gather d x idx j = (y : EReal) :=
  hx _

theorem broadcastInDim_real {s t : Shape} (dims : Fin s.rank → Fin t.rank) (h : s.BroadcastsInDim t dims) (x : FVec Ideal s .f32)
    (hx : ∀ i, ∃ y : ℝ, x i = (y : EReal)) (j : t.Idx) : ∃ y : ℝ, broadcastInDim t dims h x j = (y : EReal) :=
  hx _

theorem constant_zero_real (j : (⟨0, ![]⟩ : Shape).Idx) : ∃ y : ℝ, constant (F := Ideal) ⟨0, ![]⟩ .f32 0x00000000#32 j = (y : EReal) :=
  ⟨0, by show Ideal.ofBits .f32 0x00000000#32 = _; rw [Ideal.ofBits_zero_f32, EReal.coe_zero]⟩

end Cert.Lib.RealClosure

end
-- ==== Proof.LibChunkedSum.lean ====
import Mathlib.Algebra.BigOperators.Fin
import Mathlib.Algebra.BigOperators.Intervals

/-!
# A sum over an axis cut in equal chunks

An axis of `n * b` terms is cut in `n` consecutive chunks of width `b`.  In an additive
commutative monoid the sum of the chunk sums is the sum over the whole axis, and a
running total that starts from "first chunk plus a constant" and then adds one chunk at a
time is, at every stage, "sum of the chunks so far, plus the constant".  Only associativity
and commutativity of `+` are used.
-/

namespace Cert.Lib.ChunkedSum

open Finset

variable {M : Type*} [AddCommMonoid M]

/-- Chunk `p` of width `b` of the sequence `f`: the sum of the `b` consecutive terms
`f (b * p), f (b * p + 1), …, f (b * p + (b - 1))`. -/
def chunk (b : ℕ) (f : ℕ → M) (p : ℕ) : M := ∑ q : Fin b, f (b * p + q.val)

/-- A chunk written as a sum over the initial segment `{0, …, b - 1}` of the naturals. -/
theorem chunk_eq_sum_range (b : ℕ) (f : ℕ → M) (p : ℕ) :
    chunk b f p = ∑ q ∈ range b, f (b * p + q) :=
  Fin.sum_univ_eq_sum_range (fun q => f (b * p + q)) b

/-- The first `n` chunks of width `b` tile the first `n * b` terms: the sum of their sums is
the sum of `f 0, …, f (n * b - 1)`, written over the naturals. -/
theorem sum_chunks_range (n b : ℕ) (f : ℕ → M) :
    ∑ p ∈ range n, chunk b f p = ∑ j ∈ range (n * b), f j := by
  induction n with
  | zero => simp
  | succ n ih =>
    rw [sum_range_succ, ih, chunk_eq_sum_range, Nat.succ_mul, sum_range_add, Nat.mul_comm b n]

/-- The chunks tile the axis: the sum over `p < n` of chunk `p` is the sum of all
`n * b` terms. -/
theorem sum_chunks (n b : ℕ) (f : ℕ → M) :
    ∑ p ∈ Finset.range n, chunk b f p = ∑ j : Fin (n * b), f j.val := by
  rw [sum_chunks_range, Fin.sum_univ_eq_sum_range (fun j => f j) (n * b)]

/-- The first stage of the running total: chunk `0` plus the constant `β` is the sum of the
first one chunk, plus `β`. -/
theorem acc_first (b : ℕ) (f : ℕ → M) (β : M) :
    chunk b f 0 + β = (∑ p ∈ Finset.range 1, chunk b f p) + β := by
  rw [sum_range_one]

/-- One more stage of the running total: adding chunk `k + 1` to "the first `k + 1` chunks
plus `β`" gives "the first `k + 2` chunks plus `β`". -/
theorem acc_step (b k : ℕ) (f : ℕ → M) (β : M) :
    ((∑ p ∈ Finset.range (k + 1), chunk b f p) + β) + chunk b f (k + 1)
      = (∑ p ∈ Finset.range (k + 2), chunk b f p) + β := by
  rw [add_right_comm, ← sum_range_succ]

/-- Four chunks of width `256` tile an axis of `1024` terms. -/
theorem sum_chunks_1024 (f : ℕ → M) :
    ∑ p ∈ Finset.range 4, chunk 256 f p = ∑ j : Fin 1024, f j.val :=
  sum_chunks 4 256 f

end Cert.Lib.ChunkedSum
-- ==== Proof.Bridge.lean ====
/-
  The bridge between the two arrangements of a step's total.

  On the extended reals −(a + b) = −a + −b fails at opposite infinities, so the regrouping of the negated entries is done
  on the reals: with real argument arrays the mask is 0 or 1, each logit is a finite sum of products of reals, the row
  maximum taken from −∞ over 65 reals is a real, the sum of the 65 exponentials is a positive real and its logarithm is a
  real, so every log-softmax entry is (the image of) a real.  Then the sixteen block sums of eight rows regroup to one
  sum over the 128 rows, the sum of the terms 0 − p is minus the sum of the p, each count word is a nonzero real, and
  the quotient of reals commutes with negation: the accumulated negated entries over the count is minus the mean of the
  entries, for each of the four steps.
-/
import proofs.«132647_j30640296690406_2_alg».proof.Proof.Spec
import proofs.«132647_j30640296690406_2_alg».proof.Proof.LibLogSumExp
import proofs.«132647_j30640296690406_2_alg».proof.Proof.LibRealImage
import proofs.«132647_j30640296690406_2_alg».proof.Proof.LibRealClosure
import proofs.«132647_j30640296690406_2_alg».proof.Proof.LibChunkedSum
import Mathlib.Algebra.BigOperators.Fin
import Mathlib.Logic.Equiv.Fin.Basic

noncomputable section

open scoped BigOperators

namespace Cert.CPC

open Idealize.ShloMosaic
open Cert.LogSumExp Cert.Lib.RealClosure

/-! ## The constant words -/

/-- The single-precision word of −∞ denotes the bottom of the extended reals. -/
theorem ninf_eq_bot : ninf = (⊥ : EReal) := by
  simp [ninf, Ideal.ofBits, Ideal.ieee]

/-- The single-precision zero word denotes zero. -/
theorem zw_eq_zero : zw = (0 : EReal) := Ideal.ofBits_zero_f32

/-- The count of step 1: 128 · 511 = 65408. -/
theorem count_word_1 : Ideal.ofBits .f32 0x477F8000#32 = ((65408 : ℝ) : EReal) := by
  simp [Ideal.ofBits, Ideal.ieee]
  rw [← EReal.coe_mul]; congr 1; norm_num

/-- The count of step 2: 128 · 510 = 65280. -/
theorem count_word_2 : Ideal.ofBits .f32 0x477F0000#32 = ((65280 : ℝ) : EReal) := by
  simp [Ideal.ofBits, Ideal.ieee]
  rw [← EReal.coe_mul]; congr 1; norm_num

/-- The count of step 3: 128 · 509 = 65152. -/
theorem count_word_3 : Ideal.ofBits .f32 0x477E8000#32 = ((65152 : ℝ) : EReal) := by
  simp [Ideal.ofBits, Ideal.ieee]
  rw [← EReal.coe_mul]; congr 1; norm_num

/-- The count of step 4: 128 · 508 = 65024. -/
theorem count_word_4 : Ideal.ofBits .f32 0x477E0000#32 = ((65024 : ℝ) : EReal) := by
  simp [Ideal.ofBits, Ideal.ieee]
  rw [← EReal.coe_mul]; congr 1; norm_num

/-! ## Every entry is a real -/

/-- The length mask is the image of a real (0 or 1). -/
theorem msk_real (len : BitVec 32) (t : ℕ) : ∃ r : ℝ, msk len t = (r : EReal) := ⟨_, rfl⟩

/-- Each logit of a row is a finite sum of products of reals, hence a real. -/
theorem row_real (n s : ℕ) (hn : n + s = 512) (base ctx : Fin 128 → Fin 512 → Fin 128 → EReal) (len : Fin 128 → BitVec 32)
    (negs : Fin 128 → Fin 64 → Fin 128 → EReal)
    (hb : ∀ b t e, ∃ r : ℝ, base b t e = (r : EReal)) (hc : ∀ b t e, ∃ r : ℝ, ctx b t e = (r : EReal))
    (hq : ∀ b q e, ∃ r : ℝ, negs b q e = (r : EReal)) (b : Fin 128) (t : Fin n) (j : Fin 65) :
    ∃ r : ℝ, row n s hn base ctx len negs b t j = (r : EReal) := by
  unfold row
  split
  · exact sum_real _ _ fun e => mul_real _ _ (mul_real _ _ (hc _ _ _) (msk_real _ _)) (hb _ _ _)
  · exact sum_real _ _ fun e => mul_real _ _ (mul_real _ _ (hc _ _ _) (msk_real _ _)) (hq _ _ _)

/-- The first log-softmax entry of a row of 65 reals is a real: the running maximum from −∞ over a nonempty family of
    reals is a real, the sum of the 65 exponentials is a positive real, and its logarithm is a real. -/
theorem lp0_real (l : Fin 65 → EReal) (hl : ∀ j, ∃ r : ℝ, l j = (r : EReal)) : ∃ r : ℝ, lp0 l = (r : EReal) := by
  choose l' hl' using hl
  have hl : l = fun j => ((l' j : ℝ) : EReal) := funext hl'
  subst hl
  obtain ⟨M, hM⟩ := fold_max_bot_coe (Finset.univ : Finset (Fin 65)) Finset.univ_nonempty l'
  have hmax : rowMax (fun j => ((l' j : ℝ) : EReal)) = (M : EReal) := by
    unfold rowMax
    rw [ninf_eq_bot, hM, max_bot_left]
  unfold lp0
  rw [hmax]
  exact ⟨_, log_softmax_coe l' M 0⟩

section
variable (x0 : (⟨3, ![128, 512, 128]⟩ : Shape).Idx → EReal) (x1 : (⟨4, ![128, 512, 128, 4]⟩ : Shape).Idx → EReal)
  (x2 : (⟨1, ![128]⟩ : Shape).Idx → BitVec 32) (g : (⟨3, ![128, 64, 128]⟩ : Shape).Idx → EReal)

/-- With real argument arrays every entry of every step is a real. -/
theorem entry_real (h0 : ∀ i, ∃ r : ℝ, x0 i = (r : EReal)) (h1 : ∀ i, ∃ r : ℝ, x1 i = (r : EReal))
    (hg : ∀ i, ∃ r : ℝ, g i = (r : EReal)) (n s : ℕ) (hn : n + s = 512) (k : Fin 4) (b : Fin 128) (t : Fin n) :
    ∃ r : ℝ, entry x0 x1 x2 g n s hn k b t = (r : EReal) :=
  lp0_real _ (row_real n s hn _ _ _ _ (fun _ _ _ => h0 _) (fun _ _ _ => h1 _) (fun _ _ _ => hg _) b t)

/-! ## Regrouping the rows -/

/-- Sixteen blocks of eight consecutive rows tile the 128 rows. -/
theorem sum_blocks {M : Type*} [AddCommMonoid M] (F : Fin 128 → M) :
    (∑ blk : Fin 16, ∑ b' : Fin 8, F ⟨8 * blk.val + b'.val, by have := blk.isLt; have := b'.isLt; omega⟩) = ∑ b : Fin 128, F b := by
  rw [← Fintype.sum_prod_type']
  refine Fintype.sum_equiv (finProdFinEquiv : Fin 16 × Fin 8 ≃ Fin 128) _ _ ?_
  rintro ⟨i, j⟩
  congr 1
  apply Fin.ext
  simp [finProdFinEquiv]
  omega

/-! ## The step law -/

/-- For one step whose entries are reals: the accumulated negated entries over the count is minus the mean of the entries.
    The block sums regroup to one sum over all rows; on reals the sum of the terms 0 − p is minus the sum of the p, and
    the quotient by a nonzero real commutes with negation. -/
theorem step_law (n s : ℕ) (hn : n + s = 512) (k : Fin 4) (c : ℝ) (hc : c ≠ 0)
    (hP : ∀ b t, ∃ r : ℝ, entry x0 x1 x2 g n s hn k b t = (r : EReal)) :
    Ideal.div (accSum x0 x1 x2 g n s hn k) (c : EReal) = -(Ideal.div (zw + stepSum x0 x1 x2 g n s hn k) (c : EReal)) := by
  choose P hP using hP
  have hstep : stepSum x0 x1 x2 g n s hn k = ((∑ b : Fin 128, ∑ t : Fin n, P b t : ℝ) : EReal) := by
    unfold stepSum
    simp only [hP, ← coe_finset_sum]
  have hneg : ∀ b t, (0 : EReal) - ((P b t : ℝ) : EReal) = ((-(P b t) : ℝ) : EReal) := fun b t => by
    rw [zero_sub, EReal.coe_neg]
  have hacc : accSum x0 x1 x2 g n s hn k = ((-(∑ b : Fin 128, ∑ t : Fin n, P b t) : ℝ) : EReal) := by
    unfold accSum
    rw [show (∑ blk : Fin 16, blockSum x0 x1 x2 g n s hn k blk)
        = ∑ b : Fin 128, ∑ t : Fin n, (zw - entry x0 x1 x2 g n s hn k b t)
      from sum_blocks (fun b => ∑ t : Fin n, (zw - entry x0 x1 x2 g n s hn k b t))]
    simp only [hP, zw_eq_zero, hneg, ← coe_finset_sum, zero_add]
    congr 1
    simp only [Finset.sum_neg_distrib]
  rw [hacc, hstep, zw_eq_zero, zero_add, div_coe_coe _ hc, div_coe_coe _ hc, ← EReal.coe_neg, neg_div]

/-- The two closed forms of the final scalar agree on real argument arrays. -/
theorem accResult_eq_refResult
    (h0 : ∀ i, ∃ r : ℝ, x0 i = (r : EReal)) (h1 : ∀ i, ∃ r : ℝ, x1 i = (r : EReal)) (hg : ∀ i, ∃ r : ℝ, g i = (r : EReal)) :
    accResult x0 x1 x2 g = refResult x0 x1 x2 g := by
  unfold accResult refResult
  rw [count_word_1, count_word_2, count_word_3, count_word_4,
    step_law x0 x1 x2 g 511 1 rfl 0 65408 (by norm_num) (entry_real x0 x1 x2 g h0 h1 hg 511 1 rfl 0),
    step_law x0 x1 x2 g 510 2 rfl 1 65280 (by norm_num) (entry_real x0 x1 x2 g h0 h1 hg 510 2 rfl 1),
    step_law x0 x1 x2 g 509 3 rfl 2 65152 (by norm_num) (entry_real x0 x1 x2 g h0 h1 hg 509 3 rfl 2),
    step_law x0 x1 x2 g 508 4 rfl 3 65024 (by norm_num) (entry_real x0 x1 x2 g h0 h1 hg 508 4 rfl 3)]

end

end Cert.CPC

end
-- ==== Proof.LibFiniteEntry.lean ====
/-
  GENERAL LEMMAS: the finiteness test of one entry, read back on the extended reals.
  A precondition "every input is finite" tests each entry x by comparing its absolute value max(x, −x) strictly below the
  single-precision word of +∞.
  • `inf_word`: that word denotes the top element ⊤;
  • `real_of_abs_lt`: an extended real that passes the test is the image of a real number (at ⊤ and at ⊥ the absolute
    value is ⊤ itself, which is not below ⊤).
-/
import Idealize.ShloMosaic.PureOps.Ideal

noncomputable section

namespace Cert.Lib.FiniteEntry

open Idealize.ShloMosaic

/-- The single-precision word of +∞ denotes the top of the extended reals. -/
theorem inf_word : Ideal.ofBits .f32 0x7F800000#32 = (⊤ : EReal) := by
  simp [Ideal.ofBits, Ideal.ieee]

/-- An extended real whose absolute value compares strictly below the word of +∞ is a real number. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | coe r => exact ⟨r, rfl⟩
  | top => simp [Ideal.cmp] at h

end Cert.Lib.FiniteEntry

end
-- ==== Proof.Finite.lean ====
/-
  The finiteness precondition, read back: the precondition says that every entry of the first two argument arrays has
  an absolute value strictly below +∞ (a conjunction of two reductions by "and" over all axes, each from the constant 1).
  A conjunction of one-bit words that is 1 has both words 1; a reduction by "and" into a single result that is 1 met a 1
  at every entry; and an extended real whose absolute value max(x, −x) is strictly below ⊤ is (the image of) a real.
-/
import proofs.«132647_j30640296690406_2_alg».proof.Defs
import proofs.«132647_j30640296690406_2_alg».proof.Proof.LibFiniteEntry
import Idealize.ShloMosaic.Lib.ReduceAll
import Idealize.ShloMosaic.Lib.ValueIdx

noncomputable section

namespace Cert.Finite

open Idealize.ShloMosaic Idealize.SL.Sem

/-- The shape of a scalar has exactly one index. -/
instance : Subsingleton Cert.Pre_finite_inputs.S_.Idx := ⟨fun a b => funext fun d => d.elim0⟩

/-- Under the finiteness precondition every entry of the first two argument arrays is a real. -/
theorem args_real [Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) := by
  have e := congrFun (h c) ValueIdx.ix0
  dsimp only [Cert.Pre_finite_inputs.fn] at e
  obtain ⟨e0, e1⟩ := IntOp.andi_eq_one.1 e
  refine ⟨fun i => ?_, fun i => ?_⟩
  · exact Cert.Lib.FiniteEntry.real_of_abs_lt _ (Host.reduce_andi_all _ _ _ _ _ e0 i)
  · exact Cert.Lib.FiniteEntry.real_of_abs_lt _ (Host.reduce_andi_all _ _ _ _ _ e1 i)

end Cert.Finite

end
-- ==== Proof.LibConcatLast.lean ====
/-
  Arrays joined along their last axis, read by coordinates: two rank-3 blocks `[p, q, a]` and `[p, q, b]` joined into
  `[p, q, a + b]` (entry `(r, s, j)` comes from the first block when `j < a`, else from the second at `j − a`), and
  four rank-1 pieces joined end to end.
-/
import Idealize.ShloMosaic.Lib.ValueIdx
import Idealize.ShloMosaic.Lib.Pipeline.Value

noncomputable section

namespace Idealize.ShloMosaic.ConcatLast

open Idealize.ShloMosaic Idealize.ShloMosaic.ValueIdx

variable {α : Type}

/-- Two rank-3 blocks joined along the last axis, read at `(r, s, j)`: the block whose span of the last axis holds `j`. -/
theorem last2_apply {p q a b t : Nat} (x1 : (⟨3, ![p, q, a]⟩ : Shape).Idx → α) (x2 : (⟨3, ![p, q, b]⟩ : Shape).Idx → α)
    (h : Shape.Concatenates [(⟨3, ![p, q, a]⟩ : Shape), ⟨3, ![p, q, b]⟩] ⟨3, ![p, q, t]⟩ (2 : Fin 3))
    (ht : t = a + b) (r : Fin p) (s : Fin q) (j : Fin t) :
    concatenate ⟨3, ![p, q, t]⟩ (2 : Fin 3) [⟨⟨3, ![p, q, a]⟩, x1⟩, ⟨⟨3, ![p, q, b]⟩, x2⟩] h (ix3 r s j)
      = if h1 : j.val < a then x1 (ix3 r s ⟨j.val, h1⟩)
        else x2 (ix3 r s ⟨j.val - a, by have := j.isLt; omega⟩) := by
  have hj := j.isLt
  split
  · rename_i hc0
    refine concatenate_apply_piece (t := ⟨3, ![p, q, t]⟩) (2 : Fin 3) [⟨⟨3, ![p, q, a]⟩, x1⟩, ⟨⟨3, ![p, q, b]⟩, x2⟩] h (ix3 r s j) 0 (by show 0 < 2; omega) _ x1 rfl rfl (0) rfl (ix3 r s ⟨j.val, by omega⟩) (fun c hc => ?_) (by show (0) + (j.val) = j.val; omega)
    match c with
    | ⟨0, _⟩ => rfl
    | ⟨1, _⟩ => rfl
    | ⟨2, _⟩ => exact absurd rfl hc
  · rename_i hc0
    refine concatenate_apply_piece (t := ⟨3, ![p, q, t]⟩) (2 : Fin 3) [⟨⟨3, ![p, q, a]⟩, x1⟩, ⟨⟨3, ![p, q, b]⟩, x2⟩] h (ix3 r s j) 1 (by show 1 < 2; omega) _ x2 rfl rfl (a) rfl (ix3 r s ⟨j.val - a, by omega⟩) (fun c hc => ?_) (by show (a) + (j.val - a) = j.val; omega)
    match c with
    | ⟨0, _⟩ => rfl
    | ⟨1, _⟩ => rfl
    | ⟨2, _⟩ => exact absurd rfl hc

/-- Four rank-1 pieces joined end to end, read at `j`: the piece whose span holds `j`. -/
theorem vec4_apply {a b c d t : Nat} (x1 : (⟨1, ![a]⟩ : Shape).Idx → α) (x2 : (⟨1, ![b]⟩ : Shape).Idx → α) (x3 : (⟨1, ![c]⟩ : Shape).Idx → α) (x4 : (⟨1, ![d]⟩ : Shape).Idx → α)
    (h : Shape.Concatenates [(⟨1, ![a]⟩ : Shape), ⟨1, ![b]⟩, ⟨1, ![c]⟩, ⟨1, ![d]⟩] ⟨1, ![t]⟩ (0 : Fin 1))
    (ht : t = a + b + c + d) (j : Fin t) :
    concatenate ⟨1, ![t]⟩ (0 : Fin 1) [⟨⟨1, ![a]⟩, x1⟩, ⟨⟨1, ![b]⟩, x2⟩, ⟨⟨1, ![c]⟩, x3⟩, ⟨⟨1, ![d]⟩, x4⟩] h (ix1 j)
      = if h1 : j.val < a then x1 (ix1 ⟨j.val, h1⟩)
        else if h2 : j.val < a + b then x2 (ix1 ⟨j.val - (a), by have := j.isLt; omega⟩)
        else if h3 : j.val < a + b + c then x3 (ix1 ⟨j.val - (a + b), by have := j.isLt; omega⟩)
        else x4 (ix1 ⟨j.val - (a + b + c), by have := j.isLt; omega⟩) := by
  have hj := j.isLt
  split
  · rename_i hc0
    refine concatenate_apply_piece (t := ⟨1, ![t]⟩) (0 : Fin 1) [⟨⟨1, ![a]⟩, x1⟩, ⟨⟨1, ![b]⟩, x2⟩, ⟨⟨1, ![c]⟩, x3⟩, ⟨⟨1, ![d]⟩, x4⟩] h (ix1 j) 0 (by show 0 < 4; omega) _ x1 rfl rfl (0) rfl (ix1 ⟨j.val, by omega⟩) (fun e he => ?_) (by show (0) + (j.val) = j.val; omega)
    match e with
    | ⟨0, _⟩ => exact absurd rfl he
  · rename_i hc0
    split
    · rename_i hc1
      refine concatenate_apply_piece (t := ⟨1, ![t]⟩) (0 : Fin 1) [⟨⟨1, ![a]⟩, x1⟩, ⟨⟨1, ![b]⟩, x2⟩, ⟨⟨1, ![c]⟩, x3⟩, ⟨⟨1, ![d]⟩, x4⟩] h (ix1 j) 1 (by show 1 < 4; omega) _ x2 rfl rfl (a) rfl (ix1 ⟨j.val - (a), by omega⟩) (fun e he => ?_) (by show (a) + (j.val - (a)) = j.val; omega)
      match e with
      | ⟨0, _⟩ => exact absurd rfl he
    · rename_i hc1
      split
      · rename_i hc2
        refine concatenate_apply_piece (t := ⟨1, ![t]⟩) (0 : Fin 1) [⟨⟨1, ![a]⟩, x1⟩, ⟨⟨1, ![b]⟩, x2⟩, ⟨⟨1, ![c]⟩, x3⟩, ⟨⟨1, ![d]⟩, x4⟩] h (ix1 j) 2 (by show 2 < 4; omega) _ x3 rfl rfl (a + b) rfl (ix1 ⟨j.val - (a + b), by omega⟩) (fun e he => ?_) (by show (a + b) + (j.val - (a + b)) = j.val; omega)
        match e with
        | ⟨0, _⟩ => exact absurd rfl he
      · rename_i hc2
        refine concatenate_apply_piece (t := ⟨1, ![t]⟩) (0 : Fin 1) [⟨⟨1, ![a]⟩, x1⟩, ⟨⟨1, ![b]⟩, x2⟩, ⟨⟨1, ![c]⟩, x3⟩, ⟨⟨1, ![d]⟩, x4⟩] h (ix1 j) 3 (by show 3 < 4; omega) _ x4 rfl rfl (a + (b + c)) rfl (ix1 ⟨j.val - (a + b + c), by omega⟩) (fun e he => ?_) (by show (a + (b + c)) + (j.val - (a + b + c)) = j.val; omega)
        match e with
        | ⟨0, _⟩ => exact absurd rfl he

end Idealize.ShloMosaic.ConcatLast

end
-- ==== Proof.LibRank3.lean ====
/-
  Rank-3 arrays read by coordinates, at the exact-real instance: the keepdims forms of a rank-3 array
  ([a,b] → [a,b,1] cast, [a,b,1] → [a,b,c] broadcast), the sum and the maximum of a rank-3 array along its last
  or its middle axis read at `ix2`, the [a] → [a,1] column of maxima, and the batched product
  `out[g, p, q] = Σ_k l[g, p, k] · r[g, q, k]` (both operands contracted on their last axis, the first axis a
  batch axis) read at `ix3 g p q` as a sum over `k`.
-/
import Idealize.ShloMosaic.PureOps.Ideal.Laws
import Idealize.ShloMosaic.Lib.ValueIdx
import Idealize.ShloMosaic.Lib.Pipeline.Value

noncomputable section

open scoped BigOperators

namespace Idealize.ShloMosaic.ValueIdx

open Idealize.ShloMosaic

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(p, q, r)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- The sum of an `[a, b, c]` array along its last axis, accumulated from the zero word: at `(i, j)` the sum over `k`. -/
theorem multiReduction_add_axis2_of3_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  refine Finset.sum_congr rfl fun k _ => congrArg src ?_
  funext d
  match d with
  | ⟨0, _⟩ => exact Fin.ext rfl
  | ⟨1, _⟩ => exact Fin.ext rfl
  | ⟨2, _⟩ => exact Fin.ext rfl

/-- The sum of an `[a, b, c]` array along its middle axis: at `(i, k)` the sum over `j`. -/
theorem multiReduction_add_axis1_of3_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (i : Fin a) (k : Fin c) :
    multiReduction .add [1] ⟨2, ![a, c]⟩ src 0x00000000#32 h hφ hacc (ix2 i k) = ∑ j : Fin b, src (ix3 i j k) := by
  refine (Ideal.multiReduction_add_single src 0x00000000#32 h hφ hacc (ix2 i k)).trans ?_
  refine Finset.sum_congr rfl fun j _ => congrArg src ?_
  funext d
  match d with
  | ⟨0, _⟩ => exact Fin.ext rfl
  | ⟨1, _⟩ => exact Fin.ext rfl
  | ⟨2, _⟩ => exact Fin.ext rfl

/-- The maximum of an `[a, b, c]` array along its last axis: at `(i, j)` the fold of `max` over `k` from the accumulator's value. -/
theorem multiReduction_maximumf_axis2_of3_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (i : Fin a) (j : Fin b) :
    multiReduction .maximumf [2] ⟨2, ![a, b]⟩ src acc h hφ hacc (ix2 i j)
      = (Finset.univ : Finset (Fin c)).fold max (Ideal.ofBits .f32 acc) (fun k => src (ix3 i j k)) := by
  refine (Ideal.multiReduction_maximumf_single src acc h hφ hacc (ix2 i j)).trans ?_
  refine congrArg (fun f => Finset.fold max (Ideal.ofBits .f32 acc) f (Finset.univ : Finset (Fin c))) (funext fun k => congrArg src ?_)
  funext d
  match d with
  | ⟨0, _⟩ => exact Fin.ext rfl
  | ⟨1, _⟩ => exact Fin.ext rfl
  | ⟨2, _⟩ => exact Fin.ext rfl

/-! ### The same reductions with the accumulator word's equation typed as a printed program carries it (`w = w`), so
    that they rewrite a printed term directly. -/

theorem sum_axis2_of3 {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ k : Fin c, src (ix3 i j k) :=
  multiReduction_add_axis2_of3_apply src h hφ hacc i j

theorem sum_axis1_of3 {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = 0x00000000#32) (i : Fin a) (k : Fin c) :
    multiReduction .add [1] ⟨2, ![a, c]⟩ src 0x00000000#32 h hφ hacc (ix2 i k) = ∑ j : Fin b, src (ix3 i j k) :=
  multiReduction_add_axis1_of3_apply src h hφ hacc i k

theorem max_axis2_of3 {a b c : ℕ} (src : FVec Ideal ⟨3, ![a, b, c]⟩ .f32)
    (h : (⟨3, ![a, b, c]⟩ : Shape).Reduces [2] ⟨2, ![a, b]⟩) (hφ : FKind.Formats .f32)
    (hacc : (0xFF800000#32 : BitVec 32) = 0xFF800000#32) (i : Fin a) (j : Fin b) :
    multiReduction .maximumf [2] ⟨2, ![a, b]⟩ src 0xFF800000#32 h hφ hacc (ix2 i j)
      = (Finset.univ : Finset (Fin c)).fold max (Ideal.ofBits .f32 0xFF800000#32) (fun k => src (ix3 i j k)) :=
  multiReduction_maximumf_axis2_of3_apply src 0xFF800000#32 h hφ hacc i j

/-- The sum of an `[a, b]` array along its last axis: at `i` the sum of row `i`. -/
theorem sum_axis1_of2 {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext d
  match d with
  | ⟨0, _⟩ => exact Fin.ext rfl
  | ⟨1, _⟩ => exact Fin.ext rfl

/-- The maximum of an `[a, b]` array along its last axis: at `i` the fold of `max` over row `i`. -/
theorem max_axis1_of2 {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (i : Fin a) :
    multiReduction .maximumf [1] ⟨1, ![a]⟩ src 0xFF800000#32 h hφ hacc (ix1 i)
      = (Finset.univ : Finset (Fin b)).fold max (Ideal.ofBits .f32 0xFF800000#32) (fun k => src (ix2 i k)) := by
  refine (Ideal.multiReduction_maximumf_single src 0xFF800000#32 h hφ hacc (ix1 i)).trans ?_
  refine congrArg (fun f => Finset.fold max (Ideal.ofBits .f32 0xFF800000#32) f (Finset.univ : Finset (Fin b))) (funext fun k => congrArg src ?_)
  funext d
  match d with
  | ⟨0, _⟩ => exact Fin.ext rfl
  | ⟨1, _⟩ => exact Fin.ext rfl

/-- An `[a]` array cast to the column `[a, 1]` reads, at `(i, u)`, the operand at `i`. -/
theorem col_of_vec {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

namespace Idealize.ShloMosaic.BatchRhsTDot

open Idealize.ShloMosaic Idealize.ShloMosaic.ValueIdx

variable {B M K N : Nat}

private theorem val_congr {n : Nat} {sz : Fin n → Nat} (j : (i : Fin n) → Fin (sz i)) (p q : Nat) (hp : p < n) (hq : q < n) (h : p = q) :
    (j ⟨p, hp⟩).val = (j ⟨q, hq⟩).val := by subst h; rfl

/-- The left operand is read on its batch axis at the entry's first coordinate. -/
theorem lhs_batch (D : DotDims ⟨3, ![B, M, K]⟩ ⟨3, ![B, N, K]⟩ ⟨3, ![B, M, N]⟩) (hlb : D.lhsBatch = [0])
    (j : (⟨3, ![B, M, N]⟩ : Shape).Idx) (s : D.contr.Idx) : (D.lhsIdx j s (0 : Fin 3)).val = (j (0 : Fin 3)).val := by
  unfold DotDims.lhsIdx
  rw [dif_pos (show (0 : Fin 3) ∈ D.lhsBatch by rw [hlb]; exact List.mem_singleton.mpr rfl)]
  simp only [Fin.val_cast]
  exact val_congr j _ _ _ _ (by simp [hlb])

/-- The left operand is read on its row axis at the entry's second coordinate. -/
theorem lhs_row (D : DotDims ⟨3, ![B, M, K]⟩ ⟨3, ![B, N, K]⟩ ⟨3, ![B, M, N]⟩) (hlb : D.lhsBatch = [0]) (hln : D.lhsNonContracting = [1])
    (j : (⟨3, ![B, M, N]⟩ : Shape).Idx) (s : D.contr.Idx) : (D.lhsIdx j s (1 : Fin 3)).val = (j (1 : Fin 3)).val := by
  unfold DotDims.lhsIdx
  rw [dif_neg (show ¬(1 : Fin 3) ∈ D.lhsBatch by rw [hlb]; simp),
    dif_pos (show (1 : Fin 3) ∈ D.lhsNonContracting by rw [hln]; exact List.mem_singleton.mpr rfl)]
  simp only [Fin.val_cast]
  exact val_congr j _ _ _ _ (by simp [hlb, hln])

/-- The right operand is read on its batch axis at the entry's first coordinate. -/
theorem rhs_batch (D : DotDims ⟨3, ![B, M, K]⟩ ⟨3, ![B, N, K]⟩ ⟨3, ![B, M, N]⟩) (hrb : D.rhsBatch = [0])
    (j : (⟨3, ![B, M, N]⟩ : Shape).Idx) (s : D.contr.Idx) : (D.rhsIdx j s (0 : Fin 3)).val = (j (0 : Fin 3)).val := by
  unfold DotDims.rhsIdx
  rw [dif_pos (show (0 : Fin 3) ∈ D.rhsBatch by rw [hrb]; exact List.mem_singleton.mpr rfl)]
  simp only [Fin.val_cast]
  exact val_congr j _ _ _ _ (by simp [hrb])

/-- The right operand is read on its row axis at the entry's third coordinate. -/
theorem rhs_row (D : DotDims ⟨3, ![B, M, K]⟩ ⟨3, ![B, N, K]⟩ ⟨3, ![B, M, N]⟩) (hlb : D.lhsBatch = [0]) (hln : D.lhsNonContracting = [1])
    (hrb : D.rhsBatch = [0]) (hrn : D.rhsNonContracting = [1])
    (j : (⟨3, ![B, M, N]⟩ : Shape).Idx) (s : D.contr.Idx) : (D.rhsIdx j s (1 : Fin 3)).val = (j (2 : Fin 3)).val := by
  unfold DotDims.rhsIdx
  rw [dif_neg (show ¬(1 : Fin 3) ∈ D.rhsBatch by rw [hrb]; simp),
    dif_pos (show (1 : Fin 3) ∈ D.rhsNonContracting by rw [hrn]; exact List.mem_singleton.mpr rfl)]
  simp only [Fin.val_cast]
  exact val_congr j _ _ _ _ (by simp [hlb, hln, hrn])

/-- The contraction of a batched product whose operands are both contracted on their last axis, re-indexed by the one
    contracted coordinate: stated for any dimension record with these axis lists. -/
theorem sum_eq (D : DotDims ⟨3, ![B, M, K]⟩ ⟨3, ![B, N, K]⟩ ⟨3, ![B, M, N]⟩)
    (hlc : D.lhsContracting = [2]) (hrc : D.rhsContracting = [2]) (hln : D.lhsNonContracting = [1])
    (hrn : D.rhsNonContracting = [1]) (hlb : D.lhsBatch = [0]) (hrb : D.rhsBatch = [0])
    (l : (⟨3, ![B, M, K]⟩ : Shape).Idx → EReal) (r : (⟨3, ![B, N, K]⟩ : Shape).Idx → EReal) (g : Fin B) (p : Fin M) (q : Fin N) :
    ∑ s : D.contr.Idx, l (D.lhsIdx (ix3 g p q) s) * r (D.rhsIdx (ix3 g p q) s) = ∑ k : Fin K, l (ix3 g p k) * r (ix3 g q k) := by
  have hr : D.contr.rank = 1 := by rw [DotDims.rank_contr, hlc]; rfl
  have hs : D.contr.size ⟨0, by omega⟩ = K := by
    have := D.size_contr 0 (by rw [hlc]; exact Nat.one_pos)
    simpa [hlc] using this
  rw [← Equiv.sum_comp (contrEquiv1 D K hr hs).symm]
  refine Finset.sum_congr rfl fun k _ => ?_
  have hk := contrEquiv1_symm_val D K hr hs k
  have el : D.lhsIdx (ix3 g p q) ((contrEquiv1 D K hr hs).symm k) = ix3 g p k :=
    funext fun a => Fin.ext (by
      match a with
      | ⟨0, _⟩ => exact lhs_batch D hlb _ _
      | ⟨1, _⟩ => exact lhs_row D hlb hln _ _
      | ⟨2, _⟩ => exact (D.lhsIdx_val_of_single hlc _ _).trans hk)
  have er : D.rhsIdx (ix3 g p q) ((contrEquiv1 D K hr hs).symm k) = ix3 g q k :=
    funext fun a => Fin.ext (by
      match a with
      | ⟨0, _⟩ => exact rhs_batch D hrb _ _
      | ⟨1, _⟩ => exact rhs_row D hlb hln hrb hrn _ _
      | ⟨2, _⟩ => exact (D.rhsIdx_val_of_single hrc _ _).trans hk)
  exact congrArg₂ (fun x y => l x * r y) el er

/-- A `tpu.matmul` of such a product into the zero accumulator, at an entry given by its coordinates. -/
theorem matmul_zero_ix3 {φ₁ φ₂ : FTy} (D : DotDims ⟨3, ![B, M, K]⟩ ⟨3, ![B, N, K]⟩ ⟨3, ![B, M, N]⟩)
    (hlc : D.lhsContracting = [2]) (hrc : D.rhsContracting = [2]) (hln : D.lhsNonContracting = [1])
    (hrn : D.rhsNonContracting = [1]) (hlb : D.lhsBatch = [0]) (hrb : D.rhsBatch = [0])
    (prec : Option ContractPrecision) (l : FVec Ideal ⟨3, ![B, M, K]⟩ φ₁) (r : FVec Ideal ⟨3, ![B, N, K]⟩ φ₂)
    (g : Fin B) (p : Fin M) (q : Fin N) :
    matmul D prec l r (constant (F := Ideal) ⟨3, ![B, M, N]⟩ .f32 0x00000000#32) (ix3 g p q)
      = ∑ k : Fin K, l (ix3 g p k) * r (ix3 g q k) := by
  simp only [matmul]
  rw [Ideal.matmul_constant_zero_apply]
  exact sum_eq D hlc hrc hln hrn hlb hrb l r g p q

/-- The host's `dot_general` of such a product, at an entry given by its coordinates. -/
theorem dotGeneral_ix3 {φ₁ φ₂ : FTy} (D : DotDims ⟨3, ![B, M, K]⟩ ⟨3, ![B, N, K]⟩ ⟨3, ![B, M, N]⟩)
    (hlc : D.lhsContracting = [2]) (hrc : D.rhsContracting = [2]) (hln : D.lhsNonContracting = [1])
    (hrn : D.rhsNonContracting = [1]) (hlb : D.lhsBatch = [0]) (hrb : D.rhsBatch = [0])
    (prec : Option ContractPrecision) (sched : HostSchedule) (l : FVec Ideal ⟨3, ![B, M, K]⟩ φ₁) (r : FVec Ideal ⟨3, ![B, N, K]⟩ φ₂)
    (g : Fin B) (p : Fin M) (q : Fin N) :
    FloatOps.dotGeneral D prec sched l r (ix3 g p q) = ∑ k : Fin K, l (ix3 g p k) * r (ix3 g q k) := by
  rw [Ideal.dotGeneral_apply]
  exact sum_eq D hlc hrc hln hrn hlb hrb l r g p q

end Idealize.ShloMosaic.BatchRhsTDot

end
-- ==== Proof.LibBatchMix.lean ====
/-
  GENERAL LEMMAS for rank-3 arrays read by coordinates, on the extended reals:
  • the batched product `out[g, p, q] = Σ_m l[g, p, m] · r[g, m, q]` (the left operand contracted on its last axis, the
    right on its middle axis, the first axis a batch axis), as a `tpu.matmul` into the zero accumulator, read at
    `ix3 g p q` as a sum over `m`;
  • the host's reduce with a maximum body along the last axis of an `[a, b, c]` array, read at `ix2 i j` as the fold of
    `max` over `k` from the initial value;
  • a vector `[c]` given two leading unit axes and repeated over them (`[c] → [1, 1, c] → [a, b, c]`), read at
    `ix3 p q k` as the vector's entry `k`.
-/
import Idealize.ShloMosaic.PureOps.Ideal.Laws
import Idealize.ShloMosaic.PureOps.Reduce
import Idealize.ShloMosaic.Lib.ValueIdx
import Idealize.ShloMosaic.Lib.Pipeline.Value

noncomputable section

open scoped BigOperators

namespace Idealize.ShloMosaic.BatchMix

open Idealize.ShloMosaic Idealize.ShloMosaic.ValueIdx

variable {B M K N : Nat}

private theorem val_congr {n : Nat} {sz : Fin n → Nat} (j : (i : Fin n) → Fin (sz i)) (p q : Nat) (hp : p < n) (hq : q < n) (h : p = q) :
    (j ⟨p, hp⟩).val = (j ⟨q, hq⟩).val := by subst h; rfl

/-- The left operand is read on its batch axis at the entry's first coordinate. -/
theorem lhs_batch (D : DotDims ⟨3, ![B, M, K]⟩ ⟨3, ![B, K, N]⟩ ⟨3, ![B, M, N]⟩) (hlb : D.lhsBatch = [0])
    (j : (⟨3, ![B, M, N]⟩ : Shape).Idx) (s : D.contr.Idx) : (D.lhsIdx j s (0 : Fin 3)).val = (j (0 : Fin 3)).val := by
  unfold DotDims.lhsIdx
  rw [dif_pos (show (0 : Fin 3) ∈ D.lhsBatch by rw [hlb]; exact List.mem_singleton.mpr rfl)]
  simp only [Fin.val_cast]
  exact val_congr j _ _ _ _ (by simp [hlb])

/-- The left operand is read on its row axis at the entry's second coordinate. -/
theorem lhs_row (D : DotDims ⟨3, ![B, M, K]⟩ ⟨3, ![B, K, N]⟩ ⟨3, ![B, M, N]⟩) (hlb : D.lhsBatch = [0]) (hln : D.lhsNonContracting = [1])
    (j : (⟨3, ![B, M, N]⟩ : Shape).Idx) (s : D.contr.Idx) : (D.lhsIdx j s (1 : Fin 3)).val = (j (1 : Fin 3)).val := by
  unfold DotDims.lhsIdx
  rw [dif_neg (show ¬(1 : Fin 3) ∈ D.lhsBatch by rw [hlb]; simp),
    dif_pos (show (1 : Fin 3) ∈ D.lhsNonContracting by rw [hln]; exact List.mem_singleton.mpr rfl)]
  simp only [Fin.val_cast]
  exact val_congr j _ _ _ _ (by simp [hlb, hln])

/-- The right operand is read on its batch axis at the entry's first coordinate. -/
theorem rhs_batch (D : DotDims ⟨3, ![B, M, K]⟩ ⟨3, ![B, K, N]⟩ ⟨3, ![B, M, N]⟩) (hrb : D.rhsBatch = [0])
    (j : (⟨3, ![B, M, N]⟩ : Shape).Idx) (s : D.contr.Idx) : (D.rhsIdx j s (0 : Fin 3)).val = (j (0 : Fin 3)).val := by
  unfold DotDims.rhsIdx
  rw [dif_pos (show (0 : Fin 3) ∈ D.rhsBatch by rw [hrb]; exact List.mem_singleton.mpr rfl)]
  simp only [Fin.val_cast]
  exact val_congr j _ _ _ _ (by simp [hrb])

/-- The right operand is read on its column axis at the entry's third coordinate. -/
theorem rhs_col (D : DotDims ⟨3, ![B, M, K]⟩ ⟨3, ![B, K, N]⟩ ⟨3, ![B, M, N]⟩) (hlb : D.lhsBatch = [0]) (hln : D.lhsNonContracting = [1])
    (hrb : D.rhsBatch = [0]) (hrn : D.rhsNonContracting = [2])
    (j : (⟨3, ![B, M, N]⟩ : Shape).Idx) (s : D.contr.Idx) : (D.rhsIdx j s (2 : Fin 3)).val = (j (2 : Fin 3)).val := by
  unfold DotDims.rhsIdx
  rw [dif_neg (show ¬(2 : Fin 3) ∈ D.rhsBatch by rw [hrb]; simp),
    dif_pos (show (2 : Fin 3) ∈ D.rhsNonContracting by rw [hrn]; exact List.mem_singleton.mpr rfl)]
  simp only [Fin.val_cast]
  exact val_congr j _ _ _ _ (by simp [hlb, hln, hrn])

/-- The contraction of such a batched product, re-indexed by the one contracted coordinate. -/
theorem sum_eq (D : DotDims ⟨3, ![B, M, K]⟩ ⟨3, ![B, K, N]⟩ ⟨3, ![B, M, N]⟩)
    (hlc : D.lhsContracting = [2]) (hrc : D.rhsContracting = [1]) (hln : D.lhsNonContracting = [1])
    (hrn : D.rhsNonContracting = [2]) (hlb : D.lhsBatch = [0]) (hrb : D.rhsBatch = [0])
    (l : (⟨3, ![B, M, K]⟩ : Shape).Idx → EReal) (r : (⟨3, ![B, K, N]⟩ : Shape).Idx → EReal) (g : Fin B) (p : Fin M) (q : Fin N) :
    ∑ s : D.contr.Idx, l (D.lhsIdx (ix3 g p q) s) * r (D.rhsIdx (ix3 g p q) s) = ∑ k : Fin K, l (ix3 g p k) * r (ix3 g k q) := by
  have hr : D.contr.rank = 1 := by rw [DotDims.rank_contr, hlc]; rfl
  have hs : D.contr.size ⟨0, by omega⟩ = K := by
    have := D.size_contr 0 (by rw [hlc]; exact Nat.one_pos)
    simpa [hlc] using this
  rw [← Equiv.sum_comp (contrEquiv1 D K hr hs).symm]
  refine Finset.sum_congr rfl fun k _ => ?_
  have hk := contrEquiv1_symm_val D K hr hs k
  have el : D.lhsIdx (ix3 g p q) ((contrEquiv1 D K hr hs).symm k) = ix3 g p k :=
    funext fun a => Fin.ext (by
      match a with
      | ⟨0, _⟩ => exact lhs_batch D hlb _ _
      | ⟨1, _⟩ => exact lhs_row D hlb hln _ _
      | ⟨2, _⟩ => exact (D.lhsIdx_val_of_single hlc _ _).trans hk)
  have er : D.rhsIdx (ix3 g p q) ((contrEquiv1 D K hr hs).symm k) = ix3 g k q :=
    funext fun a => Fin.ext (by
      match a with
      | ⟨0, _⟩ => exact rhs_batch D hrb _ _
      | ⟨1, _⟩ => exact (D.rhsIdx_val_of_single hrc _ _).trans hk
      | ⟨2, _⟩ => exact rhs_col D hlb hln hrb hrn _ _)
  exact congrArg₂ (fun x y => l x * r y) el er

/-- A `tpu.matmul` of such a product into the zero accumulator, at an entry given by its coordinates. -/
theorem matmul_zero_ix3 {φ₁ φ₂ : FTy} (D : DotDims ⟨3, ![B, M, K]⟩ ⟨3, ![B, K, N]⟩ ⟨3, ![B, M, N]⟩)
    (hlc : D.lhsContracting = [2]) (hrc : D.rhsContracting = [1]) (hln : D.lhsNonContracting = [1])
    (hrn : D.rhsNonContracting = [2]) (hlb : D.lhsBatch = [0]) (hrb : D.rhsBatch = [0])
    (prec : Option ContractPrecision) (l : FVec Ideal ⟨3, ![B, M, K]⟩ φ₁) (r : FVec Ideal ⟨3, ![B, K, N]⟩ φ₂)
    (g : Fin B) (p : Fin M) (q : Fin N) :
    matmul D prec l r (constant (F := Ideal) ⟨3, ![B, M, N]⟩ .f32 0x00000000#32) (ix3 g p q)
      = ∑ k : Fin K, l (ix3 g p k) * r (ix3 g k q) := by
  simp only [matmul]
  rw [Ideal.matmul_constant_zero_apply]
  exact sum_eq D hlc hrc hln hrn hlb hrb l r g p q

end Idealize.ShloMosaic.BatchMix

namespace Idealize.ShloMosaic.ValueIdx

open Idealize.ShloMosaic

variable {α : Type}

/-- The host's maximum along the last axis of an `[a, b, c]` array of extended reals: at `(i, j)` it is the fold of
    `max`, from the initial value, over the entries `(i, j, k)`. -/
theorem hostReduce_maximumf_axis2_of3_apply {a b c : ℕ} (x : FVec Ideal ⟨3, ![a, b, c]⟩ .f32) (init : (⟨0, ![]⟩ : Shape).Idx → Ideal .f32)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (i : Fin a) (j : Fin b) :
    Host.reduce FloatOps.maximumf x init h' hu (ix2 i j)
      = (Finset.univ : Finset (Fin c)).fold max (init (Shape.Idx.first hu)) (fun k => x (ix3 i j k)) := by
  rw [Host.reduce_eq_fold_single FloatOps.maximumf x _ h' h hu]
  refine congrArg (fun f => Finset.fold max (init (Shape.Idx.first hu)) f (Finset.univ : Finset (Fin c))) (funext fun k => congrArg x ?_)
  funext d
  match d with
  | ⟨0, _⟩ => exact Fin.ext rfl
  | ⟨1, _⟩ => exact Fin.ext rfl
  | ⟨2, _⟩ => exact Fin.ext rfl

/-- A vector `[c]` cast to `[1, 1, c]` reads, at `(u, v, k)`, the vector's entry `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]; omega)

/-- A `[1, 1, c]` array repeated to `[a, b, c]` reads, at `(p, q, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => show 0 = if (1 : Nat) = 1 then 0 else p.val; rw [if_pos rfl]
  | ⟨1, _⟩ => show 0 = if (1 : Nat) = 1 then 0 else q.val; rw [if_pos rfl]
  | ⟨2, _⟩ =>
    show k.val = if c = 1 then 0 else k.val
    split
    · have := k.isLt; omega
    · rfl

end Idealize.ShloMosaic.ValueIdx

end
-- ==== Proof.RefValue.lean ====
/-
  The reference program's result, read one stage at a time at coordinates: the length mask, the masked context, each
  step's row of 65 logits, the first log-softmax entry of a row, the step's total over all rows and positions, and the
  mean of the four step losses.
-/
import proofs.«132647_j30640296690406_2_alg».proof.Proof.RefRead
import proofs.«132647_j30640296690406_2_alg».proof.Proof.Spec
import proofs.«132647_j30640296690406_2_alg».proof.Proof.LibConcatLast
import proofs.«132647_j30640296690406_2_alg».proof.Proof.LibRank3
import proofs.«132647_j30640296690406_2_alg».proof.Proof.LibBatchMix
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.ReadP Idealize.ShloMosaic Idealize.ShloMosaic.ValueIdx Idealize.SL.Sem Idealize.ShloMosaic.StableHlo

/-- The length mask at row `b`, position `t`: 1 if `t` is below the row's length, else 0. -/
theorem mask_apply (x2 : (⟨S128, .i32⟩ : BufTy).Contents (Elt Ideal)) (b : Fin 128) (t : Fin 512) :
    val_main_v6 (F := Ideal) x2 (ix2 b t) = Cert.CPC.msk (x2 (ix1 b)) t.val := by
  rw [val_main_v6_apply, val_main_v5_apply, val_main_v3_apply, val_main_v1_apply, val_main_v0_apply,
    val_main_v4_apply, val_main_v2_apply]
  have h : idx_main_v2 (idx_main_v4 (ix2 b t)) = ix1 b :=
    funext fun a => Fin.ext (by match a with | ⟨0, _⟩ => rfl)
  rw [h]
  rfl

/-! ## Step 1: 511 positions, shift 1, channel 0 -/

/-- The masked context of step 1 at (row, position, feature): channel 0 of the context, times the length mask. -/
theorem ctx1_apply (x1 : (⟨S128x512x128x4, .f32⟩ : BufTy).Contents (Elt Ideal)) (x2 : (⟨S128, .i32⟩ : BufTy).Contents (Elt Ideal))
    (b : Fin 128) (t : Fin 511) (e : Fin 128) :
    val_main_v19 (F := Ideal) x1 x2 (ix3 b t e)
      = x1 (ix4 b ⟨t.val, by have := t.isLt; omega⟩ e (0 : Fin 4)) * Cert.CPC.msk (x2 (ix1 b)) t.val := by
  have hb := b.isLt; have ht := t.isLt; have he := e.isLt
  rw [val_main_v19_apply, val_main_v18_apply, val_main_v9_apply, val_main_v8_apply, val_main_v7_apply]
  have h1 : idx_main_v18 (idx_main_v19 (ix3 b t e)) = ix4 b ⟨t.val, by omega⟩ e (0 : Fin 4) :=
    funext fun a => Fin.ext (by
      match a with
      | ⟨0, _⟩ => show ((b.val * 511 + t.val) * 128 + e.val) / 65408 = b.val; omega
      | ⟨1, _⟩ => show ((b.val * 511 + t.val) * 128 + e.val) / 128 % 511 = t.val; omega
      | ⟨2, _⟩ => show ((b.val * 511 + t.val) * 128 + e.val) / 1 % 128 = e.val; omega
      | ⟨3, _⟩ => rfl)
  rw [h1]
  have h2 : idx_main_v7 (idx_main_v8 (ix4 b (⟨t.val, by omega⟩ : Fin 512) e (0 : Fin 4))) = ix2 b (⟨t.val, by omega⟩ : Fin 512) :=
    funext fun a => Fin.ext (by match a with | ⟨0, _⟩ => rfl | ⟨1, _⟩ => rfl)
  rw [h2, mask_apply]
  rfl

/-- The row of 65 logits of step 1: the positive score (a sum from the zero word) first, then the 64 scores against
    the gathered negative samples. -/
theorem row1_apply (x0 : (⟨S128x512x128, .f32⟩ : BufTy).Contents (Elt Ideal)) (x1 : (⟨S128x512x128x4, .f32⟩ : BufTy).Contents (Elt Ideal))
    (x2 : (⟨S128, .i32⟩ : BufTy).Contents (Elt Ideal)) (x3 : (⟨S128x64, .i32⟩ : BufTy).Contents (Elt Ideal))
    (b : Fin 128) (t : Fin 511) (j : Fin 65) :
    val_main_v25 (F := Ideal) x0 x1 x2 x3 (ix3 b t j)
      = Cert.CPC.row 511 1 rfl (Cert.CPC.baseOf x0) (Cert.CPC.ctxOf x1 0) (Cert.CPC.lenOf x2)
          (Cert.CPC.negsOf (val_main_v17 (F := Ideal) x0 x3)) b t j := by
  have hb := b.isLt; have ht := t.isLt; have hj := j.isLt
  refine (ConcatLast.last2_apply (a := 1) (b := 64) (val_main_v24 (F := Ideal) x0 x1 x2) (val_main_v23 (F := Ideal) x0 x1 x2 x3)
    concatenates_S128x511x1_S128x511x64_S128x511x65_d2 rfl b t j).trans ?_
  unfold Cert.CPC.row
  by_cases h0 : j.val = 0
  · rw [dif_pos (show j.val < 1 by omega), if_pos h0, val_main_v24_apply, val_main_v22_apply]
    refine (congrArg (· + _) Ideal.ofBits_zero_f32).trans ?_
    rw [zero_add]
    refine Finset.sum_congr rfl fun e _ => ?_
    rw [val_main_v21_apply, val_main_v20_apply]
    have h1 : idx_main_v22 (idx_main_v24 (ix3 b t (⟨j.val, by omega⟩ : Fin 1))) e = ix3 b t e :=
      funext fun a => Fin.ext (by match a with | ⟨0, _⟩ => rfl | ⟨1, _⟩ => rfl | ⟨2, _⟩ => rfl)
    rw [h1, ctx1_apply]
    have h2 : idx_main_v20 (ix3 b t e) = ix3 b (⟨t.val + 1, by omega⟩ : Fin 512) e :=
      funext fun a => Fin.ext (by
        match a with
        | ⟨0, _⟩ => rfl
        | ⟨1, _⟩ => show 1 + t.val = t.val + 1; omega
        | ⟨2, _⟩ => rfl)
    rw [h2]
    rfl
  · rw [dif_neg (show ¬ j.val < 1 by omega), if_neg h0, val_main_v23_apply]
    refine Finset.sum_congr rfl fun e _ => ?_
    have h1 : lidx_main_v23 (ix3 b t (⟨j.val - 1, by omega⟩ : Fin 64)) e = ix3 b t e :=
      funext fun a => Fin.ext (by match a with | ⟨0, _⟩ => rfl | ⟨1, _⟩ => rfl | ⟨2, _⟩ => rfl)
    have h2 : ridx_main_v23 (ix3 b t (⟨j.val - 1, by omega⟩ : Fin 64)) e = ix3 b (⟨j.val - 1, by omega⟩ : Fin 64) e :=
      funext fun a => Fin.ext (by match a with | ⟨0, _⟩ => rfl | ⟨1, _⟩ => rfl | ⟨2, _⟩ => rfl)
    rw [h1, h2, ctx1_apply]
    rfl

/-- The first log-softmax entry of a row of step 1: the shift is the row's maximum (the running maximum from −∞,
    compared once more with −∞), and the sum of exponentials starts from the zero word. -/
theorem lsm1_apply (x0 : (⟨S128x512x128, .f32⟩ : BufTy).Contents (Elt Ideal)) (x1 : (⟨S128x512x128x4, .f32⟩ : BufTy).Contents (Elt Ideal))
    (x2 : (⟨S128, .i32⟩ : BufTy).Contents (Elt Ideal)) (x3 : (⟨S128x64, .i32⟩ : BufTy).Contents (Elt Ideal))
    (b : Fin 128) (t : Fin 511) :
    val_main_v28 (F := Ideal) x0 x1 x2 x3 (ix2 b t)
      = Cert.CPC.lp0 (fun j : Fin 65 => val_main_v25 (F := Ideal) x0 x1 x2 x3 (ix3 b t j)) := by
  have hb := b.isLt; have ht := t.isLt
  rw [val_main_v28_apply, val_main_v27_apply]
  have h1 : idx_main_v27 (idx_main_v28 (ix2 b t)) = ix3 b t (0 : Fin 65) :=
    funext fun a => Fin.ext (by
      match a with
      | ⟨0, _⟩ => show (b.val * 511 + t.val) / 511 = b.val; omega
      | ⟨1, _⟩ => show (b.val * 511 + t.val) / 1 % 511 = t.val; omega
      | ⟨2, _⟩ => rfl)
  rw [h1, val_main_v26_apply]
  have hmax : ∀ j : Fin 65, val_main_call0_v4 (F := Ideal) x0 x1 x2 x3 (ix3 b t j)
      = Cert.CPC.rowMax (fun j : Fin 65 => val_main_v25 (F := Ideal) x0 x1 x2 x3 (ix3 b t j)) := by
    intro j
    rw [val_main_call0_v4_apply, val_main_call0_v3_apply]
    have h2 : idx_main_call0_v3 (idx_main_call0_v4 (ix3 b t j)) = ix2 b t :=
      funext fun a => Fin.ext (by match a with | ⟨0, _⟩ => rfl | ⟨1, _⟩ => rfl)
    rw [h2, val_main_call0_v2_apply, val_main_call0_v1_apply]
    unfold val_main_call0_v0
    rw [hostReduce_maximumf_axis2_of3_apply (val_main_v25 (F := Ideal) x0 x1 x2 x3) _ reducesTo_S128x511x65_S128x511_d2 (by decide) h_S_ b t]
    rfl
  have h5 : ∀ j : Fin 65, val_main_call0_v5 (F := Ideal) x0 x1 x2 x3 (ix3 b t j)
      = val_main_v25 (F := Ideal) x0 x1 x2 x3 (ix3 b t j)
        - Cert.CPC.rowMax (fun j : Fin 65 => val_main_v25 (F := Ideal) x0 x1 x2 x3 (ix3 b t j)) := by
    intro j
    rw [val_main_call0_v5_apply, hmax]
    rfl
  rw [h5, val_main_call0_v10_apply, val_main_call0_v9_apply, val_main_call0_v8_apply]
  have h3 : idx_main_call0_v8 (idx_main_call0_v10 (ix3 b t (0 : Fin 65))) = ix2 b t :=
    funext fun a => Fin.ext (by match a with | ⟨0, _⟩ => rfl | ⟨1, _⟩ => rfl)
  rw [h3, val_main_call0_v7_apply]
  unfold Cert.CPC.lp0
  refine congrArg (fun z => (val_main_v25 (F := Ideal) x0 x1 x2 x3 (ix3 b t (0 : Fin 65))
      - Cert.CPC.rowMax (fun j : Fin 65 => val_main_v25 (F := Ideal) x0 x1 x2 x3 (ix3 b t j))) - Ideal.log z) ?_
  refine (congrArg (· + _) Ideal.ofBits_zero_f32).trans ?_
  rw [zero_add]
  refine Finset.sum_congr rfl fun k _ => ?_
  have h4 : idx_main_call0_v7 (ix2 b t) k = ix3 b t k :=
    funext fun a => Fin.ext (by match a with | ⟨0, _⟩ => rfl | ⟨1, _⟩ => rfl | ⟨2, _⟩ => rfl)
  rw [h4, val_main_call0_v6_apply, h5]
  rfl

/-- The first log-softmax entry of step 1 at (row, position), as the specification's `entry`. -/
theorem entry1_apply (x0 : (⟨S128x512x128, .f32⟩ : BufTy).Contents (Elt Ideal)) (x1 : (⟨S128x512x128x4, .f32⟩ : BufTy).Contents (Elt Ideal))
    (x2 : (⟨S128, .i32⟩ : BufTy).Contents (Elt Ideal)) (x3 : (⟨S128x64, .i32⟩ : BufTy).Contents (Elt Ideal))
    (b : Fin 128) (t : Fin 511) :
    val_main_v28 (F := Ideal) x0 x1 x2 x3 (ix2 b t)
      = Cert.CPC.entry x0 x1 x2 (val_main_v17 (F := Ideal) x0 x3) 511 1 rfl 0 b t := by
  rw [lsm1_apply]
  unfold Cert.CPC.entry
  exact congrArg Cert.CPC.lp0 (funext fun j => row1_apply x0 x1 x2 x3 b t j)

/-- The loss of step 1: minus the step's total (one sum over all rows and positions, from the zero word) over the count. -/
theorem loss1_apply (x0 : (⟨S128x512x128, .f32⟩ : BufTy).Contents (Elt Ideal)) (x1 : (⟨S128x512x128x4, .f32⟩ : BufTy).Contents (Elt Ideal))
    (x2 : (⟨S128, .i32⟩ : BufTy).Contents (Elt Ideal)) (x3 : (⟨S128x64, .i32⟩ : BufTy).Contents (Elt Ideal))
    (i : S_.Idx) :
    val_main_v31 (F := Ideal) x0 x1 x2 x3 i
      = -(Ideal.div (Cert.CPC.zw + Cert.CPC.stepSum x0 x1 x2 (val_main_v17 (F := Ideal) x0 x3) 511 1 rfl 0)
          (Ideal.ofBits .f32 0x477F8000#32)) := by
  rw [val_main_v31_apply, val_main_v30_apply, val_main_v29_apply, sum_idx2]
  unfold Cert.CPC.stepSum
  have hs : (∑ b : Fin 128, ∑ t : Fin 511, val_main_v28 (F := Ideal) x0 x1 x2 x3 (ix2 b t))
      = ∑ b : Fin 128, ∑ t : Fin 511, Cert.CPC.entry x0 x1 x2 (val_main_v17 (F := Ideal) x0 x3) 511 1 rfl 0 b t :=
    Finset.sum_congr rfl fun b _ => Finset.sum_congr rfl fun t _ => entry1_apply x0 x1 x2 x3 b t
  rw [hs]
  rfl

/-! ## Step 2: 510 positions, shift 2, channel 1 -/

/-- The masked context of step 2 at (row, position, feature): channel 1 of the context, times the length mask. -/
theorem ctx2_apply (x1 : (⟨S128x512x128x4, .f32⟩ : BufTy).Contents (Elt Ideal)) (x2 : (⟨S128, .i32⟩ : BufTy).Contents (Elt Ideal))
    (b : Fin 128) (t : Fin 510) (e : Fin 128) :
    val_main_v33 (F := Ideal) x1 x2 (ix3 b t e)
      = x1 (ix4 b ⟨t.val, by have := t.isLt; omega⟩ e (1 : Fin 4)) * Cert.CPC.msk (x2 (ix1 b)) t.val := by
  have hb := b.isLt; have ht := t.isLt; have he := e.isLt
  rw [val_main_v33_apply, val_main_v32_apply, val_main_v9_apply, val_main_v8_apply, val_main_v7_apply]
  have h1 : idx_main_v32 (idx_main_v33 (ix3 b t e)) = ix4 b ⟨t.val, by omega⟩ e (1 : Fin 4) :=
    funext fun a => Fin.ext (by
      match a with
      | ⟨0, _⟩ => show ((b.val * 510 + t.val) * 128 + e.val) / 65280 = b.val; omega
      | ⟨1, _⟩ => show ((b.val * 510 + t.val) * 128 + e.val) / 128 % 510 = t.val; omega
      | ⟨2, _⟩ => show ((b.val * 510 + t.val) * 128 + e.val) / 1 % 128 = e.val; omega
      | ⟨3, _⟩ => rfl)
  rw [h1]
  have h2 : idx_main_v7 (idx_main_v8 (ix4 b (⟨t.val, by omega⟩ : Fin 512) e (1 : Fin 4))) = ix2 b (⟨t.val, by omega⟩ : Fin 512) :=
    funext fun a => Fin.ext (by match a with | ⟨0, _⟩ => rfl | ⟨1, _⟩ => rfl)
  rw [h2, mask_apply]
  rfl

/-- The row of 65 logits of step 2: the positive score (a sum from the zero word) first, then the 64 scores against
    the gathered negative samples. -/
theorem row2_apply (x0 : (⟨S128x512x128, .f32⟩ : BufTy).Contents (Elt Ideal)) (x1 : (⟨S128x512x128x4, .f32⟩ : BufTy).Contents (Elt Ideal))
    (x2 : (⟨S128, .i32⟩ : BufTy).Contents (Elt Ideal)) (x3 : (⟨S128x64, .i32⟩ : BufTy).Contents (Elt Ideal))
    (b : Fin 128) (t : Fin 510) (j : Fin 65) :
    val_main_v39 (F := Ideal) x0 x1 x2 x3 (ix3 b t j)
      = Cert.CPC.row 510 2 rfl (Cert.CPC.baseOf x0) (Cert.CPC.ctxOf x1 1) (Cert.CPC.lenOf x2)
          (Cert.CPC.negsOf (val_main_v17 (F := Ideal) x0 x3)) b t j := by
  have hb := b.isLt; have ht := t.isLt; have hj := j.isLt
  refine (ConcatLast.last2_apply (a := 1) (b := 64) (val_main_v38 (F := Ideal) x0 x1 x2) (val_main_v37 (F := Ideal) x0 x1 x2 x3)
    concatenates_S128x510x1_S128x510x64_S128x510x65_d2 rfl b t j).trans ?_
  unfold Cert.CPC.row
  by_cases h0 : j.val = 0
  · rw [dif_pos (show j.val < 1 by omega), if_pos h0, val_main_v38_apply, val_main_v36_apply]
    refine (congrArg (· + _) Ideal.ofBits_zero_f32).trans ?_
    rw [zero_add]
    refine Finset.sum_congr rfl fun e _ => ?_
    rw [val_main_v35_apply, val_main_v34_apply]
    have h1 : idx_main_v36 (idx_main_v38 (ix3 b t (⟨j.val, by omega⟩ : Fin 1))) e = ix3 b t e :=
      funext fun a => Fin.ext (by match a with | ⟨0, _⟩ => rfl | ⟨1, _⟩ => rfl | ⟨2, _⟩ => rfl)
    rw [h1, ctx2_apply]
    have h2 : idx_main_v34 (ix3 b t e) = ix3 b (⟨t.val + 2, by omega⟩ : Fin 512) e :=
      funext fun a => Fin.ext (by
        match a with
        | ⟨0, _⟩ => rfl
        | ⟨1, _⟩ => show 2 + t.val = t.val + 2; omega
        | ⟨2, _⟩ => rfl)
    rw [h2]
    rfl
  · rw [dif_neg (show ¬ j.val < 1 by omega), if_neg h0, val_main_v37_apply]
    refine Finset.sum_congr rfl fun e _ => ?_
    have h1 : lidx_main_v37 (ix3 b t (⟨j.val - 1, by omega⟩ : Fin 64)) e = ix3 b t e :=
      funext fun a => Fin.ext (by match a with | ⟨0, _⟩ => rfl | ⟨1, _⟩ => rfl | ⟨2, _⟩ => rfl)
    have h2 : ridx_main_v37 (ix3 b t (⟨j.val - 1, by omega⟩ : Fin 64)) e = ix3 b (⟨j.val - 1, by omega⟩ : Fin 64) e :=
      funext fun a => Fin.ext (by match a with | ⟨0, _⟩ => rfl | ⟨1, _⟩ => rfl | ⟨2, _⟩ => rfl)
    rw [h1, h2, ctx2_apply]
    rfl

/-- The first log-softmax entry of a row of step 2: the shift is the row's maximum (the running maximum from −∞,
    compared once more with −∞), and the sum of exponentials starts from the zero word. -/
theorem lsm2_apply (x0 : (⟨S128x512x128, .f32⟩ : BufTy).Contents (Elt Ideal)) (x1 : (⟨S128x512x128x4, .f32⟩ : BufTy).Contents (Elt Ideal))
    (x2 : (⟨S128, .i32⟩ : BufTy).Contents (Elt Ideal)) (x3 : (⟨S128x64, .i32⟩ : BufTy).Contents (Elt Ideal))
    (b : Fin 128) (t : Fin 510) :
    val_main_v42 (F := Ideal) x0 x1 x2 x3 (ix2 b t)
      = Cert.CPC.lp0 (fun j : Fin 65 => val_main_v39 (F := Ideal) x0 x1 x2 x3 (ix3 b t j)) := by
  have hb := b.isLt; have ht := t.isLt
  rw [val_main_v42_apply, val_main_v41_apply]
  have h1 : idx_main_v41 (idx_main_v42 (ix2 b t)) = ix3 b t (0 : Fin 65) :=
    funext fun a => Fin.ext (by
      match a with
      | ⟨0, _⟩ => show (b.val * 510 + t.val) / 510 = b.val; omega
      | ⟨1, _⟩ => show (b.val * 510 + t.val) / 1 % 510 = t.val; omega
      | ⟨2, _⟩ => rfl)
  rw [h1, val_main_v40_apply]
  have hmax : ∀ j : Fin 65, val_main_call1_v4 (F := Ideal) x0 x1 x2 x3 (ix3 b t j)
      = Cert.CPC.rowMax (fun j : Fin 65 => val_main_v39 (F := Ideal) x0 x1 x2 x3 (ix3 b t j)) := by
    intro j
    rw [val_main_call1_v4_apply, val_main_call1_v3_apply]
    have h2 : idx_main_call1_v3 (idx_main_call1_v4 (ix3 b t j)) = ix2 b t :=
      funext fun a => Fin.ext (by match a with | ⟨0, _⟩ => rfl | ⟨1, _⟩ => rfl)
    rw [h2, val_main_call1_v2_apply, val_main_call1_v1_apply]
    unfold val_main_call1_v0
    rw [hostReduce_maximumf_axis2_of3_apply (val_main_v39 (F := Ideal) x0 x1 x2 x3) _ reducesTo_S128x510x65_S128x510_d2 (by decide) h_S_ b t]
    rfl
  have h5 : ∀ j : Fin 65, val_main_call1_v5 (F := Ideal) x0 x1 x2 x3 (ix3 b t j)
      = val_main_v39 (F := Ideal) x0 x1 x2 x3 (ix3 b t j)
        - Cert.CPC.rowMax (fun j : Fin 65 => val_main_v39 (F := Ideal) x0 x1 x2 x3 (ix3 b t j)) := by
    intro j
    rw [val_main_call1_v5_apply, hmax]
    rfl
  rw [h5, val_main_call1_v10_apply, val_main_call1_v9_apply, val_main_call1_v8_apply]
  have h3 : idx_main_call1_v8 (idx_main_call1_v10 (ix3 b t (0 : Fin 65))) = ix2 b t :=
    funext fun a => Fin.ext (by match a with | ⟨0, _⟩ => rfl | ⟨1, _⟩ => rfl)
  rw [h3, val_main_call1_v7_apply]
  unfold Cert.CPC.lp0
  refine congrArg (fun z => (val_main_v39 (F := Ideal) x0 x1 x2 x3 (ix3 b t (0 : Fin 65))
      - Cert.CPC.rowMax (fun j : Fin 65 => val_main_v39 (F := Ideal) x0 x1 x2 x3 (ix3 b t j))) - Ideal.log z) ?_
  refine (congrArg (· + _) Ideal.ofBits_zero_f32).trans ?_
  rw [zero_add]
  refine Finset.sum_congr rfl fun k _ => ?_
  have h4 : idx_main_call1_v7 (ix2 b t) k = ix3 b t k :=
    funext fun a => Fin.ext (by match a with | ⟨0, _⟩ => rfl | ⟨1, _⟩ => rfl | ⟨2, _⟩ => rfl)
  rw [h4, val_main_call1_v6_apply, h5]
  rfl

/-- The first log-softmax entry of step 2 at (row, position), as the specification's `entry`. -/
theorem entry2_apply (x0 : (⟨S128x512x128, .f32⟩ : BufTy).Contents (Elt Ideal)) (x1 : (⟨S128x512x128x4, .f32⟩ : BufTy).Contents (Elt Ideal))
    (x2 : (⟨S128, .i32⟩ : BufTy).Contents (Elt Ideal)) (x3 : (⟨S128x64, .i32⟩ : BufTy).Contents (Elt Ideal))
    (b : Fin 128) (t : Fin 510) :
    val_main_v42 (F := Ideal) x0 x1 x2 x3 (ix2 b t)
      = Cert.CPC.entry x0 x1 x2 (val_main_v17 (F := Ideal) x0 x3) 510 2 rfl 1 b t := by
  rw [lsm2_apply]
  unfold Cert.CPC.entry
  exact congrArg Cert.CPC.lp0 (funext fun j => row2_apply x0 x1 x2 x3 b t j)

/-- The loss of step 2: minus the step's total (one sum over all rows and positions, from the zero word) over the count. -/
theorem loss2_apply (x0 : (⟨S128x512x128, .f32⟩ : BufTy).Contents (Elt Ideal)) (x1 : (⟨S128x512x128x4, .f32⟩ : BufTy).Contents (Elt Ideal))
    (x2 : (⟨S128, .i32⟩ : BufTy).Contents (Elt Ideal)) (x3 : (⟨S128x64, .i32⟩ : BufTy).Contents (Elt Ideal))
    (i : S_.Idx) :
    val_main_v45 (F := Ideal) x0 x1 x2 x3 i
      = -(Ideal.div (Cert.CPC.zw + Cert.CPC.stepSum x0 x1 x2 (val_main_v17 (F := Ideal) x0 x3) 510 2 rfl 1)
          (Ideal.ofBits .f32 0x477F0000#32)) := by
  rw [val_main_v45_apply, val_main_v44_apply, val_main_v43_apply, sum_idx2]
  unfold Cert.CPC.stepSum
  have hs : (∑ b : Fin 128, ∑ t : Fin 510, val_main_v42 (F := Ideal) x0 x1 x2 x3 (ix2 b t))
      = ∑ b : Fin 128, ∑ t : Fin 510, Cert.CPC.entry x0 x1 x2 (val_main_v17 (F := Ideal) x0 x3) 510 2 rfl 1 b t :=
    Finset.sum_congr rfl fun b _ => Finset.sum_congr rfl fun t _ => entry2_apply x0 x1 x2 x3 b t
  rw [hs]
  rfl

/-! ## Step 3: 509 positions, shift 3, channel 2 -/

/-- The masked context of step 3 at (row, position, feature): channel 2 of the context, times the length mask. -/
theorem ctx3_apply (x1 : (⟨S128x512x128x4, .f32⟩ : BufTy).Contents (Elt Ideal)) (x2 : (⟨S128, .i32⟩ : BufTy).Contents (Elt Ideal))
    (b : Fin 128) (t : Fin 509) (e : Fin 128) :
    val_main_v47 (F := Ideal) x1 x2 (ix3 b t e)
      = x1 (ix4 b ⟨t.val, by have := t.isLt; omega⟩ e (2 : Fin 4)) * Cert.CPC.msk (x2 (ix1 b)) t.val := by
  have hb := b.isLt; have ht := t.isLt; have he := e.isLt
  rw [val_main_v47_apply, val_main_v46_apply, val_main_v9_apply, val_main_v8_apply, val_main_v7_apply]
  have h1 : idx_main_v46 (idx_main_v47 (ix3 b t e)) = ix4 b ⟨t.val, by omega⟩ e (2 : Fin 4) :=
    funext fun a => Fin.ext (by
      match a with
      | ⟨0, _⟩ => show ((b.val * 509 + t.val) * 128 + e.val) / 65152 = b.val; omega
      | ⟨1, _⟩ => show ((b.val * 509 + t.val) * 128 + e.val) / 128 % 509 = t.val; omega
      | ⟨2, _⟩ => show ((b.val * 509 + t.val) * 128 + e.val) / 1 % 128 = e.val; omega
      | ⟨3, _⟩ => rfl)
  rw [h1]
  have h2 : idx_main_v7 (idx_main_v8 (ix4 b (⟨t.val, by omega⟩ : Fin 512) e (2 : Fin 4))) = ix2 b (⟨t.val, by omega⟩ : Fin 512) :=
    funext fun a => Fin.ext (by match a with | ⟨0, _⟩ => rfl | ⟨1, _⟩ => rfl)
  rw [h2, mask_apply]
  rfl

/-- The row of 65 logits of step 3: the positive score (a sum from the zero word) first, then the 64 scores against
    the gathered negative samples. -/
theorem row3_apply (x0 : (⟨S128x512x128, .f32⟩ : BufTy).Contents (Elt Ideal)) (x1 : (⟨S128x512x128x4, .f32⟩ : BufTy).Contents (Elt Ideal))
    (x2 : (⟨S128, .i32⟩ : BufTy).Contents (Elt Ideal)) (x3 : (⟨S128x64, .i32⟩ : BufTy).Contents (Elt Ideal))
    (b : Fin 128) (t : Fin 509) (j : Fin 65) :
    val_main_v53 (F := Ideal) x0 x1 x2 x3 (ix3 b t j)
      = Cert.CPC.row 509 3 rfl (Cert.CPC.baseOf x0) (Cert.CPC.ctxOf x1 2) (Cert.CPC.lenOf x2)
          (Cert.CPC.negsOf (val_main_v17 (F := Ideal) x0 x3)) b t j := by
  have hb := b.isLt; have ht := t.isLt; have hj := j.isLt
  refine (ConcatLast.last2_apply (a := 1) (b := 64) (val_main_v52 (F := Ideal) x0 x1 x2) (val_main_v51 (F := Ideal) x0 x1 x2 x3)
    concatenates_S128x509x1_S128x509x64_S128x509x65_d2 rfl b t j).trans ?_
  unfold Cert.CPC.row
  by_cases h0 : j.val = 0
  · rw [dif_pos (show j.val < 1 by omega), if_pos h0, val_main_v52_apply, val_main_v50_apply]
    refine (congrArg (· + _) Ideal.ofBits_zero_f32).trans ?_
    rw [zero_add]
    refine Finset.sum_congr rfl fun e _ => ?_
    rw [val_main_v49_apply, val_main_v48_apply]
    have h1 : idx_main_v50 (idx_main_v52 (ix3 b t (⟨j.val, by omega⟩ : Fin 1))) e = ix3 b t e :=
      funext fun a => Fin.ext (by match a with | ⟨0, _⟩ => rfl | ⟨1, _⟩ => rfl | ⟨2, _⟩ => rfl)
    rw [h1, ctx3_apply]
    have h2 : idx_main_v48 (ix3 b t e) = ix3 b (⟨t.val + 3, by omega⟩ : Fin 512) e :=
      funext fun a => Fin.ext (by
        match a with
        | ⟨0, _⟩ => rfl
        | ⟨1, _⟩ => show 3 + t.val = t.val + 3; omega
        | ⟨2, _⟩ => rfl)
    rw [h2]
    rfl
  · rw [dif_neg (show ¬ j.val < 1 by omega), if_neg h0, val_main_v51_apply]
    refine Finset.sum_congr rfl fun e _ => ?_
    have h1 : lidx_main_v51 (ix3 b t (⟨j.val - 1, by omega⟩ : Fin 64)) e = ix3 b t e :=
      funext fun a => Fin.ext (by match a with | ⟨0, _⟩ => rfl | ⟨1, _⟩ => rfl | ⟨2, _⟩ => rfl)
    have h2 : ridx_main_v51 (ix3 b t (⟨j.val - 1, by omega⟩ : Fin 64)) e = ix3 b (⟨j.val - 1, by omega⟩ : Fin 64) e :=
      funext fun a => Fin.ext (by match a with | ⟨0, _⟩ => rfl | ⟨1, _⟩ => rfl | ⟨2, _⟩ => rfl)
    rw [h1, h2, ctx3_apply]
    rfl

/-- The first log-softmax entry of a row of step 3: the shift is the row's maximum (the running maximum from −∞,
    compared once more with −∞), and the sum of exponentials starts from the zero word. -/
theorem lsm3_apply (x0 : (⟨S128x512x128, .f32⟩ : BufTy).Contents (Elt Ideal)) (x1 : (⟨S128x512x128x4, .f32⟩ : BufTy).Contents (Elt Ideal))
    (x2 : (⟨S128, .i32⟩ : BufTy).Contents (Elt Ideal)) (x3 : (⟨S128x64, .i32⟩ : BufTy).Contents (Elt Ideal))
    (b : Fin 128) (t : Fin 509) :
    val_main_v56 (F := Ideal) x0 x1 x2 x3 (ix2 b t)
      = Cert.CPC.lp0 (fun j : Fin 65 => val_main_v53 (F := Ideal) x0 x1 x2 x3 (ix3 b t j)) := by
  have hb := b.isLt; have ht := t.isLt
  rw [val_main_v56_apply, val_main_v55_apply]
  have h1 : idx_main_v55 (idx_main_v56 (ix2 b t)) = ix3 b t (0 : Fin 65) :=
    funext fun a => Fin.ext (by
      match a with
      | ⟨0, _⟩ => show (b.val * 509 + t.val) / 509 = b.val; omega
      | ⟨1, _⟩ => show (b.val * 509 + t.val) / 1 % 509 = t.val; omega
      | ⟨2, _⟩ => rfl)
  rw [h1, val_main_v54_apply]
  have hmax : ∀ j : Fin 65, val_main_call2_v4 (F := Ideal) x0 x1 x2 x3 (ix3 b t j)
      = Cert.CPC.rowMax (fun j : Fin 65 => val_main_v53 (F := Ideal) x0 x1 x2 x3 (ix3 b t j)) := by
    intro j
    rw [val_main_call2_v4_apply, val_main_call2_v3_apply]
    have h2 : idx_main_call2_v3 (idx_main_call2_v4 (ix3 b t j)) = ix2 b t :=
      funext fun a => Fin.ext (by match a with | ⟨0, _⟩ => rfl | ⟨1, _⟩ => rfl)
    rw [h2, val_main_call2_v2_apply, val_main_call2_v1_apply]
    unfold val_main_call2_v0
    rw [hostReduce_maximumf_axis2_of3_apply (val_main_v53 (F := Ideal) x0 x1 x2 x3) _ reducesTo_S128x509x65_S128x509_d2 (by decide) h_S_ b t]
    rfl
  have h5 : ∀ j : Fin 65, val_main_call2_v5 (F := Ideal) x0 x1 x2 x3 (ix3 b t j)
      = val_main_v53 (F := Ideal) x0 x1 x2 x3 (ix3 b t j)
        - Cert.CPC.rowMax (fun j : Fin 65 => val_main_v53 (F := Ideal) x0 x1 x2 x3 (ix3 b t j)) := by
    intro j
    rw [val_main_call2_v5_apply, hmax]
    rfl
  rw [h5, val_main_call2_v10_apply, val_main_call2_v9_apply, val_main_call2_v8_apply]
  have h3 : idx_main_call2_v8 (idx_main_call2_v10 (ix3 b t (0 : Fin 65))) = ix2 b t :=
    funext fun a => Fin.ext (by match a with | ⟨0, _⟩ => rfl | ⟨1, _⟩ => rfl)
  rw [h3, val_main_call2_v7_apply]
  unfold Cert.CPC.lp0
  refine congrArg (fun z => (val_main_v53 (F := Ideal) x0 x1 x2 x3 (ix3 b t (0 : Fin 65))
      - Cert.CPC.rowMax (fun j : Fin 65 => val_main_v53 (F := Ideal) x0 x1 x2 x3 (ix3 b t j))) - Ideal.log z) ?_
  refine (congrArg (· + _) Ideal.ofBits_zero_f32).trans ?_
  rw [zero_add]
  refine Finset.sum_congr rfl fun k _ => ?_
  have h4 : idx_main_call2_v7 (ix2 b t) k = ix3 b t k :=
    funext fun a => Fin.ext (by match a with | ⟨0, _⟩ => rfl | ⟨1, _⟩ => rfl | ⟨2, _⟩ => rfl)
  rw [h4, val_main_call2_v6_apply, h5]
  rfl

/-- The first log-softmax entry of step 3 at (row, position), as the specification's `entry`. -/
theorem entry3_apply (x0 : (⟨S128x512x128, .f32⟩ : BufTy).Contents (Elt Ideal)) (x1 : (⟨S128x512x128x4, .f32⟩ : BufTy).Contents (Elt Ideal))
    (x2 : (⟨S128, .i32⟩ : BufTy).Contents (Elt Ideal)) (x3 : (⟨S128x64, .i32⟩ : BufTy).Contents (Elt Ideal))
    (b : Fin 128) (t : Fin 509) :
    val_main_v56 (F := Ideal) x0 x1 x2 x3 (ix2 b t)
      = Cert.CPC.entry x0 x1 x2 (val_main_v17 (F := Ideal) x0 x3) 509 3 rfl 2 b t := by
  rw [lsm3_apply]
  unfold Cert.CPC.entry
  exact congrArg Cert.CPC.lp0 (funext fun j => row3_apply x0 x1 x2 x3 b t j)

/-- The loss of step 3: minus the step's total (one sum over all rows and positions, from the zero word) over the count. -/
theorem loss3_apply (x0 : (⟨S128x512x128, .f32⟩ : BufTy).Contents (Elt Ideal)) (x1 : (⟨S128x512x128x4, .f32⟩ : BufTy).Contents (Elt Ideal))
    (x2 : (⟨S128, .i32⟩ : BufTy).Contents (Elt Ideal)) (x3 : (⟨S128x64, .i32⟩ : BufTy).Contents (Elt Ideal))
    (i : S_.Idx) :
    val_main_v59 (F := Ideal) x0 x1 x2 x3 i
      = -(Ideal.div (Cert.CPC.zw + Cert.CPC.stepSum x0 x1 x2 (val_main_v17 (F := Ideal) x0 x3) 509 3 rfl 2)
          (Ideal.ofBits .f32 0x477E8000#32)) := by
  rw [val_main_v59_apply, val_main_v58_apply, val_main_v57_apply, sum_idx2]
  unfold Cert.CPC.stepSum
  have hs : (∑ b : Fin 128, ∑ t : Fin 509, val_main_v56 (F := Ideal) x0 x1 x2 x3 (ix2 b t))
      = ∑ b : Fin 128, ∑ t : Fin 509, Cert.CPC.entry x0 x1 x2 (val_main_v17 (F := Ideal) x0 x3) 509 3 rfl 2 b t :=
    Finset.sum_congr rfl fun b _ => Finset.sum_congr rfl fun t _ => entry3_apply x0 x1 x2 x3 b t
  rw [hs]
  rfl

/-! ## Step 4: 508 positions, shift 4, channel 3 -/

/-- The masked context of step 4 at (row, position, feature): channel 3 of the context, times the length mask. -/
theorem ctx4_apply (x1 : (⟨S128x512x128x4, .f32⟩ : BufTy).Contents (Elt Ideal)) (x2 : (⟨S128, .i32⟩ : BufTy).Contents (Elt Ideal))
    (b : Fin 128) (t : Fin 508) (e : Fin 128) :
    val_main_v61 (F := Ideal) x1 x2 (ix3 b t e)
      = x1 (ix4 b ⟨t.val, by have := t.isLt; omega⟩ e (3 : Fin 4)) * Cert.CPC.msk (x2 (ix1 b)) t.val := by
  have hb := b.isLt; have ht := t.isLt; have he := e.isLt
  rw [val_main_v61_apply, val_main_v60_apply, val_main_v9_apply, val_main_v8_apply, val_main_v7_apply]
  have h1 : idx_main_v60 (idx_main_v61 (ix3 b t e)) = ix4 b ⟨t.val, by omega⟩ e (3 : Fin 4) :=
    funext fun a => Fin.ext (by
      match a with
      | ⟨0, _⟩ => show ((b.val * 508 + t.val) * 128 + e.val) / 65024 = b.val; omega
      | ⟨1, _⟩ => show ((b.val * 508 + t.val) * 128 + e.val) / 128 % 508 = t.val; omega
      | ⟨2, _⟩ => show ((b.val * 508 + t.val) * 128 + e.val) / 1 % 128 = e.val; omega
      | ⟨3, _⟩ => rfl)
  rw [h1]
  have h2 : idx_main_v7 (idx_main_v8 (ix4 b (⟨t.val, by omega⟩ : Fin 512) e (3 : Fin 4))) = ix2 b (⟨t.val, by omega⟩ : Fin 512) :=
    funext fun a => Fin.ext (by match a with | ⟨0, _⟩ => rfl | ⟨1, _⟩ => rfl)
  rw [h2, mask_apply]
  rfl

/-- The row of 65 logits of step 4: the positive score (a sum from the zero word) first, then the 64 scores against
    the gathered negative samples. -/
theorem row4_apply (x0 : (⟨S128x512x128, .f32⟩ : BufTy).Contents (Elt Ideal)) (x1 : (⟨S128x512x128x4, .f32⟩ : BufTy).Contents (Elt Ideal))
    (x2 : (⟨S128, .i32⟩ : BufTy).Contents (Elt Ideal)) (x3 : (⟨S128x64, .i32⟩ : BufTy).Contents (Elt Ideal))
    (b : Fin 128) (t : Fin 508) (j : Fin 65) :
    val_main_v67 (F := Ideal) x0 x1 x2 x3 (ix3 b t j)
      = Cert.CPC.row 508 4 rfl (Cert.CPC.baseOf x0) (Cert.CPC.ctxOf x1 3) (Cert.CPC.lenOf x2)
          (Cert.CPC.negsOf (val_main_v17 (F := Ideal) x0 x3)) b t j := by
  have hb := b.isLt; have ht := t.isLt; have hj := j.isLt
  refine (ConcatLast.last2_apply (a := 1) (b := 64) (val_main_v66 (F := Ideal) x0 x1 x2) (val_main_v65 (F := Ideal) x0 x1 x2 x3)
    concatenates_S128x508x1_S128x508x64_S128x508x65_d2 rfl b t j).trans ?_
  unfold Cert.CPC.row
  by_cases h0 : j.val = 0
  · rw [dif_pos (show j.val < 1 by omega), if_pos h0, val_main_v66_apply, val_main_v64_apply]
    refine (congrArg (· + _) Ideal.ofBits_zero_f32).trans ?_
    rw [zero_add]
    refine Finset.sum_congr rfl fun e _ => ?_
    rw [val_main_v63_apply, val_main_v62_apply]
    have h1 : idx_main_v64 (idx_main_v66 (ix3 b t (⟨j.val, by omega⟩ : Fin 1))) e = ix3 b t e :=
      funext fun a => Fin.ext (by match a with | ⟨0, _⟩ => rfl | ⟨1, _⟩ => rfl | ⟨2, _⟩ => rfl)
    rw [h1, ctx4_apply]
    have h2 : idx_main_v62 (ix3 b t e) = ix3 b (⟨t.val + 4, by omega⟩ : Fin 512) e :=
      funext fun a => Fin.ext (by
        match a with
        | ⟨0, _⟩ => rfl
        | ⟨1, _⟩ => show 4 + t.val = t.val + 4; omega
        | ⟨2, _⟩ => rfl)
    rw [h2]
    rfl
  · rw [dif_neg (show ¬ j.val < 1 by omega), if_neg h0, val_main_v65_apply]
    refine Finset.sum_congr rfl fun e _ => ?_
    have h1 : lidx_main_v65 (ix3 b t (⟨j.val - 1, by omega⟩ : Fin 64)) e = ix3 b t e :=
      funext fun a => Fin.ext (by match a with | ⟨0, _⟩ => rfl | ⟨1, _⟩ => rfl | ⟨2, _⟩ => rfl)
    have h2 : ridx_main_v65 (ix3 b t (⟨j.val - 1, by omega⟩ : Fin 64)) e = ix3 b (⟨j.val - 1, by omega⟩ : Fin 64) e :=
      funext fun a => Fin.ext (by match a with | ⟨0, _⟩ => rfl | ⟨1, _⟩ => rfl | ⟨2, _⟩ => rfl)
    rw [h1, h2, ctx4_apply]
    rfl

/-- The first log-softmax entry of a row of step 4: the shift is the row's maximum (the running maximum from −∞,
    compared once more with −∞), and the sum of exponentials starts from the zero word. -/
theorem lsm4_apply (x0 : (⟨S128x512x128, .f32⟩ : BufTy).Contents (Elt Ideal)) (x1 : (⟨S128x512x128x4, .f32⟩ : BufTy).Contents (Elt Ideal))
    (x2 : (⟨S128, .i32⟩ : BufTy).Contents (Elt Ideal)) (x3 : (⟨S128x64, .i32⟩ : BufTy).Contents (Elt Ideal))
    (b : Fin 128) (t : Fin 508) :
    val_main_v70 (F := Ideal) x0 x1 x2 x3 (ix2 b t)
      = Cert.CPC.lp0 (fun j : Fin 65 => val_main_v67 (F := Ideal) x0 x1 x2 x3 (ix3 b t j)) := by
  have hb := b.isLt; have ht := t.isLt
  rw [val_main_v70_apply, val_main_v69_apply]
  have h1 : idx_main_v69 (idx_main_v70 (ix2 b t)) = ix3 b t (0 : Fin 65) :=
    funext fun a => Fin.ext (by
      match a with
      | ⟨0, _⟩ => show (b.val * 508 + t.val) / 508 = b.val; omega
      | ⟨1, _⟩ => show (b.val * 508 + t.val) / 1 % 508 = t.val; omega
      | ⟨2, _⟩ => rfl)
  rw [h1, val_main_v68_apply]
  have hmax : ∀ j : Fin 65, val_main_call3_v4 (F := Ideal) x0 x1 x2 x3 (ix3 b t j)
      = Cert.CPC.rowMax (fun j : Fin 65 => val_main_v67 (F := Ideal) x0 x1 x2 x3 (ix3 b t j)) := by
    intro j
    rw [val_main_call3_v4_apply, val_main_call3_v3_apply]
    have h2 : idx_main_call3_v3 (idx_main_call3_v4 (ix3 b t j)) = ix2 b t :=
      funext fun a => Fin.ext (by match a with | ⟨0, _⟩ => rfl | ⟨1, _⟩ => rfl)
    rw [h2, val_main_call3_v2_apply, val_main_call3_v1_apply]
    unfold val_main_call3_v0
    rw [hostReduce_maximumf_axis2_of3_apply (val_main_v67 (F := Ideal) x0 x1 x2 x3) _ reducesTo_S128x508x65_S128x508_d2 (by decide) h_S_ b t]
    rfl
  have h5 : ∀ j : Fin 65, val_main_call3_v5 (F := Ideal) x0 x1 x2 x3 (ix3 b t j)
      = val_main_v67 (F := Ideal) x0 x1 x2 x3 (ix3 b t j)
        - Cert.CPC.rowMax (fun j : Fin 65 => val_main_v67 (F := Ideal) x0 x1 x2 x3 (ix3 b t j)) := by
    intro j
    rw [val_main_call3_v5_apply, hmax]
    rfl
  rw [h5, val_main_call3_v10_apply, val_main_call3_v9_apply, val_main_call3_v8_apply]
  have h3 : idx_main_call3_v8 (idx_main_call3_v10 (ix3 b t (0 : Fin 65))) = ix2 b t :=
    funext fun a => Fin.ext (by match a with | ⟨0, _⟩ => rfl | ⟨1, _⟩ => rfl)
  rw [h3, val_main_call3_v7_apply]
  unfold Cert.CPC.lp0
  refine congrArg (fun z => (val_main_v67 (F := Ideal) x0 x1 x2 x3 (ix3 b t (0 : Fin 65))
      - Cert.CPC.rowMax (fun j : Fin 65 => val_main_v67 (F := Ideal) x0 x1 x2 x3 (ix3 b t j))) - Ideal.log z) ?_
  refine (congrArg (· + _) Ideal.ofBits_zero_f32).trans ?_
  rw [zero_add]
  refine Finset.sum_congr rfl fun k _ => ?_
  have h4 : idx_main_call3_v7 (ix2 b t) k = ix3 b t k :=
    funext fun a => Fin.ext (by match a with | ⟨0, _⟩ => rfl | ⟨1, _⟩ => rfl | ⟨2, _⟩ => rfl)
  rw [h4, val_main_call3_v6_apply, h5]
  rfl

/-- The first log-softmax entry of step 4 at (row, position), as the specification's `entry`. -/
theorem entry4_apply (x0 : (⟨S128x512x128, .f32⟩ : BufTy).Contents (Elt Ideal)) (x1 : (⟨S128x512x128x4, .f32⟩ : BufTy).Contents (Elt Ideal))
    (x2 : (⟨S128, .i32⟩ : BufTy).Contents (Elt Ideal)) (x3 : (⟨S128x64, .i32⟩ : BufTy).Contents (Elt Ideal))
    (b : Fin 128) (t : Fin 508) :
    val_main_v70 (F := Ideal) x0 x1 x2 x3 (ix2 b t)
      = Cert.CPC.entry x0 x1 x2 (val_main_v17 (F := Ideal) x0 x3) 508 4 rfl 3 b t := by
  rw [lsm4_apply]
  unfold Cert.CPC.entry
  exact congrArg Cert.CPC.lp0 (funext fun j => row4_apply x0 x1 x2 x3 b t j)

/-- The loss of step 4: minus the step's total (one sum over all rows and positions, from the zero word) over the count. -/
theorem loss4_apply (x0 : (⟨S128x512x128, .f32⟩ : BufTy).Contents (Elt Ideal)) (x1 : (⟨S128x512x128x4, .f32⟩ : BufTy).Contents (Elt Ideal))
    (x2 : (⟨S128, .i32⟩ : BufTy).Contents (Elt Ideal)) (x3 : (⟨S128x64, .i32⟩ : BufTy).Contents (Elt Ideal))
    (i : S_.Idx) :
    val_main_v73 (F := Ideal) x0 x1 x2 x3 i
      = -(Ideal.div (Cert.CPC.zw + Cert.CPC.stepSum x0 x1 x2 (val_main_v17 (F := Ideal) x0 x3) 508 4 rfl 3)
          (Ideal.ofBits .f32 0x477E0000#32)) := by
  rw [val_main_v73_apply, val_main_v72_apply, val_main_v71_apply, sum_idx2]
  unfold Cert.CPC.stepSum
  have hs : (∑ b : Fin 128, ∑ t : Fin 508, val_main_v70 (F := Ideal) x0 x1 x2 x3 (ix2 b t))
      = ∑ b : Fin 128, ∑ t : Fin 508, Cert.CPC.entry x0 x1 x2 (val_main_v17 (F := Ideal) x0 x3) 508 4 rfl 3 b t :=
    Finset.sum_congr rfl fun b _ => Finset.sum_congr rfl fun t _ => entry4_apply x0 x1 x2 x3 b t
  rw [hs]
  rfl

/-! ## The mean of the four step losses -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The reference's result: the four step losses stacked, summed from the zero word and divided by 4. -/
theorem ref_result (x0 : (⟨S128x512x128, .f32⟩ : BufTy).Contents (Elt Ideal)) (x1 : (⟨S128x512x128x4, .f32⟩ : BufTy).Contents (Elt Ideal))
    (x2 : (⟨S128, .i32⟩ : BufTy).Contents (Elt Ideal)) (x3 : (⟨S128x64, .i32⟩ : BufTy).Contents (Elt Ideal))
    (i : S_.Idx) :
    Cert.ReferenceIdeal.ReadP.val_main_v80 (F := Ideal) x0 x1 x2 x3 i
      = Cert.CPC.refResult x0 x1 x2 (Cert.ReferenceIdeal.ReadP.val_main_v17 (F := Ideal) x0 x3) := by
  rw [val_main_v80_apply, val_main_v79_apply, sum_idx1, Fin.sum_univ_four]
  have hcat : ∀ j : Fin 4, val_main_v78 (F := Ideal) x0 x1 x2 x3 (ix1 j)
      = if h1 : j.val < 1 then val_main_v74 (F := Ideal) x0 x1 x2 x3 (ix1 ⟨j.val, h1⟩)
        else if h2 : j.val < 1 + 1 then val_main_v75 (F := Ideal) x0 x1 x2 x3 (ix1 ⟨j.val - 1, by have := j.isLt; omega⟩)
        else if h3 : j.val < 1 + 1 + 1 then val_main_v76 (F := Ideal) x0 x1 x2 x3 (ix1 ⟨j.val - (1 + 1), by have := j.isLt; omega⟩)
        else val_main_v77 (F := Ideal) x0 x1 x2 x3 (ix1 ⟨j.val - (1 + 1 + 1), by have := j.isLt; omega⟩) := fun j =>
    ConcatLast.vec4_apply (a := 1) (b := 1) (c := 1) (d := 1) (val_main_v74 (F := Ideal) x0 x1 x2 x3) (val_main_v75 (F := Ideal) x0 x1 x2 x3)
      (val_main_v76 (F := Ideal) x0 x1 x2 x3) (val_main_v77 (F := Ideal) x0 x1 x2 x3) concatenates_S1_S1_S1_S1_S4_d0 rfl j
  have e0 := hcat 0
  have e1 := hcat 1
  have e2 := hcat 2
  have e3 := hcat 3
  rw [dif_pos (by decide), val_main_v74_apply, loss1_apply] at e0
  rw [dif_neg (by decide), dif_pos (by decide), val_main_v75_apply, loss2_apply] at e1
  rw [dif_neg (by decide), dif_neg (by decide), dif_pos (by decide), val_main_v76_apply, loss3_apply] at e2
  rw [dif_neg (by decide), dif_neg (by decide), dif_neg (by decide), val_main_v77_apply, loss4_apply] at e3
  rw [e0, e1, e2, e3]
  rfl

end Cert.ReferenceIdeal.RefValue

end
-- ==== Proof.LibTypedRef.lean ====
/-
  Typed references and lines of host operations: three general facts.

  An operation of a module-local function is spelt over typed references: its function is stated at the value's type
  `T` and moved to the buffer's own type along the reference's proof that the two types agree (`toBuf`), and an
  operand's contents are moved the other way (`ofBuf`). Both moves are the identity, since the proof they move along
  can only be reflexivity; the lemmas here say so for any typed reference, by taking the reference apart:

  * `ofBuf_toBuf`: there and back is the identity (what stands between two operations of a line that is read back);
  * `toBuf_eq`: a moved value equals contents of the buffer that are the same value (the outermost move);
  * `after_append`: the contents after two lines in a row are those after their concatenation, so a long line can be
    read back stretch by stretch.
-/
import Idealize.ShloMosaic.Lib.StableHlo.Run

noncomputable section

namespace Idealize.ShloMosaic.TypedRef

open Idealize.ShloMosaic Idealize.ShloMosaic.StableHlo

variable {nD : Nat} {τ : Topo} {sig : RefSig} {Val : EltTy → Type}

/-- A value moved to the buffer's type and back is the value. -/
theorem ofBuf_toBuf {T : BufTy} (x : TRef sig T) (v : T.Contents Val) : x.ofBuf (x.toBuf v) = v := by
  obtain ⟨r, rfl, h2, h3⟩ := x
  rfl

/-- A value moved to the buffer's type is any contents of the buffer that are the same value. -/
theorem toBuf_eq {T : BufTy} (x : TRef sig T) (v : T.Contents Val) (w : x.ref.ty.Contents Val) (h : HEq v w) :
    x.toBuf v = w := by
  obtain ⟨r, rfl, h2, h3⟩ := x
  exact eq_of_heq h

/-- The contents after a line and then another are the contents after their concatenation. -/
theorem after_append (l₁ l₂ : List (HloOp τ sig Val)) (V : Valuation τ sig Val) :
    after (l₁ ++ l₂) V = after l₂ (after l₁ V) := by
  induction l₁ generalizing V with
  | nil => rfl
  | cons op l ih => exact ih _

end Idealize.ShloMosaic.TypedRef

end
-- ==== Proof.RefRunV.lean ====
/-
  The reference program's run, read back against its stages.

  The program is a straight line of 153 host operations; after the line each buffer holds its operation's function of
  the buffers the operation reads. The line is cut into eleven stretches: the operations before the first step (the
  length mask, the masked context, the gathered negative samples); for each of the four steps, first the scores (the
  masked context's slice, the positive and the negative scores) and then the row of logits, its log-softmax, the first
  entry's total and the step's loss; and the mean of the four losses (the four one-entry vectors, then their join, sum
  and quotient). A join of arrays is the FIRST operation of its stretch, so that its operands are contents of the
  valuation the stretch starts from. For each stretch: from ANY valuation whose live buffers hold the reference's
  stages (`ReadP.val_main_…` at the four arguments), the buffers the stretch computes hold their stages, and the live
  buffers it does not write keep their contents. Chained along the line, the result buffer holds the last stage
  (`after_ops_v80`), and the run of a straight line (`run_seq`) gives `ref_run`.
-/
import proofs.«132647_j30640296690406_2_alg».proof.Proof.RefRun
import proofs.«132647_j30640296690406_2_alg».proof.Proof.RefRead
import proofs.«132647_j30640296690406_2_alg».proof.Proof.LibTypedRef
import Idealize.ShloMosaic.Lib.StableHlo.Run

noncomputable section

namespace Cert.ReferenceIdeal.RefRunV

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-! ### Before the first step -/

/-- The operations before the first step: the length mask, the masked context (`main_v9`) and the gathered negative samples (`main_v17`). -/
def seg0 : List (HloOp τ sig (Elt F)) :=
  [ nullary main_v0 (iotaInDim S512 32 0),
    unary main_v0 main_v1 (broadcastInDim S1x512 ![1] bcast_S512_S1x512_1 : (⟨S512, .i32⟩ : BufTy).Contents (Elt F) → (⟨S1x512, .i32⟩ : BufTy).Contents (Elt F)),
    unary main_arg2 main_v2 (broadcastInDim S128x1 ![0] bcast_S128_S128x1_0 : (⟨S128, .i32⟩ : BufTy).Contents (Elt F) → (⟨S128x1, .i32⟩ : BufTy).Contents (Elt F)),
    unary main_v1 main_v3 (broadcastInDim S128x512 ![0, 1] bcast_S1x512_S128x512_0_1 : (⟨S1x512, .i32⟩ : BufTy).Contents (Elt F) → (⟨S128x512, .i32⟩ : BufTy).Contents (Elt F)),
    unary main_v2 main_v4 (broadcastInDim S128x512 ![0, 1] bcast_S128x1_S128x512_0_1 : (⟨S128x1, .i32⟩ : BufTy).Contents (Elt F) → (⟨S128x512, .i32⟩ : BufTy).Contents (Elt F)),
    binary main_v3 main_v4 main_v5 (cmpi .slt : (⟨S128x512, .i32⟩ : BufTy).Contents (Elt F) → (⟨S128x512, .i32⟩ : BufTy).Contents (Elt F) → (⟨S128x512, .i1⟩ : BufTy).Contents (Elt F)),
    unary main_v5 main_v6 (uitofp .f32 : (⟨S128x512, .i1⟩ : BufTy).Contents (Elt F) → (⟨S128x512, .f32⟩ : BufTy).Contents (Elt F)),
    unary main_v6 main_v7 (broadcastInDim S128x512x1x1 ![0, 1] bcast_S128x512_S128x512x1x1_0_1 : (⟨S128x512, .f32⟩ : BufTy).Contents (Elt F) → (⟨S128x512x1x1, .f32⟩ : BufTy).Contents (Elt F)),
    unary main_v7 main_v8 (broadcastInDim S128x512x128x4 ![0, 1, 2, 3] bcast_S128x512x1x1_S128x512x128x4_0_1_2_3 : (⟨S128x512x1x1, .f32⟩ : BufTy).Contents (Elt F) → (⟨S128x512x128x4, .f32⟩ : BufTy).Contents (Elt F)),
    binary main_arg1 main_v8 main_v9 (mulf : (⟨S128x512x128x4, .f32⟩ : BufTy).Contents (Elt F) → (⟨S128x512x128x4, .f32⟩ : BufTy).Contents (Elt F) → (⟨S128x512x128x4, .f32⟩ : BufTy).Contents (Elt F)),
    reshape main_arg0 main_v10 rfl shapeCasts_S128x512x128_S65536x128,
    nullary main_c (constantI S_ 32 0#32),
    unary main_c main_v11 (broadcastInDim S128x64 ![] bcast_S_S128x64 : (⟨S_, .i32⟩ : BufTy).Contents (Elt F) → (⟨S128x64, .i32⟩ : BufTy).Contents (Elt F)),
    binary main_arg3 main_v11 main_v12 (cmpi .slt : (⟨S128x64, .i32⟩ : BufTy).Contents (Elt F) → (⟨S128x64, .i32⟩ : BufTy).Contents (Elt F) → (⟨S128x64, .i1⟩ : BufTy).Contents (Elt F)),
    nullary main_c_0 (constantI S_ 32 65536#32),
    unary main_c_0 main_v13 (broadcastInDim S128x64 ![] bcast_S_S128x64 : (⟨S_, .i32⟩ : BufTy).Contents (Elt F) → (⟨S128x64, .i32⟩ : BufTy).Contents (Elt F)),
    binary main_arg3 main_v13 main_v14 (addi : (⟨S128x64, .i32⟩ : BufTy).Contents (Elt F) → (⟨S128x64, .i32⟩ : BufTy).Contents (Elt F) → (⟨S128x64, .i32⟩ : BufTy).Contents (Elt F)),
    ternary main_v12 main_v14 main_arg3 main_v15 (select : (⟨S128x64, .i1⟩ : BufTy).Contents (Elt F) → (⟨S128x64, .i32⟩ : BufTy).Contents (Elt F) → (⟨S128x64, .i32⟩ : BufTy).Contents (Elt F) → (⟨S128x64, .i32⟩ : BufTy).Contents (Elt F)),
    unary main_v15 main_v16 (broadcastInDim S128x64x1 ![0, 1] bcast_S128x64_S128x64x1_0_1 : (⟨S128x64, .i32⟩ : BufTy).Contents (Elt F) → (⟨S128x64x1, .i32⟩ : BufTy).Contents (Elt F)),
    binary main_v10 main_v16 main_v17 ((fun x i => Host.gather gather_S65536x128_S128x64x1_S128x64x128_2_0_n_n_0_2_1128 x i) : (⟨S65536x128, .f32⟩ : BufTy).Contents (Elt F) → (⟨S128x64x1, .i32⟩ : BufTy).Contents (Elt F) → (⟨S128x64x128, .f32⟩ : BufTy).Contents (Elt F)) ]

theorem seg0_v9 (W : Valuation τ sig (Elt F)) (x0 : (⟨S128x512x128, .f32⟩ : BufTy).Contents (Elt F)) (x1 : (⟨S128x512x128x4, .f32⟩ : BufTy).Contents (Elt F))
    (x2 : (⟨S128, .i32⟩ : BufTy).Contents (Elt F)) (x3 : (⟨S128x64, .i32⟩ : BufTy).Contents (Elt F))
    (h1 : W (Proc.devRef .tc main_arg1) = x1) (h2 : W (Proc.devRef .tc main_arg2) = x2) :
    after (seg0 (F := F)) W (Proc.devRef .tc main_v9) = val_main_v9 (F := F) x1 x2 := by
  unfold seg0
  after_results_simp
  rw [h1, h2]
  rfl

theorem seg0_v17 (W : Valuation τ sig (Elt F)) (x0 : (⟨S128x512x128, .f32⟩ : BufTy).Contents (Elt F)) (x1 : (⟨S128x512x128x4, .f32⟩ : BufTy).Contents (Elt F))
    (x2 : (⟨S128, .i32⟩ : BufTy).Contents (Elt F)) (x3 : (⟨S128x64, .i32⟩ : BufTy).Contents (Elt F))
    (h0 : W (Proc.devRef .tc main_arg0) = x0) (h3 : W (Proc.devRef .tc main_arg3) = x3) :
    after (seg0 (F := F)) W (Proc.devRef .tc main_v17) = val_main_v17 (F := F) x0 x3 := by
  unfold seg0
  after_results_simp
  rw [h0, h3]
  rfl

theorem seg0_keep_arg0 (W : Valuation τ sig (Elt F)) :
    after (seg0 (F := F)) W (Proc.devRef .tc main_arg0) = W (Proc.devRef .tc main_arg0) := by
  unfold seg0
  after_results_simp

/-! ### Step 1 -/

/-- Step 1, first part: the masked context's slice, the positive scores (`main_v24`) and the negative scores (`main_v23`). -/
def segA1 : List (HloOp τ sig (Elt F)) :=
  [ unary main_v9 main_v18 ((extractStridedSlice S128x511x128x1 ![0, 0, 0, 0] · slices_S128x512x128x4_S128x511x128x1_0_0_0_0) : (⟨S128x512x128x4, .f32⟩ : BufTy).Contents (Elt F) → (⟨S128x511x128x1, .f32⟩ : BufTy).Contents (Elt F)),
    reshape main_v18 main_v19 rfl shapeCasts_S128x511x128x1_S128x511x128,
    unary main_arg0 main_v20 ((extractStridedSlice S128x511x128 ![0, 1, 0] · slices_S128x512x128_S128x511x128_0_1_0) : (⟨S128x512x128, .f32⟩ : BufTy).Contents (Elt F) → (⟨S128x511x128, .f32⟩ : BufTy).Contents (Elt F)),
    binary main_v19 main_v20 main_v21 (mulf : (⟨S128x511x128, .f32⟩ : BufTy).Contents (Elt F) → (⟨S128x511x128, .f32⟩ : BufTy).Contents (Elt F) → (⟨S128x511x128, .f32⟩ : BufTy).Contents (Elt F)),
    nullary main_cst (constant S_ .f32 0x00000000#32),
    binary main_v21 main_cst main_v22 ((fun x v => Host.reduceAdd x v reducesTo_S128x511x128_S128x511_d2 h_S_) : (⟨S128x511x128, .f32⟩ : BufTy).Contents (Elt F) → (⟨S_, .f32⟩ : BufTy).Contents (Elt F) → (⟨S128x511, .f32⟩ : BufTy).Contents (Elt F)),
    binary main_v19 main_v17 main_v23 ((fun l r => Host.dotGeneral dot_S128x511x128_S128x64x128_S128x511x64_2_2_1_1_0_0 none l r) : (⟨S128x511x128, .f32⟩ : BufTy).Contents (Elt F) → (⟨S128x64x128, .f32⟩ : BufTy).Contents (Elt F) → (⟨S128x511x64, .f32⟩ : BufTy).Contents (Elt F)),
    unary main_v22 main_v24 (broadcastInDim S128x511x1 ![0, 1] bcast_S128x511_S128x511x1_0_1 : (⟨S128x511, .f32⟩ : BufTy).Contents (Elt F) → (⟨S128x511x1, .f32⟩ : BufTy).Contents (Elt F)) ]

/-- Step 1, second part: the row of logits (the join of the two score arrays, first in the line so that its operands are read from the valuation it starts from), its log-softmax, the first entry's total and the step's loss (`main_v31`). -/
def segB1 : List (HloOp τ sig (Elt F)) :=
  [ binary main_v24 main_v23 main_v25 ((fun a b => concatenate S128x511x65 2 [⟨S128x511x1, a⟩, ⟨S128x511x64, b⟩] concatenates_S128x511x1_S128x511x64_S128x511x65_d2) : (⟨S128x511x1, .f32⟩ : BufTy).Contents (Elt F) → (⟨S128x511x64, .f32⟩ : BufTy).Contents (Elt F) → (⟨S128x511x65, .f32⟩ : BufTy).Contents (Elt F)),
    TRef.nullary (TRef.of (T := ⟨S_, .f32⟩) main_call0_cst) (constant S_ .f32 0xFF800000#32),
    TRef.binary (TRef.of (T := ⟨S128x511x65, .f32⟩) main_v25) (TRef.of (T := ⟨S_, .f32⟩) main_call0_cst) (TRef.of (T := ⟨S128x511, .f32⟩) main_call0_v0) (fun x v => Host.reduce FloatOps.maximumf x v reducesTo_S128x511x65_S128x511_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S128x511, .f32⟩) main_call0_v1) (broadcastInDim S128x511 ![] bcast_S_S128x511),
    TRef.binary (TRef.of (T := ⟨S128x511, .f32⟩) main_call0_v1) (TRef.of (T := ⟨S128x511, .f32⟩) main_call0_v0) (TRef.of (T := ⟨S128x511, .f32⟩) main_call0_v2) maximumf,
    TRef.unary (TRef.of (T := ⟨S128x511, .f32⟩) main_call0_v2) (TRef.of (T := ⟨S128x511x1, .f32⟩) main_call0_v3) (broadcastInDim S128x511x1 ![0, 1] bcast_S128x511_S128x511x1_0_1),
    TRef.unary (TRef.of (T := ⟨S128x511x1, .f32⟩) main_call0_v3) (TRef.of (T := ⟨S128x511x65, .f32⟩) main_call0_v4) (broadcastInDim S128x511x65 ![0, 1, 2] bcast_S128x511x1_S128x511x65_0_1_2),
    TRef.binary (TRef.of (T := ⟨S128x511x65, .f32⟩) main_v25) (TRef.of (T := ⟨S128x511x65, .f32⟩) main_call0_v4) (TRef.of (T := ⟨S128x511x65, .f32⟩) main_call0_v5) subf,
    TRef.unary (TRef.of (T := ⟨S128x511x65, .f32⟩) main_call0_v5) (TRef.of (T := ⟨S128x511x65, .f32⟩) main_call0_v6) Host.exp,
    TRef.nullary (TRef.of (T := ⟨S_, .f32⟩) main_call0_cst_1) (constant S_ .f32 0x00000000#32),
    TRef.binary (TRef.of (T := ⟨S128x511x65, .f32⟩) main_call0_v6) (TRef.of (T := ⟨S_, .f32⟩) main_call0_cst_1) (TRef.of (T := ⟨S128x511, .f32⟩) main_call0_v7) (fun x v => Host.reduceAdd x v reducesTo_S128x511x65_S128x511_d2 h_S_),
    TRef.unary (TRef.of (T := ⟨S128x511, .f32⟩) main_call0_v7) (TRef.of (T := ⟨S128x511x1, .f32⟩) main_call0_v8) (broadcastInDim S128x511x1 ![0, 1] bcast_S128x511_S128x511x1_0_1),
    TRef.unary (TRef.of (T := ⟨S128x511x1, .f32⟩) main_call0_v8) (TRef.of (T := ⟨S128x511x1, .f32⟩) main_call0_v9) Host.log,
    TRef.unary (TRef.of (T := ⟨S128x511x1, .f32⟩) main_call0_v9) (TRef.of (T := ⟨S128x511x65, .f32⟩) main_call0_v10) (broadcastInDim S128x511x65 ![0, 1, 2] bcast_S128x511x1_S128x511x65_0_1_2),
    TRef.binary (TRef.of (T := ⟨S128x511x65, .f32⟩) main_call0_v5) (TRef.of (T := ⟨S128x511x65, .f32⟩) main_call0_v10) (TRef.of (T := ⟨S128x511x65, .f32⟩) main_v26) subf,
    unary main_v26 main_v27 ((extractStridedSlice S128x511x1 ![0, 0, 0] · slices_S128x511x65_S128x511x1_0_0_0) : (⟨S128x511x65, .f32⟩ : BufTy).Contents (Elt F) → (⟨S128x511x1, .f32⟩ : BufTy).Contents (Elt F)),
    reshape main_v27 main_v28 rfl shapeCasts_S128x511x1_S128x511,
    nullary main_cst_1 (constant S_ .f32 0x00000000#32),
    binary main_v28 main_cst_1 main_v29 ((fun x v => Host.reduceAdd x v reducesTo_S128x511_S_d0_1 h_S_) : (⟨S128x511, .f32⟩ : BufTy).Contents (Elt F) → (⟨S_, .f32⟩ : BufTy).Contents (Elt F) → (⟨S_, .f32⟩ : BufTy).Contents (Elt F)),
    nullary main_cst_2 (constant S_ .f32 0x477F8000#32),
    binary main_v29 main_cst_2 main_v30 (Host.divf : (⟨S_, .f32⟩ : BufTy).Contents (Elt F) → (⟨S_, .f32⟩ : BufTy).Contents (Elt F) → (⟨S_, .f32⟩ : BufTy).Contents (Elt F)),
    unary main_v30 main_v31 (Host.negf : (⟨S_, .f32⟩ : BufTy).Contents (Elt F) → (⟨S_, .f32⟩ : BufTy).Contents (Elt F)) ]

theorem segA1_v23 (W : Valuation τ sig (Elt F)) (x0 : (⟨S128x512x128, .f32⟩ : BufTy).Contents (Elt F)) (x1 : (⟨S128x512x128x4, .f32⟩ : BufTy).Contents (Elt F))
    (x2 : (⟨S128, .i32⟩ : BufTy).Contents (Elt F)) (x3 : (⟨S128x64, .i32⟩ : BufTy).Contents (Elt F))
    (h9 : W (Proc.devRef .tc main_v9) = val_main_v9 (F := F) x1 x2) (h17 : W (Proc.devRef .tc main_v17) = val_main_v17 (F := F) x0 x3) :
    after (segA1 (F := F)) W (Proc.devRef .tc main_v23) = val_main_v23 (F := F) x0 x1 x2 x3 := by
  unfold segA1
  after_results_simp
  rw [h9, h17]
  rfl

theorem segA1_v24 (W : Valuation τ sig (Elt F)) (x0 : (⟨S128x512x128, .f32⟩ : BufTy).Contents (Elt F)) (x1 : (⟨S128x512x128x4, .f32⟩ : BufTy).Contents (Elt F))
    (x2 : (⟨S128, .i32⟩ : BufTy).Contents (Elt F)) (x3 : (⟨S128x64, .i32⟩ : BufTy).Contents (Elt F))
    (h0 : W (Proc.devRef .tc main_arg0) = x0) (h9 : W (Proc.devRef .tc main_v9) = val_main_v9 (F := F) x1 x2) :
    after (segA1 (F := F)) W (Proc.devRef .tc main_v24) = val_main_v24 (F := F) x0 x1 x2 := by
  unfold segA1
  after_results_simp
  rw [h9, h0]
  rfl

/-- The inlined log-softmax's operations are spelt over typed references; the moves between a value's type and its
    buffer's type are identities, taken off by rewriting before the two sides are compared. -/
theorem segB1_v31 (W : Valuation τ sig (Elt F)) (x0 : (⟨S128x512x128, .f32⟩ : BufTy).Contents (Elt F)) (x1 : (⟨S128x512x128x4, .f32⟩ : BufTy).Contents (Elt F))
    (x2 : (⟨S128, .i32⟩ : BufTy).Contents (Elt F)) (x3 : (⟨S128x64, .i32⟩ : BufTy).Contents (Elt F))
    (h23 : W (Proc.devRef .tc main_v23) = val_main_v23 (F := F) x0 x1 x2 x3) (h24 : W (Proc.devRef .tc main_v24) = val_main_v24 (F := F) x0 x1 x2) :
    after (segB1 (F := F)) W (Proc.devRef .tc main_v31) = val_main_v31 (F := F) x0 x1 x2 x3 := by
  have e25 : ∀ w, (TRef.of (sig := sig) (T := ⟨S128x511x65, .f32⟩) main_v25).ofBuf (Val := Elt F) w = w := fun _ => rfl
  have e26 : ∀ v, (TRef.of (sig := sig) (T := ⟨S128x511x65, .f32⟩) main_v26).toBuf (Val := Elt F) v = v := fun _ => rfl
  unfold segB1
  after_results_simp
  rw [h24, h23]
  simp only [TypedRef.ofBuf_toBuf, e25, e26]
  rfl

theorem segA1_keep_arg0 (W : Valuation τ sig (Elt F)) :
    after (segA1 (F := F)) W (Proc.devRef .tc main_arg0) = W (Proc.devRef .tc main_arg0) := by
  unfold segA1
  after_results_simp

theorem segA1_keep_v9 (W : Valuation τ sig (Elt F)) :
    after (segA1 (F := F)) W (Proc.devRef .tc main_v9) = W (Proc.devRef .tc main_v9) := by
  unfold segA1
  after_results_simp

theorem segA1_keep_v17 (W : Valuation τ sig (Elt F)) :
    after (segA1 (F := F)) W (Proc.devRef .tc main_v17) = W (Proc.devRef .tc main_v17) := by
  unfold segA1
  after_results_simp

theorem segB1_keep_arg0 (W : Valuation τ sig (Elt F)) :
    after (segB1 (F := F)) W (Proc.devRef .tc main_arg0) = W (Proc.devRef .tc main_arg0) := by
  unfold segB1
  after_results_simp

theorem segB1_keep_v9 (W : Valuation τ sig (Elt F)) :
    after (segB1 (F := F)) W (Proc.devRef .tc main_v9) = W (Proc.devRef .tc main_v9) := by
  unfold segB1
  after_results_simp

theorem segB1_keep_v17 (W : Valuation τ sig (Elt F)) :
    after (segB1 (F := F)) W (Proc.devRef .tc main_v17) = W (Proc.devRef .tc main_v17) := by
  unfold segB1
  after_results_simp

/-! ### Step 2 -/

/-- Step 2, first part: the masked context's slice, the positive scores (`main_v38`) and the negative scores (`main_v37`). -/
def segA2 : List (HloOp τ sig (Elt F)) :=
  [ unary main_v9 main_v32 ((extractStridedSlice S128x510x128x1 ![0, 0, 0, 1] · slices_S128x512x128x4_S128x510x128x1_0_0_0_1) : (⟨S128x512x128x4, .f32⟩ : BufTy).Contents (Elt F) → (⟨S128x510x128x1, .f32⟩ : BufTy).Contents (Elt F)),
    reshape main_v32 main_v33 rfl shapeCasts_S128x510x128x1_S128x510x128,
    unary main_arg0 main_v34 ((extractStridedSlice S128x510x128 ![0, 2, 0] · slices_S128x512x128_S128x510x128_0_2_0) : (⟨S128x512x128, .f32⟩ : BufTy).Contents (Elt F) → (⟨S128x510x128, .f32⟩ : BufTy).Contents (Elt F)),
    binary main_v33 main_v34 main_v35 (mulf : (⟨S128x510x128, .f32⟩ : BufTy).Contents (Elt F) → (⟨S128x510x128, .f32⟩ : BufTy).Contents (Elt F) → (⟨S128x510x128, .f32⟩ : BufTy).Contents (Elt F)),
    nullary main_cst_3 (constant S_ .f32 0x00000000#32),
    binary main_v35 main_cst_3 main_v36 ((fun x v => Host.reduceAdd x v reducesTo_S128x510x128_S128x510_d2 h_S_) : (⟨S128x510x128, .f32⟩ : BufTy).Contents (Elt F) → (⟨S_, .f32⟩ : BufTy).Contents (Elt F) → (⟨S128x510, .f32⟩ : BufTy).Contents (Elt F)),
    binary main_v33 main_v17 main_v37 ((fun l r => Host.dotGeneral dot_S128x510x128_S128x64x128_S128x510x64_2_2_1_1_0_0 none l r) : (⟨S128x510x128, .f32⟩ : BufTy).Contents (Elt F) → (⟨S128x64x128, .f32⟩ : BufTy).Contents (Elt F) → (⟨S128x510x64, .f32⟩ : BufTy).Contents (Elt F)),
    unary main_v36 main_v38 (broadcastInDim S128x510x1 ![0, 1] bcast_S128x510_S128x510x1_0_1 : (⟨S128x510, .f32⟩ : BufTy).Contents (Elt F) → (⟨S128x510x1, .f32⟩ : BufTy).Contents (Elt F)) ]

/-- Step 2, second part: the row of logits (the join of the two score arrays, first in the line so that its operands are read from the valuation it starts from), its log-softmax, the first entry's total and the step's loss (`main_v45`). -/
def segB2 : List (HloOp τ sig (Elt F)) :=
  [ binary main_v38 main_v37 main_v39 ((fun a b => concatenate S128x510x65 2 [⟨S128x510x1, a⟩, ⟨S128x510x64, b⟩] concatenates_S128x510x1_S128x510x64_S128x510x65_d2) : (⟨S128x510x1, .f32⟩ : BufTy).Contents (Elt F) → (⟨S128x510x64, .f32⟩ : BufTy).Contents (Elt F) → (⟨S128x510x65, .f32⟩ : BufTy).Contents (Elt F)),
    TRef.nullary (TRef.of (T := ⟨S_, .f32⟩) main_call1_cst) (constant S_ .f32 0xFF800000#32),
    TRef.binary (TRef.of (T := ⟨S128x510x65, .f32⟩) main_v39) (TRef.of (T := ⟨S_, .f32⟩) main_call1_cst) (TRef.of (T := ⟨S128x510, .f32⟩) main_call1_v0) (fun x v => Host.reduce FloatOps.maximumf x v reducesTo_S128x510x65_S128x510_d2 h_S_),
    TRef.nullary (TRef.of (T := ⟨S_, .f32⟩) main_call1_cst_0) (constant S_ .f32 0xFF800000#32),
    TRef.unary (TRef.of (T := ⟨S_, .f32⟩) main_call1_cst_0) (TRef.of (T := ⟨S128x510, .f32⟩) main_call1_v1) (broadcastInDim S128x510 ![] bcast_S_S128x510),
    TRef.binary (TRef.of (T := ⟨S128x510, .f32⟩) main_call1_v1) (TRef.of (T := ⟨S128x510, .f32⟩) main_call1_v0) (TRef.of (T := ⟨S128x510, .f32⟩) main_call1_v2) maximumf,
    TRef.unary (TRef.of (T := ⟨S128x510, .f32⟩) main_call1_v2) (TRef.of (T := ⟨S128x510x1, .f32⟩) main_call1_v3) (broadcastInDim S128x510x1 ![0, 1] bcast_S128x510_S128x510x1_0_1),
    TRef.unary (TRef.of (T := ⟨S128x510x1, .f32⟩) main_call1_v3) (TRef.of (T := ⟨S128x510x65, .f32⟩) main_call1_v4) (broadcastInDim S128x510x65 ![0, 1, 2] bcast_S128x510x1_S128x510x65_0_1_2),
    TRef.binary (TRef.of (T := ⟨S128x510x65, .f32⟩) main_v39) (TRef.of (T := ⟨S128x510x65, .f32⟩) main_call1_v4) (TRef.of (T := ⟨S128x510x65, .f32⟩) main_call1_v5) subf,
    TRef.unary (TRef.of (T := ⟨S128x510x65, .f32⟩) main_call1_v5) (TRef.of (T := ⟨S128x510x65, .f32⟩) main_call1_v6) Host.exp,
    TRef.nullary (TRef.of (T := ⟨S_, .f32⟩) main_call1_cst_1) (constant S_ .f32 0x00000000#32),
    TRef.binary (TRef.of (T := ⟨S128x510x65, .f32⟩) main_call1_v6) (TRef.of (T := ⟨S_, .f32⟩) main_call1_cst_1) (TRef.of (T := ⟨S128x510, .f32⟩) main_call1_v7) (fun x v => Host.reduceAdd x v reducesTo_S128x510x65_S128x510_d2 h_S_),
    TRef.unary (TRef.of (T := ⟨S128x510, .f32⟩) main_call1_v7) (TRef.of (T := ⟨S128x510x1, .f32⟩) main_call1_v8) (broadcastInDim S128x510x1 ![0, 1] bcast_S128x510_S128x510x1_0_1),
    TRef.unary (TRef.of (T := ⟨S128x510x1, .f32⟩) main_call1_v8) (TRef.of (T := ⟨S128x510x1, .f32⟩) main_call1_v9) Host.log,
    TRef.unary (TRef.of (T := ⟨S128x510x1, .f32⟩) main_call1_v9) (TRef.of (T := ⟨S128x510x65, .f32⟩) main_call1_v10) (broadcastInDim S128x510x65 ![0, 1, 2] bcast_S128x510x1_S128x510x65_0_1_2),
    TRef.binary (TRef.of (T := ⟨S128x510x65, .f32⟩) main_call1_v5) (TRef.of (T := ⟨S128x510x65, .f32⟩) main_call1_v10) (TRef.of (T := ⟨S128x510x65, .f32⟩) main_v40) subf,
    unary main_v40 main_v41 ((extractStridedSlice S128x510x1 ![0, 0, 0] · slices_S128x510x65_S128x510x1_0_0_0) : (⟨S128x510x65, .f32⟩ : BufTy).Contents (Elt F) → (⟨S128x510x1, .f32⟩ : BufTy).Contents (Elt F)),
    reshape main_v41 main_v42 rfl shapeCasts_S128x510x1_S128x510,
    nullary main_cst_4 (constant S_ .f32 0x00000000#32),
    binary main_v42 main_cst_4 main_v43 ((fun x v => Host.reduceAdd x v reducesTo_S128x510_S_d0_1 h_S_) : (⟨S128x510, .f32⟩ : BufTy).Contents (Elt F) → (⟨S_, .f32⟩ : BufTy).Contents (Elt F) → (⟨S_, .f32⟩ : BufTy).Contents (Elt F)),
    nullary main_cst_5 (constant S_ .f32 0x477F0000#32),
    binary main_v43 main_cst_5 main_v44 (Host.divf : (⟨S_, .f32⟩ : BufTy).Contents (Elt F) → (⟨S_, .f32⟩ : BufTy).Contents (Elt F) → (⟨S_, .f32⟩ : BufTy).Contents (Elt F)),
    unary main_v44 main_v45 (Host.negf : (⟨S_, .f32⟩ : BufTy).Contents (Elt F) → (⟨S_, .f32⟩ : BufTy).Contents (Elt F)) ]

theorem segA2_v37 (W : Valuation τ sig (Elt F)) (x0 : (⟨S128x512x128, .f32⟩ : BufTy).Contents (Elt F)) (x1 : (⟨S128x512x128x4, .f32⟩ : BufTy).Contents (Elt F))
    (x2 : (⟨S128, .i32⟩ : BufTy).Contents (Elt F)) (x3 : (⟨S128x64, .i32⟩ : BufTy).Contents (Elt F))
    (h9 : W (Proc.devRef .tc main_v9) = val_main_v9 (F := F) x1 x2) (h17 : W (Proc.devRef .tc main_v17) = val_main_v17 (F := F) x0 x3) :
    after (segA2 (F := F)) W (Proc.devRef .tc main_v37) = val_main_v37 (F := F) x0 x1 x2 x3 := by
  unfold segA2
  after_results_simp
  rw [h9, h17]
  rfl

theorem segA2_v38 (W : Valuation τ sig (Elt F)) (x0 : (⟨S128x512x128, .f32⟩ : BufTy).Contents (Elt F)) (x1 : (⟨S128x512x128x4, .f32⟩ : BufTy).Contents (Elt F))
    (x2 : (⟨S128, .i32⟩ : BufTy).Contents (Elt F)) (x3 : (⟨S128x64, .i32⟩ : BufTy).Contents (Elt F))
    (h0 : W (Proc.devRef .tc main_arg0) = x0) (h9 : W (Proc.devRef .tc main_v9) = val_main_v9 (F := F) x1 x2) :
    after (segA2 (F := F)) W (Proc.devRef .tc main_v38) = val_main_v38 (F := F) x0 x1 x2 := by
  unfold segA2
  after_results_simp
  rw [h9, h0]
  rfl

/-- The inlined log-softmax's operations are spelt over typed references; the moves between a value's type and its
    buffer's type are identities, taken off by rewriting before the two sides are compared. -/
theorem segB2_v45 (W : Valuation τ sig (Elt F)) (x0 : (⟨S128x512x128, .f32⟩ : BufTy).Contents (Elt F)) (x1 : (⟨S128x512x128x4, .f32⟩ : BufTy).Contents (Elt F))
    (x2 : (⟨S128, .i32⟩ : BufTy).Contents (Elt F)) (x3 : (⟨S128x64, .i32⟩ : BufTy).Contents (Elt F))
    (h23 : W (Proc.devRef .tc main_v37) = val_main_v37 (F := F) x0 x1 x2 x3) (h24 : W (Proc.devRef .tc main_v38) = val_main_v38 (F := F) x0 x1 x2) :
    after (segB2 (F := F)) W (Proc.devRef .tc main_v45) = val_main_v45 (F := F) x0 x1 x2 x3 := by
  have e25 : ∀ w, (TRef.of (sig := sig) (T := ⟨S128x510x65, .f32⟩) main_v39).ofBuf (Val := Elt F) w = w := fun _ => rfl
  have e26 : ∀ v, (TRef.of (sig := sig) (T := ⟨S128x510x65, .f32⟩) main_v40).toBuf (Val := Elt F) v = v := fun _ => rfl
  unfold segB2
  after_results_simp
  rw [h24, h23]
  simp only [TypedRef.ofBuf_toBuf, e25, e26]
  rfl

theorem segA2_keep_arg0 (W : Valuation τ sig (Elt F)) :
    after (segA2 (F := F)) W (Proc.devRef .tc main_arg0) = W (Proc.devRef .tc main_arg0) := by
  unfold segA2
  after_results_simp

theorem segA2_keep_v9 (W : Valuation τ sig (Elt F)) :
    after (segA2 (F := F)) W (Proc.devRef .tc main_v9) = W (Proc.devRef .tc main_v9) := by
  unfold segA2
  after_results_simp

theorem segA2_keep_v17 (W : Valuation τ sig (Elt F)) :
    after (segA2 (F := F)) W (Proc.devRef .tc main_v17) = W (Proc.devRef .tc main_v17) := by
  unfold segA2
  after_results_simp

theorem segA2_keep_v31 (W : Valuation τ sig (Elt F)) :
    after (segA2 (F := F)) W (Proc.devRef .tc main_v31) = W (Proc.devRef .tc main_v31) := by
  unfold segA2
  after_results_simp

theorem segB2_keep_arg0 (W : Valuation τ sig (Elt F)) :
    after (segB2 (F := F)) W (Proc.devRef .tc main_arg0) = W (Proc.devRef .tc main_arg0) := by
  unfold segB2
  after_results_simp

theorem segB2_keep_v9 (W : Valuation τ sig (Elt F)) :
    after (segB2 (F := F)) W (Proc.devRef .tc main_v9) = W (Proc.devRef .tc main_v9) := by
  unfold segB2
  after_results_simp

theorem segB2_keep_v17 (W : Valuation τ sig (Elt F)) :
    after (segB2 (F := F)) W (Proc.devRef .tc main_v17) = W (Proc.devRef .tc main_v17) := by
  unfold segB2
  after_results_simp

theorem segB2_keep_v31 (W : Valuation τ sig (Elt F)) :
    after (segB2 (F := F)) W (Proc.devRef .tc main_v31) = W (Proc.devRef .tc main_v31) := by
  unfold segB2
  after_results_simp

/-! ### Step 3 -/

/-- Step 3, first part: the masked context's slice, the positive scores (`main_v52`) and the negative scores (`main_v51`). -/
def segA3 : List (HloOp τ sig (Elt F)) :=
  [ unary main_v9 main_v46 ((extractStridedSlice S128x509x128x1 ![0, 0, 0, 2] · slices_S128x512x128x4_S128x509x128x1_0_0_0_2) : (⟨S128x512x128x4, .f32⟩ : BufTy).Contents (Elt F) → (⟨S128x509x128x1, .f32⟩ : BufTy).Contents (Elt F)),
    reshape main_v46 main_v47 rfl shapeCasts_S128x509x128x1_S128x509x128,
    unary main_arg0 main_v48 ((extractStridedSlice S128x509x128 ![0, 3, 0] · slices_S128x512x128_S128x509x128_0_3_0) : (⟨S128x512x128, .f32⟩ : BufTy).Contents (Elt F) → (⟨S128x509x128, .f32⟩ : BufTy).Contents (Elt F)),
    binary main_v47 main_v48 main_v49 (mulf : (⟨S128x509x128, .f32⟩ : BufTy).Contents (Elt F) → (⟨S128x509x128, .f32⟩ : BufTy).Contents (Elt F) → (⟨S128x509x128, .f32⟩ : BufTy).Contents (Elt F)),
    nullary main_cst_6 (constant S_ .f32 0x00000000#32),
    binary main_v49 main_cst_6 main_v50 ((fun x v => Host.reduceAdd x v reducesTo_S128x509x128_S128x509_d2 h_S_) : (⟨S128x509x128, .f32⟩ : BufTy).Contents (Elt F) → (⟨S_, .f32⟩ : BufTy).Contents (Elt F) → (⟨S128x509, .f32⟩ : BufTy).Contents (Elt F)),
    binary main_v47 main_v17 main_v51 ((fun l r => Host.dotGeneral dot_S128x509x128_S128x64x128_S128x509x64_2_2_1_1_0_0 none l r) : (⟨S128x509x128, .f32⟩ : BufTy).Contents (Elt F) → (⟨S128x64x128, .f32⟩ : BufTy).Contents (Elt F) → (⟨S128x509x64, .f32⟩ : BufTy).Contents (Elt F)),
    unary main_v50 main_v52 (broadcastInDim S128x509x1 ![0, 1] bcast_S128x509_S128x509x1_0_1 : (⟨S128x509, .f32⟩ : BufTy).Contents (Elt F) → (⟨S128x509x1, .f32⟩ : BufTy).Contents (Elt F)) ]

/-- Step 3, second part: the row of logits (the join of the two score arrays, first in the line so that its operands are read from the valuation it starts from), its log-softmax, the first entry's total and the step's loss (`main_v59`). -/
def segB3 : List (HloOp τ sig (Elt F)) :=
  [ binary main_v52 main_v51 main_v53 ((fun a b => concatenate S128x509x65 2 [⟨S128x509x1, a⟩, ⟨S128x509x64, b⟩] concatenates_S128x509x1_S128x509x64_S128x509x65_d2) : (⟨S128x509x1, .f32⟩ : BufTy).Contents (Elt F) → (⟨S128x509x64, .f32⟩ : BufTy).Contents (Elt F) → (⟨S128x509x65, .f32⟩ : BufTy).Contents (Elt F)),
    TRef.nullary (TRef.of (T := ⟨S_, .f32⟩) main_call2_cst) (constant S_ .f32 0xFF800000#32),
    TRef.binary (TRef.of (T := ⟨S128x509x65, .f32⟩) main_v53) (TRef.of (T := ⟨S_, .f32⟩) main_call2_cst) (TRef.of (T := ⟨S128x509, .f32⟩) main_call2_v0) (fun x v => Host.reduce FloatOps.maximumf x v reducesTo_S128x509x65_S128x509_d2 h_S_),
    TRef.nullary (TRef.of (T := ⟨S_, .f32⟩) main_call2_cst_0) (constant S_ .f32 0xFF800000#32),
    TRef.unary (TRef.of (T := ⟨S_, .f32⟩) main_call2_cst_0) (TRef.of (T := ⟨S128x509, .f32⟩) main_call2_v1) (broadcastInDim S128x509 ![] bcast_S_S128x509),
    TRef.binary (TRef.of (T := ⟨S128x509, .f32⟩) main_call2_v1) (TRef.of (T := ⟨S128x509, .f32⟩) main_call2_v0) (TRef.of (T := ⟨S128x509, .f32⟩) main_call2_v2) maximumf,
    TRef.unary (TRef.of (T := ⟨S128x509, .f32⟩) main_call2_v2) (TRef.of (T := ⟨S128x509x1, .f32⟩) main_call2_v3) (broadcastInDim S128x509x1 ![0, 1] bcast_S128x509_S128x509x1_0_1),
    TRef.unary (TRef.of (T := ⟨S128x509x1, .f32⟩) main_call2_v3) (TRef.of (T := ⟨S128x509x65, .f32⟩) main_call2_v4) (broadcastInDim S128x509x65 ![0, 1, 2] bcast_S128x509x1_S128x509x65_0_1_2),
    TRef.binary (TRef.of (T := ⟨S128x509x65, .f32⟩) main_v53) (TRef.of (T := ⟨S128x509x65, .f32⟩) main_call2_v4) (TRef.of (T := ⟨S128x509x65, .f32⟩) main_call2_v5) subf,
    TRef.unary (TRef.of (T := ⟨S128x509x65, .f32⟩) main_call2_v5) (TRef.of (T := ⟨S128x509x65, .f32⟩) main_call2_v6) Host.exp,
    TRef.nullary (TRef.of (T := ⟨S_, .f32⟩) main_call2_cst_1) (constant S_ .f32 0x00000000#32),
    TRef.binary (TRef.of (T := ⟨S128x509x65, .f32⟩) main_call2_v6) (TRef.of (T := ⟨S_, .f32⟩) main_call2_cst_1) (TRef.of (T := ⟨S128x509, .f32⟩) main_call2_v7) (fun x v => Host.reduceAdd x v reducesTo_S128x509x65_S128x509_d2 h_S_),
    TRef.unary (TRef.of (T := ⟨S128x509, .f32⟩) main_call2_v7) (TRef.of (T := ⟨S128x509x1, .f32⟩) main_call2_v8) (broadcastInDim S128x509x1 ![0, 1] bcast_S128x509_S128x509x1_0_1),
    TRef.unary (TRef.of (T := ⟨S128x509x1, .f32⟩) main_call2_v8) (TRef.of (T := ⟨S128x509x1, .f32⟩) main_call2_v9) Host.log,
    TRef.unary (TRef.of (T := ⟨S128x509x1, .f32⟩) main_call2_v9) (TRef.of (T := ⟨S128x509x65, .f32⟩) main_call2_v10) (broadcastInDim S128x509x65 ![0, 1, 2] bcast_S128x509x1_S128x509x65_0_1_2),
    TRef.binary (TRef.of (T := ⟨S128x509x65, .f32⟩) main_call2_v5) (TRef.of (T := ⟨S128x509x65, .f32⟩) main_call2_v10) (TRef.of (T := ⟨S128x509x65, .f32⟩) main_v54) subf,
    unary main_v54 main_v55 ((extractStridedSlice S128x509x1 ![0, 0, 0] · slices_S128x509x65_S128x509x1_0_0_0) : (⟨S128x509x65, .f32⟩ : BufTy).Contents (Elt F) → (⟨S128x509x1, .f32⟩ : BufTy).Contents (Elt F)),
    reshape main_v55 main_v56 rfl shapeCasts_S128x509x1_S128x509,
    nullary main_cst_7 (constant S_ .f32 0x00000000#32),
    binary main_v56 main_cst_7 main_v57 ((fun x v => Host.reduceAdd x v reducesTo_S128x509_S_d0_1 h_S_) : (⟨S128x509, .f32⟩ : BufTy).Contents (Elt F) → (⟨S_, .f32⟩ : BufTy).Contents (Elt F) → (⟨S_, .f32⟩ : BufTy).Contents (Elt F)),
    nullary main_cst_8 (constant S_ .f32 0x477E8000#32),
    binary main_v57 main_cst_8 main_v58 (Host.divf : (⟨S_, .f32⟩ : BufTy).Contents (Elt F) → (⟨S_, .f32⟩ : BufTy).Contents (Elt F) → (⟨S_, .f32⟩ : BufTy).Contents (Elt F)),
    unary main_v58 main_v59 (Host.negf : (⟨S_, .f32⟩ : BufTy).Contents (Elt F) → (⟨S_, .f32⟩ : BufTy).Contents (Elt F)) ]

theorem segA3_v51 (W : Valuation τ sig (Elt F)) (x0 : (⟨S128x512x128, .f32⟩ : BufTy).Contents (Elt F)) (x1 : (⟨S128x512x128x4, .f32⟩ : BufTy).Contents (Elt F))
    (x2 : (⟨S128, .i32⟩ : BufTy).Contents (Elt F)) (x3 : (⟨S128x64, .i32⟩ : BufTy).Contents (Elt F))
    (h9 : W (Proc.devRef .tc main_v9) = val_main_v9 (F := F) x1 x2) (h17 : W (Proc.devRef .tc main_v17) = val_main_v17 (F := F) x0 x3) :
    after (segA3 (F := F)) W (Proc.devRef .tc main_v51) = val_main_v51 (F := F) x0 x1 x2 x3 := by
  unfold segA3
  after_results_simp
  rw [h9, h17]
  rfl

theorem segA3_v52 (W : Valuation τ sig (Elt F)) (x0 : (⟨S128x512x128, .f32⟩ : BufTy).Contents (Elt F)) (x1 : (⟨S128x512x128x4, .f32⟩ : BufTy).Contents (Elt F))
    (x2 : (⟨S128, .i32⟩ : BufTy).Contents (Elt F)) (x3 : (⟨S128x64, .i32⟩ : BufTy).Contents (Elt F))
    (h0 : W (Proc.devRef .tc main_arg0) = x0) (h9 : W (Proc.devRef .tc main_v9) = val_main_v9 (F := F) x1 x2) :
    after (segA3 (F := F)) W (Proc.devRef .tc main_v52) = val_main_v52 (F := F) x0 x1 x2 := by
  unfold segA3
  after_results_simp
  rw [h9, h0]
  rfl

/-- The inlined log-softmax's operations are spelt over typed references; the moves between a value's type and its
    buffer's type are identities, taken off by rewriting before the two sides are compared. -/
theorem segB3_v59 (W : Valuation τ sig (Elt F)) (x0 : (⟨S128x512x128, .f32⟩ : BufTy).Contents (Elt F)) (x1 : (⟨S128x512x128x4, .f32⟩ : BufTy).Contents (Elt F))
    (x2 : (⟨S128, .i32⟩ : BufTy).Contents (Elt F)) (x3 : (⟨S128x64, .i32⟩ : BufTy).Contents (Elt F))
    (h23 : W (Proc.devRef .tc main_v51) = val_main_v51 (F := F) x0 x1 x2 x3) (h24 : W (Proc.devRef .tc main_v52) = val_main_v52 (F := F) x0 x1 x2) :
    after (segB3 (F := F)) W (Proc.devRef .tc main_v59) = val_main_v59 (F := F) x0 x1 x2 x3 := by
  have e25 : ∀ w, (TRef.of (sig := sig) (T := ⟨S128x509x65, .f32⟩) main_v53).ofBuf (Val := Elt F) w = w := fun _ => rfl
  have e26 : ∀ v, (TRef.of (sig := sig) (T := ⟨S128x509x65, .f32⟩) main_v54).toBuf (Val := Elt F) v = v := fun _ => rfl
  unfold segB3
  after_results_simp
  rw [h24, h23]
  simp only [TypedRef.ofBuf_toBuf, e25, e26]
  rfl

theorem segA3_keep_arg0 (W : Valuation τ sig (Elt F)) :
    after (segA3 (F := F)) W (Proc.devRef .tc main_arg0) = W (Proc.devRef .tc main_arg0) := by
  unfold segA3
  after_results_simp

theorem segA3_keep_v9 (W : Valuation τ sig (Elt F)) :
    after (segA3 (F := F)) W (Proc.devRef .tc main_v9) = W (Proc.devRef .tc main_v9) := by
  unfold segA3
  after_results_simp

theorem segA3_keep_v17 (W : Valuation τ sig (Elt F)) :
    after (segA3 (F := F)) W (Proc.devRef .tc main_v17) = W (Proc.devRef .tc main_v17) := by
  unfold segA3
  after_results_simp

theorem segA3_keep_v31 (W : Valuation τ sig (Elt F)) :
    after (segA3 (F := F)) W (Proc.devRef .tc main_v31) = W (Proc.devRef .tc main_v31) := by
  unfold segA3
  after_results_simp

theorem segA3_keep_v45 (W : Valuation τ sig (Elt F)) :
    after (segA3 (F := F)) W (Proc.devRef .tc main_v45) = W (Proc.devRef .tc main_v45) := by
  unfold segA3
  after_results_simp

theorem segB3_keep_arg0 (W : Valuation τ sig (Elt F)) :
    after (segB3 (F := F)) W (Proc.devRef .tc main_arg0) = W (Proc.devRef .tc main_arg0) := by
  unfold segB3
  after_results_simp

theorem segB3_keep_v9 (W : Valuation τ sig (Elt F)) :
    after (segB3 (F := F)) W (Proc.devRef .tc main_v9) = W (Proc.devRef .tc main_v9) := by
  unfold segB3
  after_results_simp

theorem segB3_keep_v17 (W : Valuation τ sig (Elt F)) :
    after (segB3 (F := F)) W (Proc.devRef .tc main_v17) = W (Proc.devRef .tc main_v17) := by
  unfold segB3
  after_results_simp

theorem segB3_keep_v31 (W : Valuation τ sig (Elt F)) :
    after (segB3 (F := F)) W (Proc.devRef .tc main_v31) = W (Proc.devRef .tc main_v31) := by
  unfold segB3
  after_results_simp

theorem segB3_keep_v45 (W : Valuation τ sig (Elt F)) :
    after (segB3 (F := F)) W (Proc.devRef .tc main_v45) = W (Proc.devRef .tc main_v45) := by
  unfold segB3
  after_results_simp

/-! ### Step 4 -/

/-- Step 4, first part: the masked context's slice, the positive scores (`main_v66`) and the negative scores (`main_v65`). -/
def segA4 : List (HloOp τ sig (Elt F)) :=
  [ unary main_v9 main_v60 ((extractStridedSlice S128x508x128x1 ![0, 0, 0, 3] · slices_S128x512x128x4_S128x508x128x1_0_0_0_3) : (⟨S128x512x128x4, .f32⟩ : BufTy).Contents (Elt F) → (⟨S128x508x128x1, .f32⟩ : BufTy).Contents (Elt F)),
    reshape main_v60 main_v61 rfl shapeCasts_S128x508x128x1_S128x508x128,
    unary main_arg0 main_v62 ((extractStridedSlice S128x508x128 ![0, 4, 0] · slices_S128x512x128_S128x508x128_0_4_0) : (⟨S128x512x128, .f32⟩ : BufTy).Contents (Elt F) → (⟨S128x508x128, .f32⟩ : BufTy).Contents (Elt F)),
    binary main_v61 main_v62 main_v63 (mulf : (⟨S128x508x128, .f32⟩ : BufTy).Contents (Elt F) → (⟨S128x508x128, .f32⟩ : BufTy).Contents (Elt F) → (⟨S128x508x128, .f32⟩ : BufTy).Contents (Elt F)),
    nullary main_cst_9 (constant S_ .f32 0x00000000#32),
    binary main_v63 main_cst_9 main_v64 ((fun x v => Host.reduceAdd x v reducesTo_S128x508x128_S128x508_d2 h_S_) : (⟨S128x508x128, .f32⟩ : BufTy).Contents (Elt F) → (⟨S_, .f32⟩ : BufTy).Contents (Elt F) → (⟨S128x508, .f32⟩ : BufTy).Contents (Elt F)),
    binary main_v61 main_v17 main_v65 ((fun l r => Host.dotGeneral dot_S128x508x128_S128x64x128_S128x508x64_2_2_1_1_0_0 none l r) : (⟨S128x508x128, .f32⟩ : BufTy).Contents (Elt F) → (⟨S128x64x128, .f32⟩ : BufTy).Contents (Elt F) → (⟨S128x508x64, .f32⟩ : BufTy).Contents (Elt F)),
    unary main_v64 main_v66 (broadcastInDim S128x508x1 ![0, 1] bcast_S128x508_S128x508x1_0_1 : (⟨S128x508, .f32⟩ : BufTy).Contents (Elt F) → (⟨S128x508x1, .f32⟩ : BufTy).Contents (Elt F)) ]

/-- Step 4, second part: the row of logits (the join of the two score arrays, first in the line so that its operands are read from the valuation it starts from), its log-softmax, the first entry's total and the step's loss (`main_v73`). -/
def segB4 : List (HloOp τ sig (Elt F)) :=
  [ binary main_v66 main_v65 main_v67 ((fun a b => concatenate S128x508x65 2 [⟨S128x508x1, a⟩, ⟨S128x508x64, b⟩] concatenates_S128x508x1_S128x508x64_S128x508x65_d2) : (⟨S128x508x1, .f32⟩ : BufTy).Contents (Elt F) → (⟨S128x508x64, .f32⟩ : BufTy).Contents (Elt F) → (⟨S128x508x65, .f32⟩ : BufTy).Contents (Elt F)),
    TRef.nullary (TRef.of (T := ⟨S_, .f32⟩) main_call3_cst) (constant S_ .f32 0xFF800000#32),
    TRef.binary (TRef.of (T := ⟨S128x508x65, .f32⟩) main_v67) (TRef.of (T := ⟨S_, .f32⟩) main_call3_cst) (TRef.of (T := ⟨S128x508, .f32⟩) main_call3_v0) (fun x v => Host.reduce FloatOps.maximumf x v reducesTo_S128x508x65_S128x508_d2 h_S_),
    TRef.nullary (TRef.of (T := ⟨S_, .f32⟩) main_call3_cst_0) (constant S_ .f32 0xFF800000#32),
    TRef.unary (TRef.of (T := ⟨S_, .f32⟩) main_call3_cst_0) (TRef.of (T := ⟨S128x508, .f32⟩) main_call3_v1) (broadcastInDim S128x508 ![] bcast_S_S128x508),
    TRef.binary (TRef.of (T := ⟨S128x508, .f32⟩) main_call3_v1) (TRef.of (T := ⟨S128x508, .f32⟩) main_call3_v0) (TRef.of (T := ⟨S128x508, .f32⟩) main_call3_v2) maximumf,
    TRef.unary (TRef.of (T := ⟨S128x508, .f32⟩) main_call3_v2) (TRef.of (T := ⟨S128x508x1, .f32⟩) main_call3_v3) (broadcastInDim S128x508x1 ![0, 1] bcast_S128x508_S128x508x1_0_1),
    TRef.unary (TRef.of (T := ⟨S128x508x1, .f32⟩) main_call3_v3) (TRef.of (T := ⟨S128x508x65, .f32⟩) main_call3_v4) (broadcastInDim S128x508x65 ![0, 1, 2] bcast_S128x508x1_S128x508x65_0_1_2),
    TRef.binary (TRef.of (T := ⟨S128x508x65, .f32⟩) main_v67) (TRef.of (T := ⟨S128x508x65, .f32⟩) main_call3_v4) (TRef.of (T := ⟨S128x508x65, .f32⟩) main_call3_v5) subf,
    TRef.unary (TRef.of (T := ⟨S128x508x65, .f32⟩) main_call3_v5) (TRef.of (T := ⟨S128x508x65, .f32⟩) main_call3_v6) Host.exp,
    TRef.nullary (TRef.of (T := ⟨S_, .f32⟩) main_call3_cst_1) (constant S_ .f32 0x00000000#32),
    TRef.binary (TRef.of (T := ⟨S128x508x65, .f32⟩) main_call3_v6) (TRef.of (T := ⟨S_, .f32⟩) main_call3_cst_1) (TRef.of (T := ⟨S128x508, .f32⟩) main_call3_v7) (fun x v => Host.reduceAdd x v reducesTo_S128x508x65_S128x508_d2 h_S_),
    TRef.unary (TRef.of (T := ⟨S128x508, .f32⟩) main_call3_v7) (TRef.of (T := ⟨S128x508x1, .f32⟩) main_call3_v8) (broadcastInDim S128x508x1 ![0, 1] bcast_S128x508_S128x508x1_0_1),
    TRef.unary (TRef.of (T := ⟨S128x508x1, .f32⟩) main_call3_v8) (TRef.of (T := ⟨S128x508x1, .f32⟩) main_call3_v9) Host.log,
    TRef.unary (TRef.of (T := ⟨S128x508x1, .f32⟩) main_call3_v9) (TRef.of (T := ⟨S128x508x65, .f32⟩) main_call3_v10) (broadcastInDim S128x508x65 ![0, 1, 2] bcast_S128x508x1_S128x508x65_0_1_2),
    TRef.binary (TRef.of (T := ⟨S128x508x65, .f32⟩) main_call3_v5) (TRef.of (T := ⟨S128x508x65, .f32⟩) main_call3_v10) (TRef.of (T := ⟨S128x508x65, .f32⟩) main_v68) subf,
    unary main_v68 main_v69 ((extractStridedSlice S128x508x1 ![0, 0, 0] · slices_S128x508x65_S128x508x1_0_0_0) : (⟨S128x508x65, .f32⟩ : BufTy).Contents (Elt F) → (⟨S128x508x1, .f32⟩ : BufTy).Contents (Elt F)),
    reshape main_v69 main_v70 rfl shapeCasts_S128x508x1_S128x508,
    nullary main_cst_10 (constant S_ .f32 0x00000000#32),
    binary main_v70 main_cst_10 main_v71 ((fun x v => Host.reduceAdd x v reducesTo_S128x508_S_d0_1 h_S_) : (⟨S128x508, .f32⟩ : BufTy).Contents (Elt F) → (⟨S_, .f32⟩ : BufTy).Contents (Elt F) → (⟨S_, .f32⟩ : BufTy).Contents (Elt F)),
    nullary main_cst_11 (constant S_ .f32 0x477E0000#32),
    binary main_v71 main_cst_11 main_v72 (Host.divf : (⟨S_, .f32⟩ : BufTy).Contents (Elt F) → (⟨S_, .f32⟩ : BufTy).Contents (Elt F) → (⟨S_, .f32⟩ : BufTy).Contents (Elt F)),
    unary main_v72 main_v73 (Host.negf : (⟨S_, .f32⟩ : BufTy).Contents (Elt F) → (⟨S_, .f32⟩ : BufTy).Contents (Elt F)) ]

theorem segA4_v65 (W : Valuation τ sig (Elt F)) (x0 : (⟨S128x512x128, .f32⟩ : BufTy).Contents (Elt F)) (x1 : (⟨S128x512x128x4, .f32⟩ : BufTy).Contents (Elt F))
    (x2 : (⟨S128, .i32⟩ : BufTy).Contents (Elt F)) (x3 : (⟨S128x64, .i32⟩ : BufTy).Contents (Elt F))
    (h9 : W (Proc.devRef .tc main_v9) = val_main_v9 (F := F) x1 x2) (h17 : W (Proc.devRef .tc main_v17) = val_main_v17 (F := F) x0 x3) :
    after (segA4 (F := F)) W (Proc.devRef .tc main_v65) = val_main_v65 (F := F) x0 x1 x2 x3 := by
  unfold segA4
  after_results_simp
  rw [h9, h17]
  rfl

theorem segA4_v66 (W : Valuation τ sig (Elt F)) (x0 : (⟨S128x512x128, .f32⟩ : BufTy).Contents (Elt F)) (x1 : (⟨S128x512x128x4, .f32⟩ : BufTy).Contents (Elt F))
    (x2 : (⟨S128, .i32⟩ : BufTy).Contents (Elt F)) (x3 : (⟨S128x64, .i32⟩ : BufTy).Contents (Elt F))
    (h0 : W (Proc.devRef .tc main_arg0) = x0) (h9 : W (Proc.devRef .tc main_v9) = val_main_v9 (F := F) x1 x2) :
    after (segA4 (F := F)) W (Proc.devRef .tc main_v66) = val_main_v66 (F := F) x0 x1 x2 := by
  unfold segA4
  after_results_simp
  rw [h9, h0]
  rfl

/-- The inlined log-softmax's operations are spelt over typed references; the moves between a value's type and its
    buffer's type are identities, taken off by rewriting before the two sides are compared. -/
theorem segB4_v73 (W : Valuation τ sig (Elt F)) (x0 : (⟨S128x512x128, .f32⟩ : BufTy).Contents (Elt F)) (x1 : (⟨S128x512x128x4, .f32⟩ : BufTy).Contents (Elt F))
    (x2 : (⟨S128, .i32⟩ : BufTy).Contents (Elt F)) (x3 : (⟨S128x64, .i32⟩ : BufTy).Contents (Elt F))
    (h23 : W (Proc.devRef .tc main_v65) = val_main_v65 (F := F) x0 x1 x2 x3) (h24 : W (Proc.devRef .tc main_v66) = val_main_v66 (F := F) x0 x1 x2) :
    after (segB4 (F := F)) W (Proc.devRef .tc main_v73) = val_main_v73 (F := F) x0 x1 x2 x3 := by
  have e25 : ∀ w, (TRef.of (sig := sig) (T := ⟨S128x508x65, .f32⟩) main_v67).ofBuf (Val := Elt F) w = w := fun _ => rfl
  have e26 : ∀ v, (TRef.of (sig := sig) (T := ⟨S128x508x65, .f32⟩) main_v68).toBuf (Val := Elt F) v = v := fun _ => rfl
  unfold segB4
  after_results_simp
  rw [h24, h23]
  simp only [TypedRef.ofBuf_toBuf, e25, e26]
  rfl

theorem segA4_keep_v31 (W : Valuation τ sig (Elt F)) :
    after (segA4 (F := F)) W (Proc.devRef .tc main_v31) = W (Proc.devRef .tc main_v31) := by
  unfold segA4
  after_results_simp

theorem segA4_keep_v45 (W : Valuation τ sig (Elt F)) :
    after (segA4 (F := F)) W (Proc.devRef .tc main_v45) = W (Proc.devRef .tc main_v45) := by
  unfold segA4
  after_results_simp

theorem segA4_keep_v59 (W : Valuation τ sig (Elt F)) :
    after (segA4 (F := F)) W (Proc.devRef .tc main_v59) = W (Proc.devRef .tc main_v59) := by
  unfold segA4
  after_results_simp

theorem segB4_keep_v31 (W : Valuation τ sig (Elt F)) :
    after (segB4 (F := F)) W (Proc.devRef .tc main_v31) = W (Proc.devRef .tc main_v31) := by
  unfold segB4
  after_results_simp

theorem segB4_keep_v45 (W : Valuation τ sig (Elt F)) :
    after (segB4 (F := F)) W (Proc.devRef .tc main_v45) = W (Proc.devRef .tc main_v45) := by
  unfold segB4
  after_results_simp

theorem segB4_keep_v59 (W : Valuation τ sig (Elt F)) :
    after (segB4 (F := F)) W (Proc.devRef .tc main_v59) = W (Proc.devRef .tc main_v59) := by
  unfold segB4
  after_results_simp

/-! ### The mean of the four losses -/

/-- The four step losses, each as a one-entry vector. -/
def segTa : List (HloOp τ sig (Elt F)) :=
  [ unary main_v31 main_v74 (broadcastInDim S1 ![] bcast_S_S1 : (⟨S_, .f32⟩ : BufTy).Contents (Elt F) → (⟨S1, .f32⟩ : BufTy).Contents (Elt F)),
    unary main_v45 main_v75 (broadcastInDim S1 ![] bcast_S_S1 : (⟨S_, .f32⟩ : BufTy).Contents (Elt F) → (⟨S1, .f32⟩ : BufTy).Contents (Elt F)),
    unary main_v59 main_v76 (broadcastInDim S1 ![] bcast_S_S1 : (⟨S_, .f32⟩ : BufTy).Contents (Elt F) → (⟨S1, .f32⟩ : BufTy).Contents (Elt F)),
    unary main_v73 main_v77 (broadcastInDim S1 ![] bcast_S_S1 : (⟨S_, .f32⟩ : BufTy).Contents (Elt F) → (⟨S1, .f32⟩ : BufTy).Contents (Elt F)) ]

/-- The four one-entry vectors joined (first in the line, as for a step's logits), summed from the zero word and divided by four. -/
def segTb : List (HloOp τ sig (Elt F)) :=
  [ nary ![main_v74, main_v75, main_v76, main_v77] main_v78 (fun u => concatenate S4 0 [⟨S1, u 0⟩, ⟨S1, u 1⟩, ⟨S1, u 2⟩, ⟨S1, u 3⟩] concatenates_S1_S1_S1_S1_S4_d0),
    nullary main_cst_12 (constant S_ .f32 0x00000000#32),
    binary main_v78 main_cst_12 main_v79 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    nullary main_cst_13 (constant S_ .f32 0x40800000#32),
    binary main_v79 main_cst_13 main_v80 (Host.divf : (⟨S_, .f32⟩ : BufTy).Contents (Elt F) → (⟨S_, .f32⟩ : BufTy).Contents (Elt F) → (⟨S_, .f32⟩ : BufTy).Contents (Elt F)) ]

theorem segTa_v74 (W : Valuation τ sig (Elt F)) (x0 : (⟨S128x512x128, .f32⟩ : BufTy).Contents (Elt F)) (x1 : (⟨S128x512x128x4, .f32⟩ : BufTy).Contents (Elt F))
    (x2 : (⟨S128, .i32⟩ : BufTy).Contents (Elt F)) (x3 : (⟨S128x64, .i32⟩ : BufTy).Contents (Elt F))
    (h : W (Proc.devRef .tc main_v31) = val_main_v31 (F := F) x0 x1 x2 x3) :
    after (segTa (F := F)) W (Proc.devRef .tc main_v74) = val_main_v74 (F := F) x0 x1 x2 x3 := by
  unfold segTa
  after_results_simp
  rw [h]
  rfl

theorem segTa_v75 (W : Valuation τ sig (Elt F)) (x0 : (⟨S128x512x128, .f32⟩ : BufTy).Contents (Elt F)) (x1 : (⟨S128x512x128x4, .f32⟩ : BufTy).Contents (Elt F))
    (x2 : (⟨S128, .i32⟩ : BufTy).Contents (Elt F)) (x3 : (⟨S128x64, .i32⟩ : BufTy).Contents (Elt F))
    (h : W (Proc.devRef .tc main_v45) = val_main_v45 (F := F) x0 x1 x2 x3) :
    after (segTa (F := F)) W (Proc.devRef .tc main_v75) = val_main_v75 (F := F) x0 x1 x2 x3 := by
  unfold segTa
  after_results_simp
  rw [h]
  rfl

theorem segTa_v76 (W : Valuation τ sig (Elt F)) (x0 : (⟨S128x512x128, .f32⟩ : BufTy).Contents (Elt F)) (x1 : (⟨S128x512x128x4, .f32⟩ : BufTy).Contents (Elt F))
    (x2 : (⟨S128, .i32⟩ : BufTy).Contents (Elt F)) (x3 : (⟨S128x64, .i32⟩ : BufTy).Contents (Elt F))
    (h : W (Proc.devRef .tc main_v59) = val_main_v59 (F := F) x0 x1 x2 x3) :
    after (segTa (F := F)) W (Proc.devRef .tc main_v76) = val_main_v76 (F := F) x0 x1 x2 x3 := by
  unfold segTa
  after_results_simp
  rw [h]
  rfl

theorem segTa_v77 (W : Valuation τ sig (Elt F)) (x0 : (⟨S128x512x128, .f32⟩ : BufTy).Contents (Elt F)) (x1 : (⟨S128x512x128x4, .f32⟩ : BufTy).Contents (Elt F))
    (x2 : (⟨S128, .i32⟩ : BufTy).Contents (Elt F)) (x3 : (⟨S128x64, .i32⟩ : BufTy).Contents (Elt F))
    (h : W (Proc.devRef .tc main_v73) = val_main_v73 (F := F) x0 x1 x2 x3) :
    after (segTa (F := F)) W (Proc.devRef .tc main_v77) = val_main_v77 (F := F) x0 x1 x2 x3 := by
  unfold segTa
  after_results_simp
  rw [h]
  rfl

theorem segTb_v80 (W : Valuation τ sig (Elt F)) (x0 : (⟨S128x512x128, .f32⟩ : BufTy).Contents (Elt F)) (x1 : (⟨S128x512x128x4, .f32⟩ : BufTy).Contents (Elt F))
    (x2 : (⟨S128, .i32⟩ : BufTy).Contents (Elt F)) (x3 : (⟨S128x64, .i32⟩ : BufTy).Contents (Elt F))
    (h74 : W (Proc.devRef .tc main_v74) = val_main_v74 (F := F) x0 x1 x2 x3) (h75 : W (Proc.devRef .tc main_v75) = val_main_v75 (F := F) x0 x1 x2 x3)
    (h76 : W (Proc.devRef .tc main_v76) = val_main_v76 (F := F) x0 x1 x2 x3) (h77 : W (Proc.devRef .tc main_v77) = val_main_v77 (F := F) x0 x1 x2 x3) :
    after (segTb (F := F)) W (Proc.devRef .tc main_v80) = val_main_v80 (F := F) x0 x1 x2 x3 := by
  unfold segTb
  after_results_simp
  dsimp only [Matrix.cons_val]
  rw [h74, h75, h76, h77]
  rfl

/-! ### The whole line -/

/-- The line of 153 operations is the eleven stretches in a row. -/
theorem ops_split : (ValueP.ops (F := F)) = seg0 ++ (segA1 ++ (segB1 ++ (segA2 ++ (segB2 ++ (segA3 ++ (segB3 ++ (segA4 ++ (segB4 ++ (segTa ++ segTb))))))))) := rfl

/-- After the whole line, from any valuation, the result buffer holds the last stage of the reference read at the
    valuation's argument buffers: stretch by stretch, carrying the few buffers a later stretch still reads (the base
    array, the masked context, the gathered samples and the losses so far). -/
theorem after_ops_v80 (V : Valuation τ sig (Elt F)) (x0 : (⟨S128x512x128, .f32⟩ : BufTy).Contents (Elt F)) (x1 : (⟨S128x512x128x4, .f32⟩ : BufTy).Contents (Elt F))
    (x2 : (⟨S128, .i32⟩ : BufTy).Contents (Elt F)) (x3 : (⟨S128x64, .i32⟩ : BufTy).Contents (Elt F))
    (h0 : V (Proc.devRef .tc main_arg0) = x0) (h1 : V (Proc.devRef .tc main_arg1) = x1) (h2 : V (Proc.devRef .tc main_arg2) = x2) (h3 : V (Proc.devRef .tc main_arg3) = x3) :
    after (ValueP.ops (F := F)) V (Proc.devRef .tc main_v80) = val_main_v80 (F := F) x0 x1 x2 x3 := by
  rw [ops_split]
  simp only [TypedRef.after_append]
  -- before the first step
  have k0_arg0 := (seg0_keep_arg0 (F := F) V).trans h0
  have k0_v9 := seg0_v9 V x0 x1 x2 x3 h1 h2
  have k0_v17 := seg0_v17 V x0 x1 x2 x3 h0 h3
  -- step 1
  have a1_v23 := segA1_v23 (after (seg0 (F := F)) V) x0 x1 x2 x3 k0_v9 k0_v17
  have a1_v24 := segA1_v24 (after (seg0 (F := F)) V) x0 x1 x2 x3 k0_arg0 k0_v9
  have a1_arg0 := (segA1_keep_arg0 (F := F) (after (seg0 (F := F)) V)).trans k0_arg0
  have a1_v9 := (segA1_keep_v9 (F := F) (after (seg0 (F := F)) V)).trans k0_v9
  have a1_v17 := (segA1_keep_v17 (F := F) (after (seg0 (F := F)) V)).trans k0_v17
  have b1_v31 := segB1_v31 (after (segA1 (F := F)) (after (seg0 (F := F)) V)) x0 x1 x2 x3 a1_v23 a1_v24
  have b1_arg0 := (segB1_keep_arg0 (F := F) (after (segA1 (F := F)) (after (seg0 (F := F)) V))).trans a1_arg0
  have b1_v9 := (segB1_keep_v9 (F := F) (after (segA1 (F := F)) (after (seg0 (F := F)) V))).trans a1_v9
  have b1_v17 := (segB1_keep_v17 (F := F) (after (segA1 (F := F)) (after (seg0 (F := F)) V))).trans a1_v17
  -- step 2
  have a2_v37 := segA2_v37 (after (segB1 (F := F)) (after (segA1 (F := F)) (after (seg0 (F := F)) V))) x0 x1 x2 x3 b1_v9 b1_v17
  have a2_v38 := segA2_v38 (after (segB1 (F := F)) (after (segA1 (F := F)) (after (seg0 (F := F)) V))) x0 x1 x2 x3 b1_arg0 b1_v9
  have a2_arg0 := (segA2_keep_arg0 (F := F) (after (segB1 (F := F)) (after (segA1 (F := F)) (after (seg0 (F := F)) V)))).trans b1_arg0
  have a2_v9 := (segA2_keep_v9 (F := F) (after (segB1 (F := F)) (after (segA1 (F := F)) (after (seg0 (F := F)) V)))).trans b1_v9
  have a2_v17 := (segA2_keep_v17 (F := F) (after (segB1 (F := F)) (after (segA1 (F := F)) (after (seg0 (F := F)) V)))).trans b1_v17
  have a2_v31 := (segA2_keep_v31 (F := F) (after (segB1 (F := F)) (after (segA1 (F := F)) (after (seg0 (F := F)) V)))).trans b1_v31
  have b2_v45 := segB2_v45 (after (segA2 (F := F)) (after (segB1 (F := F)) (after (segA1 (F := F)) (after (seg0 (F := F)) V)))) x0 x1 x2 x3 a2_v37 a2_v38
  have b2_arg0 := (segB2_keep_arg0 (F := F) (after (segA2 (F := F)) (after (segB1 (F := F)) (after (segA1 (F := F)) (after (seg0 (F := F)) V))))).trans a2_arg0
  have b2_v9 := (segB2_keep_v9 (F := F) (after (segA2 (F := F)) (after (segB1 (F := F)) (after (segA1 (F := F)) (after (seg0 (F := F)) V))))).trans a2_v9
  have b2_v17 := (segB2_keep_v17 (F := F) (after (segA2 (F := F)) (after (segB1 (F := F)) (after (segA1 (F := F)) (after (seg0 (F := F)) V))))).trans a2_v17
  have b2_v31 := (segB2_keep_v31 (F := F) (after (segA2 (F := F)) (after (segB1 (F := F)) (after (segA1 (F := F)) (after (seg0 (F := F)) V))))).trans a2_v31
  -- step 3
  have a3_v51 := segA3_v51 (after (segB2 (F := F)) (after (segA2 (F := F)) (after (segB1 (F := F)) (after (segA1 (F := F)) (after (seg0 (F := F)) V))))) x0 x1 x2 x3 b2_v9 b2_v17
  have a3_v52 := segA3_v52 (after (segB2 (F := F)) (after (segA2 (F := F)) (after (segB1 (F := F)) (after (segA1 (F := F)) (after (seg0 (F := F)) V))))) x0 x1 x2 x3 b2_arg0 b2_v9
  have a3_arg0 := (segA3_keep_arg0 (F := F) (after (segB2 (F := F)) (after (segA2 (F := F)) (after (segB1 (F := F)) (after (segA1 (F := F)) (after (seg0 (F := F)) V)))))).trans b2_arg0
  have a3_v9 := (segA3_keep_v9 (F := F) (after (segB2 (F := F)) (after (segA2 (F := F)) (after (segB1 (F := F)) (after (segA1 (F := F)) (after (seg0 (F := F)) V)))))).trans b2_v9
  have a3_v17 := (segA3_keep_v17 (F := F) (after (segB2 (F := F)) (after (segA2 (F := F)) (after (segB1 (F := F)) (after (segA1 (F := F)) (after (seg0 (F := F)) V)))))).trans b2_v17
  have a3_v31 := (segA3_keep_v31 (F := F) (after (segB2 (F := F)) (after (segA2 (F := F)) (after (segB1 (F := F)) (after (segA1 (F := F)) (after (seg0 (F := F)) V)))))).trans b2_v31
  have a3_v45 := (segA3_keep_v45 (F := F) (after (segB2 (F := F)) (after (segA2 (F := F)) (after (segB1 (F := F)) (after (segA1 (F := F)) (after (seg0 (F := F)) V)))))).trans b2_v45
  have b3_v59 := segB3_v59 (after (segA3 (F := F)) (after (segB2 (F := F)) (after (segA2 (F := F)) (after (segB1 (F := F)) (after (segA1 (F := F)) (after (seg0 (F := F)) V)))))) x0 x1 x2 x3 a3_v51 a3_v52
  have b3_arg0 := (segB3_keep_arg0 (F := F) (after (segA3 (F := F)) (after (segB2 (F := F)) (after (segA2 (F := F)) (after (segB1 (F := F)) (after (segA1 (F := F)) (after (seg0 (F := F)) V))))))).trans a3_arg0
  have b3_v9 := (segB3_keep_v9 (F := F) (after (segA3 (F := F)) (after (segB2 (F := F)) (after (segA2 (F := F)) (after (segB1 (F := F)) (after (segA1 (F := F)) (after (seg0 (F := F)) V))))))).trans a3_v9
  have b3_v17 := (segB3_keep_v17 (F := F) (after (segA3 (F := F)) (after (segB2 (F := F)) (after (segA2 (F := F)) (after (segB1 (F := F)) (after (segA1 (F := F)) (after (seg0 (F := F)) V))))))).trans a3_v17
  have b3_v31 := (segB3_keep_v31 (F := F) (after (segA3 (F := F)) (after (segB2 (F := F)) (after (segA2 (F := F)) (after (segB1 (F := F)) (after (segA1 (F := F)) (after (seg0 (F := F)) V))))))).trans a3_v31
  have b3_v45 := (segB3_keep_v45 (F := F) (after (segA3 (F := F)) (after (segB2 (F := F)) (after (segA2 (F := F)) (after (segB1 (F := F)) (after (segA1 (F := F)) (after (seg0 (F := F)) V))))))).trans a3_v45
  -- step 4
  have a4_v65 := segA4_v65 (after (segB3 (F := F)) (after (segA3 (F := F)) (after (segB2 (F := F)) (after (segA2 (F := F)) (after (segB1 (F := F)) (after (segA1 (F := F)) (after (seg0 (F := F)) V))))))) x0 x1 x2 x3 b3_v9 b3_v17
  have a4_v66 := segA4_v66 (after (segB3 (F := F)) (after (segA3 (F := F)) (after (segB2 (F := F)) (after (segA2 (F := F)) (after (segB1 (F := F)) (after (segA1 (F := F)) (after (seg0 (F := F)) V))))))) x0 x1 x2 x3 b3_arg0 b3_v9
  have a4_v31 := (segA4_keep_v31 (F := F) (after (segB3 (F := F)) (after (segA3 (F := F)) (after (segB2 (F := F)) (after (segA2 (F := F)) (after (segB1 (F := F)) (after (segA1 (F := F)) (after (seg0 (F := F)) V)))))))).trans b3_v31
  have a4_v45 := (segA4_keep_v45 (F := F) (after (segB3 (F := F)) (after (segA3 (F := F)) (after (segB2 (F := F)) (after (segA2 (F := F)) (after (segB1 (F := F)) (after (segA1 (F := F)) (after (seg0 (F := F)) V)))))))).trans b3_v45
  have a4_v59 := (segA4_keep_v59 (F := F) (after (segB3 (F := F)) (after (segA3 (F := F)) (after (segB2 (F := F)) (after (segA2 (F := F)) (after (segB1 (F := F)) (after (segA1 (F := F)) (after (seg0 (F := F)) V)))))))).trans b3_v59
  have b4_v73 := segB4_v73 (after (segA4 (F := F)) (after (segB3 (F := F)) (after (segA3 (F := F)) (after (segB2 (F := F)) (after (segA2 (F := F)) (after (segB1 (F := F)) (after (segA1 (F := F)) (after (seg0 (F := F)) V)))))))) x0 x1 x2 x3 a4_v65 a4_v66
  have b4_v31 := (segB4_keep_v31 (F := F) (after (segA4 (F := F)) (after (segB3 (F := F)) (after (segA3 (F := F)) (after (segB2 (F := F)) (after (segA2 (F := F)) (after (segB1 (F := F)) (after (segA1 (F := F)) (after (seg0 (F := F)) V))))))))).trans a4_v31
  have b4_v45 := (segB4_keep_v45 (F := F) (after (segA4 (F := F)) (after (segB3 (F := F)) (after (segA3 (F := F)) (after (segB2 (F := F)) (after (segA2 (F := F)) (after (segB1 (F := F)) (after (segA1 (F := F)) (after (seg0 (F := F)) V))))))))).trans a4_v45
  have b4_v59 := (segB4_keep_v59 (F := F) (after (segA4 (F := F)) (after (segB3 (F := F)) (after (segA3 (F := F)) (after (segB2 (F := F)) (after (segA2 (F := F)) (after (segB1 (F := F)) (after (segA1 (F := F)) (after (seg0 (F := F)) V))))))))).trans a4_v59
  -- the mean
  have t_v74 := segTa_v74 (after (segB4 (F := F)) (after (segA4 (F := F)) (after (segB3 (F := F)) (after (segA3 (F := F)) (after (segB2 (F := F)) (after (segA2 (F := F)) (after (segB1 (F := F)) (after (segA1 (F := F)) (after (seg0 (F := F)) V))))))))) x0 x1 x2 x3 b4_v31
  have t_v75 := segTa_v75 (after (segB4 (F := F)) (after (segA4 (F := F)) (after (segB3 (F := F)) (after (segA3 (F := F)) (after (segB2 (F := F)) (after (segA2 (F := F)) (after (segB1 (F := F)) (after (segA1 (F := F)) (after (seg0 (F := F)) V))))))))) x0 x1 x2 x3 b4_v45
  have t_v76 := segTa_v76 (after (segB4 (F := F)) (after (segA4 (F := F)) (after (segB3 (F := F)) (after (segA3 (F := F)) (after (segB2 (F := F)) (after (segA2 (F := F)) (after (segB1 (F := F)) (after (segA1 (F := F)) (after (seg0 (F := F)) V))))))))) x0 x1 x2 x3 b4_v59
  have t_v77 := segTa_v77 (after (segB4 (F := F)) (after (segA4 (F := F)) (after (segB3 (F := F)) (after (segA3 (F := F)) (after (segB2 (F := F)) (after (segA2 (F := F)) (after (segB1 (F := F)) (after (segA1 (F := F)) (after (seg0 (F := F)) V))))))))) x0 x1 x2 x3 b4_v73
  exact segTb_v80 (after (segTa (F := F)) (after (segB4 (F := F)) (after (segA4 (F := F)) (after (segB3 (F := F)) (after (segA3 (F := F)) (after (segB2 (F := F)) (after (segA2 (F := F)) (after (segB1 (F := F)) (after (segA1 (F := F)) (after (seg0 (F := F)) V)))))))))) x0 x1 x2 x3 t_v74 t_v75 t_v76 t_v77

/-- On every device, for any float values, from any memory with zero counters: every weakly fair execution of the
    reference terminates with its result at the last stage read at the arguments, and the arguments unchanged. -/
theorem ref_run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v80) = val_main_v80 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v80).trans (after_ops_v80 (launchContents m c) _ _ _ _ rfl rfl rfl rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq ValueP.scopedRefs_eq ValueP.scopedSems_eq defs main (fun _ => ValueP.ops) ValueP.main_eq (fun _ => ValueP.ops_sub) m ρ)

end Cert.ReferenceIdeal.RefRunV

end
-- ==== Proof.LibColumnSum.lean ====
/-
  GENERAL LEMMAS: a column `[a, 1]` summed along its first axis into `[1]` — what `sum(x, axis=0, keepdims=True)`
  of a column becomes in a vector program before the sum is cast back to `[1, 1]` — read at an index given by
  coordinates, and a sum over the indices of a one-axis array written over the coordinate.
  • `multiReduction_add_axis0_col_apply`: the sum of an `[a, 1]` column from the zero word, at its one index, is the sum
    of the column's entries;
  • `sum_idx1`: the sum over every index of an `[n]` array is the sum over `Fin n` of the array at `ix1`.
-/
import Idealize.ShloMosaic.Lib.ValueIdx
import Idealize.ShloMosaic.Lib.Pipeline.Value
import Idealize.ShloMosaic.PureOps.Ideal.Laws

noncomputable section

open scoped BigOperators

namespace Idealize.ShloMosaic.ValueIdx

open Idealize.ShloMosaic

/-- The sum along the first axis of an `[a, 1]` column of extended reals, accumulated from the zero word: at its one
    index it is the sum of the column's entries. -/
theorem multiReduction_add_axis0_col_apply {a : ℕ} (src : FVec Ideal ⟨2, ![a, 1]⟩ .f32)
    (h : (⟨2, ![a, 1]⟩ : Shape).Reduces [0] ⟨1, ![1]⟩) (hφ : FKind.Formats .f32)
    (hacc : (0x00000000#32 : BitVec 32) = FKind.add.neutral .f32 hφ) (u : Fin 1) :
    multiReduction .add [0] ⟨1, ![1]⟩ src 0x00000000#32 h hφ hacc (ix1 u) = ∑ k : Fin a, src (ix2 k (0 : Fin 1)) := by
  refine (Ideal.multiReduction_add_single src 0x00000000#32 h hφ hacc (ix1 u)).trans ?_
  refine Finset.sum_congr rfl fun k _ => congrArg src ?_
  funext c
  match c with
  | ⟨0, _⟩ => exact Fin.ext rfl
  | ⟨1, _⟩ => exact Fin.ext (by show u.val = 0; omega)

/-- The sum over every index of a one-axis array is the sum over its coordinate. -/
theorem sum_idx1 {M : Type*} [AddCommMonoid M] {n : ℕ} (f : (⟨1, ![n]⟩ : Shape).Idx → M) :
    ∑ j, f j = ∑ a : Fin n, f (ix1 a) :=
  Fintype.sum_equiv ⟨fun j => j 0, ix1, fun j => (eq_ix1 j).symm, fun _ => rfl⟩ _ _ fun j => congrArg f (eq_ix1 j)

end Idealize.ShloMosaic.ValueIdx

end
-- ==== Proof.KerOps.lean ====
/-
  One prediction step of the kernel's body on a block of eight rows, read by coordinates, for any number `n` of
  positions. The step forms the masked context `c · mask`, the 65 logits of each (row, position) — the positive score
  Σ_e (c · mask) · base joined, along the last axis, with the 64 scores Σ_e (c · mask) · neg of a batched product —,
  shifts them by the row maximum, takes the logarithm of the sum of the exponentials, negates the first log-softmax
  entry and sums it over the positions and then over the eight rows. Each lemma reads one of these stages at an index.
-/
import Idealize.ShloMosaic.PureOps.Ideal.Laws
import Idealize.ShloMosaic.Lib.ValueIdx
import Idealize.ShloMosaic.Lib.Pipeline.Value
import Idealize.ShloMosaic.Lib.ValueLayout
import proofs.«132647_j30640296690406_2_alg».proof.Proof.Spec
import proofs.«132647_j30640296690406_2_alg».proof.Proof.LibRank3
import proofs.«132647_j30640296690406_2_alg».proof.Proof.LibConcatLast
import proofs.«132647_j30640296690406_2_alg».proof.Proof.LibColumnSum

noncomputable section

open scoped BigOperators

namespace Cert.CPC.Ker

open Idealize.ShloMosaic Idealize.ShloMosaic.ValueIdx Cert.CPC

variable {α : Type}

/-- An `[a, b, 1]` array cast to `[a, b]` reads, at `(i, j)`, the operand at `(i, j, 0)`. -/
theorem cast_ab1_ab {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    omega)

/-- The leading `m` entries of the last axis of an `[a, b, c]` array: at `(i, j, k)` the operand at `(i, j, k)`. -/
theorem slice3_last0 {a b c m : ℕ} (X : (⟨3, ![a, b, c]⟩ : Shape).Idx → α)
    (h : (⟨3, ![a, b, c]⟩ : Shape).Slices ![0, 0, 0] ⟨3, ![a, b, m]⟩) (i : Fin a) (j : Fin b) (k : Fin m) (k' : Fin c)
    (hk : k'.val = k.val) :
    extractStridedSlice ⟨3, ![a, b, m]⟩ ![0, 0, 0] X h (ix3 i j k) = X (ix3 i j k') :=
  extractStridedSlice_apply _ _ _ _ _ (fun ax => by
    match ax with
    | ⟨0, _⟩ => exact (Nat.zero_add _).symm
    | ⟨1, _⟩ => exact (Nat.zero_add _).symm
    | ⟨2, _⟩ => exact hk.trans (Nat.zero_add _).symm)

/-- The masked context at `(b, t, e)`: the context entry times the mask of `(b, t)`. -/
theorem masked_apply {n : ℕ} (c : FVec Ideal ⟨3, ![8, n, 128]⟩ .bf16) (mk : FVec Ideal ⟨2, ![8, n]⟩ .f32)
    (hb : FTy.bf16.bits < FTy.f32.bits) (hsc : (⟨2, ![8, n]⟩ : Shape).ShapeCasts ⟨3, ![8, n, 1]⟩)
    (hbc : (⟨3, ![8, n, 1]⟩ : Shape).Broadcasts ⟨3, ![8, n, 128]⟩) (b : Fin 8) (t : Fin n) (e : Fin 128) :
    mulf (extf .f32 c hb) (broadcastTo ⟨3, ![8, n, 128]⟩ (shapeCast ⟨3, ![8, n, 1]⟩ mk hsc) hbc) (ix3 b t e)
      = c (ix3 b t e) * mk (ix2 b t) := by
  show c (ix3 b t e) * broadcastTo ⟨3, ![8, n, 128]⟩ (shapeCast ⟨3, ![8, n, 1]⟩ mk hsc) hbc (ix3 b t e) = _
  rw [broadcastTo_ab1_abc_apply _ hbc b t e, shapeCast_ab_ab1_apply _ hsc b t 0]

/-- The 65 logits of `(b, t)`: entry 0 is the positive score, entry `1 + q` the score against negative sample `q`. -/
theorem logits_apply {n : ℕ} (c bv : FVec Ideal ⟨3, ![8, n, 128]⟩ .bf16) (mk : FVec Ideal ⟨2, ![8, n]⟩ .f32)
    (neg : FVec Ideal ⟨3, ![8, 64, 128]⟩ .bf16)
    (D : DotDims ⟨3, ![8, n, 128]⟩ ⟨3, ![8, 64, 128]⟩ ⟨3, ![8, n, 64]⟩)
    (hlc : D.lhsContracting = [2]) (hrc : D.rhsContracting = [2]) (hln : D.lhsNonContracting = [1])
    (hrn : D.rhsNonContracting = [1]) (hlb : D.lhsBatch = [0]) (hrb : D.rhsBatch = [0])
    (hb1 hb2 : FTy.bf16.bits < FTy.f32.bits) (hb3 : FTy.bf16.bits < FTy.f32.bits)
    (hsc : (⟨2, ![8, n]⟩ : Shape).ShapeCasts ⟨3, ![8, n, 1]⟩)
    (hbc : (⟨3, ![8, n, 1]⟩ : Shape).Broadcasts ⟨3, ![8, n, 128]⟩)
    (hr : (⟨3, ![8, n, 128]⟩ : Shape).Reduces [2] ⟨2, ![8, n]⟩) (hφ : FKind.Formats .f32)
    (hacc : (0x00000000#32 : BitVec 32) = 0x00000000#32)
    (hsc2 : (⟨2, ![8, n]⟩ : Shape).ShapeCasts ⟨3, ![8, n, 1]⟩)
    (hcat : Shape.Concatenates [(⟨3, ![8, n, 1]⟩ : Shape), ⟨3, ![8, n, 64]⟩] ⟨3, ![8, n, 65]⟩ (2 : Fin 3))
    (b : Fin 8) (t : Fin n) (j : Fin 65) :
    concatenate ⟨3, ![8, n, 65]⟩ (2 : Fin 3)
        [⟨⟨3, ![8, n, 1]⟩, shapeCast ⟨3, ![8, n, 1]⟩ (multiReduction .add [2] ⟨2, ![8, n]⟩
            (mulf (mulf (extf .f32 c hb1) (broadcastTo ⟨3, ![8, n, 128]⟩ (shapeCast ⟨3, ![8, n, 1]⟩ mk hsc) hbc)) (extf .f32 bv hb2))
            0x00000000#32 hr hφ hacc) hsc2⟩,
         ⟨⟨3, ![8, n, 64]⟩, matmul D none (truncf .bf16 (mulf (extf .f32 c hb1) (broadcastTo ⟨3, ![8, n, 128]⟩ (shapeCast ⟨3, ![8, n, 1]⟩ mk hsc) hbc)) hb3)
            neg (constant (F := Ideal) ⟨3, ![8, n, 64]⟩ .f32 0x00000000#32)⟩] hcat (ix3 b t j)
      = if j.val = 0 then ∑ e : Fin 128, (c (ix3 b t e) * mk (ix2 b t)) * bv (ix3 b t e)
        else ∑ e : Fin 128, (c (ix3 b t e) * mk (ix2 b t)) * neg (ix3 b ⟨j.val - 1, by have := j.isLt; omega⟩ e) := by
  refine (ConcatLast.last2_apply _ _ hcat rfl b t j).trans ?_
  by_cases hj : j.val = 0
  · rw [dif_pos (by omega), if_pos hj]
    refine (shapeCast_ab_ab1_apply _ hsc2 b t _).trans ?_
    refine (sum_axis2_of3 _ hr hφ hacc b t).trans ?_
    refine Finset.sum_congr rfl fun e _ => ?_
    show mulf (extf .f32 c hb1) (broadcastTo ⟨3, ![8, n, 128]⟩ (shapeCast ⟨3, ![8, n, 1]⟩ mk hsc) hbc) (ix3 b t e) * bv (ix3 b t e) = _
    rw [masked_apply c mk hb1 hsc hbc b t e]
  · rw [dif_neg (by omega), if_neg hj]
    refine (BatchRhsTDot.matmul_zero_ix3 D hlc hrc hln hrn hlb hrb none _ neg b t ⟨j.val - 1, by have := j.isLt; omega⟩).trans ?_
    refine Finset.sum_congr rfl fun e _ => ?_
    show mulf (extf .f32 c hb1) (broadcastTo ⟨3, ![8, n, 128]⟩ (shapeCast ⟨3, ![8, n, 1]⟩ mk hsc) hbc) (ix3 b t e) * neg (ix3 b ⟨j.val - 1, _⟩ e) = _
    rw [masked_apply c mk hb1 hsc hbc b t e]

/-- The logits less their row maximum, at `(b, t, j)`. -/
theorem shifted_apply {n : ℕ} (L : FVec Ideal ⟨3, ![8, n, 65]⟩ .f32)
    (hr : (⟨3, ![8, n, 65]⟩ : Shape).Reduces [2] ⟨2, ![8, n]⟩) (hφ : FKind.Formats .f32)
    (hacc : (0xFF800000#32 : BitVec 32) = 0xFF800000#32)
    (hsc : (⟨2, ![8, n]⟩ : Shape).ShapeCasts ⟨3, ![8, n, 1]⟩)
    (hbc : (⟨3, ![8, n, 1]⟩ : Shape).Broadcasts ⟨3, ![8, n, 65]⟩) (b : Fin 8) (t : Fin n) (j : Fin 65) :
    subf L (broadcastTo ⟨3, ![8, n, 65]⟩ (shapeCast ⟨3, ![8, n, 1]⟩
        (maximumf (broadcast ⟨2, ![8, n]⟩ (Scalar.ofBits (F := Ideal) .f32 0xFF800000#32))
          (multiReduction .maximumf [2] ⟨2, ![8, n]⟩ L 0xFF800000#32 hr hφ hacc)) hsc) hbc) (ix3 b t j)
      = L (ix3 b t j) - rowMax (fun k => L (ix3 b t k)) := by
  show L (ix3 b t j) - broadcastTo ⟨3, ![8, n, 65]⟩ _ hbc (ix3 b t j) = _
  rw [broadcastTo_ab1_abc_apply _ hbc b t j, shapeCast_ab_ab1_apply _ hsc b t 0]
  show L (ix3 b t j) - max (Ideal.ofBits .f32 0xFF800000#32) (multiReduction .maximumf [2] ⟨2, ![8, n]⟩ L 0xFF800000#32 hr hφ hacc (ix2 b t)) = _
  rw [max_axis2_of3 L hr hφ hacc b t]
  rfl

/-- The logarithm of the sum of the exponentials of a row, repeated along the row, at `(b, t, j)`. -/
theorem lse_apply {n : ℕ} (S : FVec Ideal ⟨3, ![8, n, 65]⟩ .f32)
    (hr : (⟨3, ![8, n, 65]⟩ : Shape).Reduces [2] ⟨2, ![8, n]⟩) (hφ : FKind.Formats .f32)
    (hacc : (0x00000000#32 : BitVec 32) = 0x00000000#32)
    (hsc : (⟨2, ![8, n]⟩ : Shape).ShapeCasts ⟨3, ![8, n, 1]⟩)
    (hbc : (⟨3, ![8, n, 1]⟩ : Shape).Broadcasts ⟨3, ![8, n, 65]⟩) (b : Fin 8) (t : Fin n) (j : Fin 65) :
    broadcastTo ⟨3, ![8, n, 65]⟩ (log (shapeCast ⟨3, ![8, n, 1]⟩
        (multiReduction .add [2] ⟨2, ![8, n]⟩ (exp S) 0x00000000#32 hr hφ hacc) hsc)) hbc (ix3 b t j)
      = Ideal.log (∑ k : Fin 65, Ideal.exp (S (ix3 b t k))) := by
  rw [broadcastTo_ab1_abc_apply _ hbc b t j]
  show Ideal.log (shapeCast ⟨3, ![8, n, 1]⟩ _ hsc (ix3 b t (0 : Fin 1))) = _
  rw [shapeCast_ab_ab1_apply _ hsc b t 0, sum_axis2_of3 _ hr hφ hacc b t]
  rfl

/-- The negated first log-softmax entries of row `b`, summed over the positions (kept as a column). -/
theorem negrow_apply {n : ℕ} (S Z : FVec Ideal ⟨3, ![8, n, 65]⟩ .f32)
    (hsl : (⟨3, ![8, n, 65]⟩ : Shape).Slices ![0, 0, 0] ⟨3, ![8, n, 1]⟩)
    (hsc : (⟨3, ![8, n, 1]⟩ : Shape).ShapeCasts ⟨2, ![8, n]⟩)
    (hr : (⟨2, ![8, n]⟩ : Shape).Reduces [1] ⟨1, ![8]⟩) (hφ : FKind.Formats .f32)
    (hacc : (0x00000000#32 : BitVec 32) = 0x00000000#32)
    (hsc2 : (⟨1, ![8]⟩ : Shape).ShapeCasts ⟨2, ![8, 1]⟩) (b : Fin 8) :
    shapeCast ⟨2, ![8, 1]⟩ (multiReduction .add [1] ⟨1, ![8]⟩
        (subf (broadcast ⟨2, ![8, n]⟩ (Scalar.ofBits (F := Ideal) .f32 0x00000000#32))
          (shapeCast ⟨2, ![8, n]⟩ (extractStridedSlice ⟨3, ![8, n, 1]⟩ ![0, 0, 0] (subf S Z) hsl) hsc))
        0x00000000#32 hr hφ hacc) hsc2 (ix2 b (0 : Fin 1))
      = ∑ t : Fin n, (zw - (S (ix3 b t (0 : Fin 65)) - Z (ix3 b t (0 : Fin 65)))) := by
  rw [col_of_vec _ hsc2 b 0, sum_axis1_of2 _ hr hφ hacc b]
  refine Finset.sum_congr rfl fun t _ => ?_
  show zw - shapeCast ⟨2, ![8, n]⟩ _ hsc (ix2 b t) = _
  rw [cast_ab1_ab _ hsc b t, slice3_last0 _ hsl b t (0 : Fin 1) (0 : Fin 65) rfl]
  rfl

/-- A row's negated first log-softmax entries summed over the positions, from the logits: the three stages in one. -/
theorem negrow_lsm_apply {n : ℕ} (L : FVec Ideal ⟨3, ![8, n, 65]⟩ .f32)
    (hrm : (⟨3, ![8, n, 65]⟩ : Shape).Reduces [2] ⟨2, ![8, n]⟩) (hφm : FKind.Formats .f32)
    (haccm : (0xFF800000#32 : BitVec 32) = 0xFF800000#32)
    (hscm : (⟨2, ![8, n]⟩ : Shape).ShapeCasts ⟨3, ![8, n, 1]⟩)
    (hbcm : (⟨3, ![8, n, 1]⟩ : Shape).Broadcasts ⟨3, ![8, n, 65]⟩)
    (hrs : (⟨3, ![8, n, 65]⟩ : Shape).Reduces [2] ⟨2, ![8, n]⟩) (hφs : FKind.Formats .f32)
    (haccs : (0x00000000#32 : BitVec 32) = 0x00000000#32)
    (hscs : (⟨2, ![8, n]⟩ : Shape).ShapeCasts ⟨3, ![8, n, 1]⟩)
    (hbcs : (⟨3, ![8, n, 1]⟩ : Shape).Broadcasts ⟨3, ![8, n, 65]⟩)
    (hsl : (⟨3, ![8, n, 65]⟩ : Shape).Slices ![0, 0, 0] ⟨3, ![8, n, 1]⟩)
    (hsc : (⟨3, ![8, n, 1]⟩ : Shape).ShapeCasts ⟨2, ![8, n]⟩)
    (hr : (⟨2, ![8, n]⟩ : Shape).Reduces [1] ⟨1, ![8]⟩) (hφ : FKind.Formats .f32)
    (hacc : (0x00000000#32 : BitVec 32) = 0x00000000#32)
    (hsc2 : (⟨1, ![8]⟩ : Shape).ShapeCasts ⟨2, ![8, 1]⟩) (b : Fin 8) :
    shapeCast ⟨2, ![8, 1]⟩ (multiReduction .add [1] ⟨1, ![8]⟩
        (subf (broadcast ⟨2, ![8, n]⟩ (Scalar.ofBits (F := Ideal) .f32 0x00000000#32))
          (shapeCast ⟨2, ![8, n]⟩ (extractStridedSlice ⟨3, ![8, n, 1]⟩ ![0, 0, 0]
            (subf (subf L (broadcastTo ⟨3, ![8, n, 65]⟩ (shapeCast ⟨3, ![8, n, 1]⟩
              (maximumf (broadcast ⟨2, ![8, n]⟩ (Scalar.ofBits (F := Ideal) .f32 0xFF800000#32))
                (multiReduction .maximumf [2] ⟨2, ![8, n]⟩ L 0xFF800000#32 hrm hφm haccm)) hscm) hbcm))
              (broadcastTo ⟨3, ![8, n, 65]⟩ (log (shapeCast ⟨3, ![8, n, 1]⟩
                (multiReduction .add [2] ⟨2, ![8, n]⟩ (exp (subf L (broadcastTo ⟨3, ![8, n, 65]⟩ (shapeCast ⟨3, ![8, n, 1]⟩
              (maximumf (broadcast ⟨2, ![8, n]⟩ (Scalar.ofBits (F := Ideal) .f32 0xFF800000#32))
                (multiReduction .maximumf [2] ⟨2, ![8, n]⟩ L 0xFF800000#32 hrm hφm haccm)) hscm) hbcm))) 0x00000000#32 hrs hφs haccs) hscs)) hbcs)) hsl) hsc))
        0x00000000#32 hr hφ hacc) hsc2 (ix2 b (0 : Fin 1))
      = ∑ t : Fin n, (zw - lp0 (fun k => L (ix3 b t k))) := by
  rw [negrow_apply _ _ hsl hsc hr hφ hacc hsc2 b]
  refine Finset.sum_congr rfl fun t _ => ?_
  rw [lse_apply _ hrs hφs haccs hscs hbcs b t 0]
  simp only [shifted_apply L hrm hφm haccm hscm hbcm b t]
  rfl

/-- The column of eight row sums added up. -/
theorem tot_apply (Y : FVec Ideal ⟨2, ![8, 1]⟩ .f32)
    (hr : (⟨2, ![8, 1]⟩ : Shape).Reduces [0] ⟨1, ![1]⟩) (hφ : FKind.Formats .f32)
    (hacc : (0x00000000#32 : BitVec 32) = 0x00000000#32)
    (hsc : (⟨1, ![1]⟩ : Shape).ShapeCasts ⟨2, ![1, 1]⟩) :
    shapeCast ⟨2, ![1, 1]⟩ (multiReduction .add [0] ⟨1, ![1]⟩ Y 0x00000000#32 hr hφ hacc) hsc (ix2 (0 : Fin 1) (0 : Fin 1))
      = ∑ b : Fin 8, Y (ix2 b (0 : Fin 1)) := by
  rw [col_of_vec _ hsc 0 0]
  exact multiReduction_add_axis0_col_apply Y hr hφ hacc 0

end Cert.CPC.Ker

end
-- ==== Proof.LibConcatCols.lean ====
/-
  Blocks laid side by side (a concatenation of rank-2 arrays along the second axis) read by coordinates: two, three
  and four blocks of any widths, and a family of one-column blocks.
-/
import Idealize.ShloMosaic.Lib.ValueIdx
import Idealize.ShloMosaic.Lib.Pipeline.Value

noncomputable section

namespace Idealize.ShloMosaic.ConcatCols

open Idealize.ShloMosaic Idealize.ShloMosaic.ValueIdx

variable {α : Type}

/-- Four blocks side by side, read at `(r, j)`: the block whose column span holds `j`. -/
theorem cols4_apply {n a b c d t : Nat} (x1 : (⟨2, ![n, a]⟩ : Shape).Idx → α) (x2 : (⟨2, ![n, b]⟩ : Shape).Idx → α) (x3 : (⟨2, ![n, c]⟩ : Shape).Idx → α) (x4 : (⟨2, ![n, d]⟩ : Shape).Idx → α)
    (h : Shape.Concatenates [(⟨2, ![n, a]⟩ : Shape), ⟨2, ![n, b]⟩, ⟨2, ![n, c]⟩, ⟨2, ![n, d]⟩] ⟨2, ![n, t]⟩ (1 : Fin 2))
    (ht : t = a + b + c + d) (r : Fin n) (j : Fin t) :
    concatenate ⟨2, ![n, t]⟩ (1 : Fin 2) [⟨⟨2, ![n, a]⟩, x1⟩, ⟨⟨2, ![n, b]⟩, x2⟩, ⟨⟨2, ![n, c]⟩, x3⟩, ⟨⟨2, ![n, d]⟩, x4⟩] h (ix2 r j)
      = if h1 : j.val < a then x1 (ix2 r ⟨j.val, h1⟩)
        else if h2 : j.val < a + b then x2 (ix2 r ⟨j.val - (a), by have := j.isLt; omega⟩)
        else if h3 : j.val < a + b + c then x3 (ix2 r ⟨j.val - (a + b), by have := j.isLt; omega⟩)
        else x4 (ix2 r ⟨j.val - (a + b + c), by have := j.isLt; omega⟩) := by
  have hj := j.isLt
  split
  · rename_i hc0
    refine concatenate_apply_piece (t := ⟨2, ![n, t]⟩) (1 : Fin 2) [⟨⟨2, ![n, a]⟩, x1⟩, ⟨⟨2, ![n, b]⟩, x2⟩, ⟨⟨2, ![n, c]⟩, x3⟩, ⟨⟨2, ![n, d]⟩, x4⟩] h (ix2 r j) 0 (by show 0 < 4; omega) _ x1 rfl rfl (0) rfl (ix2 r ⟨j.val, by omega⟩) (fun b hb => ?_) (by show (0) + (j.val) = j.val; omega)
    match b with
    | ⟨0, _⟩ => rfl
    | ⟨1, _⟩ => exact absurd rfl hb
  · rename_i hc0
    split
    · rename_i hc1
      refine concatenate_apply_piece (t := ⟨2, ![n, t]⟩) (1 : Fin 2) [⟨⟨2, ![n, a]⟩, x1⟩, ⟨⟨2, ![n, b]⟩, x2⟩, ⟨⟨2, ![n, c]⟩, x3⟩, ⟨⟨2, ![n, d]⟩, x4⟩] h (ix2 r j) 1 (by show 1 < 4; omega) _ x2 rfl rfl (a) rfl (ix2 r ⟨j.val - (a), by omega⟩) (fun b hb => ?_) (by show (a) + (j.val - (a)) = j.val; omega)
      match b with
      | ⟨0, _⟩ => rfl
      | ⟨1, _⟩ => exact absurd rfl hb
    · rename_i hc1
      split
      · rename_i hc2
        refine concatenate_apply_piece (t := ⟨2, ![n, t]⟩) (1 : Fin 2) [⟨⟨2, ![n, a]⟩, x1⟩, ⟨⟨2, ![n, b]⟩, x2⟩, ⟨⟨2, ![n, c]⟩, x3⟩, ⟨⟨2, ![n, d]⟩, x4⟩] h (ix2 r j) 2 (by show 2 < 4; omega) _ x3 rfl rfl (a + b) rfl (ix2 r ⟨j.val - (a + b), by omega⟩) (fun b hb => ?_) (by show (a + b) + (j.val - (a + b)) = j.val; omega)
        match b with
        | ⟨0, _⟩ => rfl
        | ⟨1, _⟩ => exact absurd rfl hb
      · rename_i hc2
        refine concatenate_apply_piece (t := ⟨2, ![n, t]⟩) (1 : Fin 2) [⟨⟨2, ![n, a]⟩, x1⟩, ⟨⟨2, ![n, b]⟩, x2⟩, ⟨⟨2, ![n, c]⟩, x3⟩, ⟨⟨2, ![n, d]⟩, x4⟩] h (ix2 r j) 3 (by show 3 < 4; omega) _ x4 rfl rfl (a + (b + c)) rfl (ix2 r ⟨j.val - (a + b + c), by omega⟩) (fun b hb => ?_) (by show (a + (b + c)) + (j.val - (a + b + c)) = j.val; omega)
        match b with
        | ⟨0, _⟩ => rfl
        | ⟨1, _⟩ => exact absurd rfl hb

/-- Three blocks side by side, read at `(r, j)`. -/
theorem cols3_apply {n a b c t : Nat} (x1 : (⟨2, ![n, a]⟩ : Shape).Idx → α) (x2 : (⟨2, ![n, b]⟩ : Shape).Idx → α) (x3 : (⟨2, ![n, c]⟩ : Shape).Idx → α)
    (h : Shape.Concatenates [(⟨2, ![n, a]⟩ : Shape), ⟨2, ![n, b]⟩, ⟨2, ![n, c]⟩] ⟨2, ![n, t]⟩ (1 : Fin 2))
    (ht : t = a + b + c) (r : Fin n) (j : Fin t) :
    concatenate ⟨2, ![n, t]⟩ (1 : Fin 2) [⟨⟨2, ![n, a]⟩, x1⟩, ⟨⟨2, ![n, b]⟩, x2⟩, ⟨⟨2, ![n, c]⟩, x3⟩] h (ix2 r j)
      = if h1 : j.val < a then x1 (ix2 r ⟨j.val, h1⟩)
        else if h2 : j.val < a + b then x2 (ix2 r ⟨j.val - (a), by have := j.isLt; omega⟩)
        else x3 (ix2 r ⟨j.val - (a + b), by have := j.isLt; omega⟩) := by
  have hj := j.isLt
  split
  · rename_i hc0
    refine concatenate_apply_piece (t := ⟨2, ![n, t]⟩) (1 : Fin 2) [⟨⟨2, ![n, a]⟩, x1⟩, ⟨⟨2, ![n, b]⟩, x2⟩, ⟨⟨2, ![n, c]⟩, x3⟩] h (ix2 r j) 0 (by show 0 < 3; omega) _ x1 rfl rfl (0) rfl (ix2 r ⟨j.val, by omega⟩) (fun b hb => ?_) (by show (0) + (j.val) = j.val; omega)
    match b with
    | ⟨0, _⟩ => rfl
    | ⟨1, _⟩ => exact absurd rfl hb
  · rename_i hc0
    split
    · rename_i hc1
      refine concatenate_apply_piece (t := ⟨2, ![n, t]⟩) (1 : Fin 2) [⟨⟨2, ![n, a]⟩, x1⟩, ⟨⟨2, ![n, b]⟩, x2⟩, ⟨⟨2, ![n, c]⟩, x3⟩] h (ix2 r j) 1 (by show 1 < 3; omega) _ x2 rfl rfl (a) rfl (ix2 r ⟨j.val - (a), by omega⟩) (fun b hb => ?_) (by show (a) + (j.val - (a)) = j.val; omega)
      match b with
      | ⟨0, _⟩ => rfl
      | ⟨1, _⟩ => exact absurd rfl hb
    · rename_i hc1
      refine concatenate_apply_piece (t := ⟨2, ![n, t]⟩) (1 : Fin 2) [⟨⟨2, ![n, a]⟩, x1⟩, ⟨⟨2, ![n, b]⟩, x2⟩, ⟨⟨2, ![n, c]⟩, x3⟩] h (ix2 r j) 2 (by show 2 < 3; omega) _ x3 rfl rfl (a + b) rfl (ix2 r ⟨j.val - (a + b), by omega⟩) (fun b hb => ?_) (by show (a + b) + (j.val - (a + b)) = j.val; omega)
      match b with
      | ⟨0, _⟩ => rfl
      | ⟨1, _⟩ => exact absurd rfl hb

/-- Two blocks side by side, read at `(r, j)`. -/
theorem cols2_apply {n a b t : Nat} (x1 : (⟨2, ![n, a]⟩ : Shape).Idx → α) (x2 : (⟨2, ![n, b]⟩ : Shape).Idx → α)
    (h : Shape.Concatenates [(⟨2, ![n, a]⟩ : Shape), ⟨2, ![n, b]⟩] ⟨2, ![n, t]⟩ (1 : Fin 2))
    (ht : t = a + b) (r : Fin n) (j : Fin t) :
    concatenate ⟨2, ![n, t]⟩ (1 : Fin 2) [⟨⟨2, ![n, a]⟩, x1⟩, ⟨⟨2, ![n, b]⟩, x2⟩] h (ix2 r j)
      = if h1 : j.val < a then x1 (ix2 r ⟨j.val, h1⟩)
        else x2 (ix2 r ⟨j.val - (a), by have := j.isLt; omega⟩) := by
  have hj := j.isLt
  split
  · rename_i hc0
    refine concatenate_apply_piece (t := ⟨2, ![n, t]⟩) (1 : Fin 2) [⟨⟨2, ![n, a]⟩, x1⟩, ⟨⟨2, ![n, b]⟩, x2⟩] h (ix2 r j) 0 (by show 0 < 2; omega) _ x1 rfl rfl (0) rfl (ix2 r ⟨j.val, by omega⟩) (fun b hb => ?_) (by show (0) + (j.val) = j.val; omega)
    match b with
    | ⟨0, _⟩ => rfl
    | ⟨1, _⟩ => exact absurd rfl hb
  · rename_i hc0
    refine concatenate_apply_piece (t := ⟨2, ![n, t]⟩) (1 : Fin 2) [⟨⟨2, ![n, a]⟩, x1⟩, ⟨⟨2, ![n, b]⟩, x2⟩] h (ix2 r j) 1 (by show 1 < 2; omega) _ x2 rfl rfl (a) rfl (ix2 r ⟨j.val - (a), by omega⟩) (fun b hb => ?_) (by show (a) + (j.val - (a)) = j.val; omega)
    match b with
    | ⟨0, _⟩ => rfl
    | ⟨1, _⟩ => exact absurd rfl hb

/-- `N` one-column blocks `[n,1]` side by side, given as a list built from a family: entry `(r, k)` is entry `r` of column `k`. -/
theorem unitCols_apply {n N : Nat} (f : Fin N → ((⟨2, ![n, 1]⟩ : Shape).Idx → α))
    (h : Shape.Concatenates ((List.ofFn fun k => (⟨⟨2, ![n, 1]⟩, f k⟩ : (s : Shape) × (s.Idx → α))).map (·.1)) ⟨2, ![n, N]⟩ (1 : Fin 2))
    (r : Fin n) (k : Fin N) :
    concatenate ⟨2, ![n, N]⟩ (1 : Fin 2) (List.ofFn fun k => (⟨⟨2, ![n, 1]⟩, f k⟩ : (s : Shape) × (s.Idx → α))) h (ix2 r k) = f k (ix2 r (0 : Fin 1)) := by
  refine concatenate_ofFn_unit_apply (t := ⟨2, ![n, N]⟩) (s₁ := ⟨2, ![n, 1]⟩) 1 f h rfl rfl (ix2 r k) k rfl
    (ix2 r (0 : Fin 1)) fun b hb => ?_
  match b with
  | ⟨0, _⟩ => rfl
  | ⟨1, _⟩ => exact absurd rfl hb

end Idealize.ShloMosaic.ConcatCols

end
-- ==== Proof.KerPay.lean ====
/-
  The body's pure values on one block of eight rows, read by coordinates over the vectors the body loads: the length
  mask, and each step's stages (shifted logits, logarithm of the sum of exponentials, negated row sums, block total).
-/
import proofs.«132647_j30640296690406_2_alg».proof.Proof.Gen.KernelIdeal.Skeleton
import proofs.«132647_j30640296690406_2_alg».proof.Proof.KerOps
import proofs.«132647_j30640296690406_2_alg».proof.Proof.LibConcatCols

noncomputable section

open scoped BigOperators

namespace Cert.KernelIdeal.KerPay

open Cert.KernelIdeal Cert.KernelIdeal.Gen Idealize.ShloMosaic Idealize.ShloMosaic.ValueIdx Cert.CPC Cert.CPC.Ker

/-- A one-bit word widened to 32 bits and read as a signed integer is the bit itself. -/
theorem bit_toInt (c : BitVec 1) : (((c.setWidth 32).toInt : ℝ) : EReal) = ((c.toNat : ℝ) : EReal) := by
  rcases BitVec.eq_zero_or_eq_one c with h | h <;> subst h <;> rfl

/-- The block's length mask at `(b, t)`: 1 if `t` is below row `b`'s length, else 0. -/
theorem mask_apply (v4 : Vec Ideal S8x1 .i32) (b : Fin 8) (t : Fin 512) :
    k0_pay3 (F := Ideal) v4 (ix2 b t) = msk (v4 (ix2 b (0 : Fin 1))) t.val := by
  unfold k0_pay3
  show FloatOps.sitofp (F := Ideal) .f32 ((IntOp.cmpi .slt (iota .tc S8x512 32 [1] iota_S8x512_d1_w32 (ix2 b t))
      (broadcastTo S8x512 (shapeCast S8x1 v4 shapeCasts_S8x1_S8x1) broadcasts_S8x1_S8x512 (ix2 b t))).setWidth 32) = _
  rw [iota_single_apply, bcast_col _ broadcasts_S8x1_S8x512 b t, shapeCast_self]
  exact bit_toInt _

/-- The row of 65 logits of `(b, t)` from block data: the context block `cv`, the shifted base block `bv`, the
    lengths `len` and the negative samples `neg` of the eight rows. -/
def blkRow (n : ℕ) (cv bv : Fin 8 → Fin n → Fin 128 → EReal) (len : Fin 8 → BitVec 32) (neg : Fin 8 → Fin 64 → Fin 128 → EReal)
    (b : Fin 8) (t : Fin n) (j : Fin 65) : EReal :=
  if j.val = 0 then ∑ e : Fin 128, (cv b t e * msk (len b) t.val) * bv b t e
  else ∑ e : Fin 128, (cv b t e * msk (len b) t.val) * neg b ⟨j.val - 1, by have := j.isLt; omega⟩ e

/-- The mask's leading `n` positions of row `b`, at `t`. -/
theorem mask_slice {n : ℕ} (v9 : FVec Ideal S8x512 .f32) (len : Fin 8 → BitVec 32)
    (hv9 : ∀ (b : Fin 8) (t : Fin 512), v9 (ix2 b t) = msk (len b) t.val)
    (h : S8x512.Slices ![0, 0] ⟨2, ![8, n]⟩) (hn : n ≤ 512) (b : Fin 8) (t : Fin n) :
    extractStridedSlice ⟨2, ![8, n]⟩ ![0, 0] v9 h (ix2 b t) = msk (len b) t.val :=
  (slice2_axis1_apply 0 v9 h b t ⟨t.val, by have := t.isLt; omega⟩ (Nat.zero_add _).symm).trans (hv9 b _)

/-- The negative samples of the block, loaded and recast to their own shape. -/
theorem pay4_apply (v10 : Vec Ideal S8x64x128 .bf16) (b : Fin 8) (q : Fin 64) (e : Fin 128) :
    k0_pay4 (F := Ideal) v10 (ix3 b q e) = v10 (ix3 b q e) := by
  unfold k0_pay4
  rw [shapeCast_self]

/-- Step 1's logits less their row maximum. -/
theorem pay5_apply (v4 : Vec Ideal S8x1 .i32) (v10 : Vec Ideal S8x64x128 .bf16) (v12 : Vec Ideal S1x8x511x128 .bf16)
    (v19 : Vec Ideal S8x511x128 .bf16) (b : Fin 8) (t : Fin 511) (j : Fin 65) :
    k0_pay5 (F := Ideal) v4 v10 v12 v19 (ix3 b t j)
      = blkRow 511 (fun b t e => v12 (ix4 (0 : Fin 1) b t e)) (fun b t e => v19 (ix3 b t e)) (fun b => v4 (ix2 b (0 : Fin 1)))
          (fun b q e => v10 (ix3 b q e)) b t j
        - rowMax (blkRow 511 (fun b t e => v12 (ix4 (0 : Fin 1) b t e)) (fun b t e => v19 (ix3 b t e)) (fun b => v4 (ix2 b (0 : Fin 1)))
          (fun b q e => v10 (ix3 b q e)) b t) := by
  unfold k0_pay5
  refine (shifted_apply _ _ _ _ _ _ b t j).trans ?_
  simp only [logits_apply _ _ _ _ dot_S8x511x128_S8x64x128_S8x511x64_2_2_1_1_0_0 rfl rfl rfl rfl rfl rfl]
  have hm := fun (b : Fin 8) (t : Fin 511) =>
    mask_slice (k0_pay3 (F := Ideal) v4) (fun b => v4 (ix2 b (0 : Fin 1))) (mask_apply v4) slices_S8x512_o0_0_S8x511 (by norm_num) b t
  simp only [hm, shapeCast_1abc_abc_apply, shapeCast_self, pay4_apply]
  rfl

/-- Step 1's logarithm of the sum of the exponentials of the shifted logits. -/
theorem pay6_apply (v4 : Vec Ideal S8x1 .i32) (v10 : Vec Ideal S8x64x128 .bf16) (v12 : Vec Ideal S1x8x511x128 .bf16)
    (v19 : Vec Ideal S8x511x128 .bf16) (b : Fin 8) (t : Fin 511) (j : Fin 65) :
    k0_pay6 (F := Ideal) v4 v10 v12 v19 (ix3 b t j)
      = Ideal.log (∑ k : Fin 65, Ideal.exp (k0_pay5 (F := Ideal) v4 v10 v12 v19 (ix3 b t k))) := by
  unfold k0_pay6
  exact lse_apply _ _ _ _ _ _ b t j

/-- Step 1's block total from the shifted logits and the logarithms. -/
theorem pay7_apply (v33 v38 : FVec Ideal S8x511x65 .f32) :
    k0_pay7 (F := Ideal) v33 v38 (ix2 (0 : Fin 1) (0 : Fin 1))
      = ∑ b : Fin 8, ∑ t : Fin 511, (zw - (v33 (ix3 b t (0 : Fin 65)) - v38 (ix3 b t (0 : Fin 65)))) := by
  unfold k0_pay7
  refine (tot_apply _ _ _ _ _).trans ?_
  exact Finset.sum_congr rfl fun b _ => negrow_apply v33 v38 _ _ _ _ _ _ b

/-- Step 1's block total over the block's loaded vectors. -/
theorem step1_total (v4 : Vec Ideal S8x1 .i32) (v10 : Vec Ideal S8x64x128 .bf16) (v12 : Vec Ideal S1x8x511x128 .bf16)
    (v19 : Vec Ideal S8x511x128 .bf16) :
    k0_pay7 (F := Ideal) (k0_pay5 v4 v10 v12 v19) (k0_pay6 v4 v10 v12 v19) (ix2 (0 : Fin 1) (0 : Fin 1))
      = ∑ b : Fin 8, ∑ t : Fin 511, (zw - lp0 (blkRow 511 (fun b t e => v12 (ix4 (0 : Fin 1) b t e)) (fun b t e => v19 (ix3 b t e))
          (fun b => v4 (ix2 b (0 : Fin 1))) (fun b q e => v10 (ix3 b q e)) b t)) := by
  rw [pay7_apply]
  refine Finset.sum_congr rfl fun b _ => Finset.sum_congr rfl fun t _ => ?_
  rw [pay6_apply]
  simp only [pay5_apply]
  rfl

/-- Step 2's negated row sums, as a column. -/
theorem pay8_apply (v9 : FVec Ideal S8x512 .f32) (v11 : FVec Ideal S8x64x128 .bf16) (v48 : Vec Ideal S1x8x510x128 .bf16)
    (v55 : Vec Ideal S8x510x128 .bf16) (len : Fin 8 → BitVec 32) (neg : Fin 8 → Fin 64 → Fin 128 → EReal)
    (hv9 : ∀ (b : Fin 8) (t : Fin 512), v9 (ix2 b t) = msk (len b) t.val)
    (hv11 : ∀ (b : Fin 8) (q : Fin 64) (e : Fin 128), v11 (ix3 b q e) = neg b q e) (b : Fin 8) :
    k0_pay8 (F := Ideal) v9 v11 v48 v55 (ix2 b (0 : Fin 1))
      = ∑ t : Fin 510, (zw - lp0 (blkRow 510 (fun b t e => v48 (ix4 (0 : Fin 1) b t e)) (fun b t e => v55 (ix3 b t e)) len neg b t)) := by
  unfold k0_pay8
  refine (negrow_lsm_apply _ _ _ _ _ _ _ _ _ _ _ _ _ _ _ _ _ b).trans ?_
  refine Finset.sum_congr rfl fun t _ => ?_
  simp only [logits_apply _ _ _ _ dot_S8x510x128_S8x64x128_S8x510x64_2_2_1_1_0_0 rfl rfl rfl rfl rfl rfl]
  have hm := fun (b : Fin 8) (t : Fin 510) => mask_slice v9 len hv9 slices_S8x512_o0_0_S8x510 (by norm_num) b t
  simp only [hm, shapeCast_1abc_abc_apply, shapeCast_self, hv11]
  rfl

/-- Step 2's block total from the column of row sums. -/
theorem pay9_apply (v81 : FVec Ideal S8x1 .f32) :
    k0_pay9 (F := Ideal) v81 (ix2 (0 : Fin 1) (0 : Fin 1)) = ∑ b : Fin 8, v81 (ix2 b (0 : Fin 1)) := by
  unfold k0_pay9
  exact tot_apply _ _ _ _ _

/-- Step 3's block total. -/
theorem pay10_apply (v9 : FVec Ideal S8x512 .f32) (v11 : FVec Ideal S8x64x128 .bf16) (v84 : Vec Ideal S1x8x509x128 .bf16)
    (v91 : Vec Ideal S8x509x128 .bf16) (len : Fin 8 → BitVec 32) (neg : Fin 8 → Fin 64 → Fin 128 → EReal)
    (hv9 : ∀ (b : Fin 8) (t : Fin 512), v9 (ix2 b t) = msk (len b) t.val)
    (hv11 : ∀ (b : Fin 8) (q : Fin 64) (e : Fin 128), v11 (ix3 b q e) = neg b q e) :
    k0_pay10 (F := Ideal) v9 v11 v84 v91 (ix2 (0 : Fin 1) (0 : Fin 1))
      = ∑ b : Fin 8, ∑ t : Fin 509, (zw - lp0 (blkRow 509 (fun b t e => v84 (ix4 (0 : Fin 1) b t e)) (fun b t e => v91 (ix3 b t e)) len neg b t)) := by
  unfold k0_pay10
  refine (tot_apply _ _ _ _ _).trans ?_
  refine Finset.sum_congr rfl fun b _ => ?_
  refine (negrow_lsm_apply _ _ _ _ _ _ _ _ _ _ _ _ _ _ _ _ _ b).trans ?_
  refine Finset.sum_congr rfl fun t _ => ?_
  simp only [logits_apply _ _ _ _ dot_S8x509x128_S8x64x128_S8x509x64_2_2_1_1_0_0 rfl rfl rfl rfl rfl rfl]
  have hm := fun (b : Fin 8) (t : Fin 509) => mask_slice v9 len hv9 slices_S8x512_o0_0_S8x509 (by norm_num) b t
  simp only [hm, shapeCast_1abc_abc_apply, shapeCast_self, hv11]
  rfl

/-- Step 4's context block, recast: at `(b, t, e)` the loaded block at `(0, b, t, e)`. -/
theorem pay11_apply (v120 : Vec Ideal S1x8x508x128 .bf16) (b : Fin 8) (t : Fin 508) (e : Fin 128) :
    k0_pay11 (F := Ideal) v120 (ix3 b t e) = v120 (ix4 (0 : Fin 1) b t e) := by
  unfold k0_pay11
  exact shapeCast_1abc_abc_apply _ _ b t e

/-- The stored block, column 0: the carried value plus step 1's block total. -/
theorem pay1_apply0 (v9 : FVec Ideal S8x512 .f32) (v11 : FVec Ideal S8x64x128 .bf16) (v47 v83 v119 : FVec Ideal S1x1 .f32)
    (v121 : FVec Ideal S8x508x128 .bf16) (v127 : Vec Ideal S8x508x128 .bf16) (v157 : Vec Ideal S1x4 .f32) :
    k0_pay1 (F := Ideal) v9 v11 v47 v83 v119 v121 v127 v157 (ix2 (0 : Fin 1) (0 : Fin 4))
      = v157 (ix2 (0 : Fin 1) (0 : Fin 4)) + v47 (ix2 (0 : Fin 1) (0 : Fin 1)) := by
  unfold k0_pay1
  show shapeCast S1x4 v157 shapeCasts_S1x4_S1x4 (ix2 0 0) + concatenate S1x4 1 _ _ (ix2 0 0) = _
  rw [shapeCast_self]
  refine congrArg (fun x => v157 (ix2 (0 : Fin 1) (0 : Fin 4)) + x) ?_
  refine (ConcatCols.cols4_apply (n := 1) (a := 1) (b := 1) (c := 1) (d := 1) (t := 4) _ _ _ _ _ rfl (0 : Fin 1) (0 : Fin 4)).trans ?_
  rw [dif_pos (by decide)]
  rfl

/-- The stored block, column 1: the carried value plus step 2's block total. -/
theorem pay1_apply1 (v9 : FVec Ideal S8x512 .f32) (v11 : FVec Ideal S8x64x128 .bf16) (v47 v83 v119 : FVec Ideal S1x1 .f32)
    (v121 : FVec Ideal S8x508x128 .bf16) (v127 : Vec Ideal S8x508x128 .bf16) (v157 : Vec Ideal S1x4 .f32) :
    k0_pay1 (F := Ideal) v9 v11 v47 v83 v119 v121 v127 v157 (ix2 (0 : Fin 1) (1 : Fin 4))
      = v157 (ix2 (0 : Fin 1) (1 : Fin 4)) + v83 (ix2 (0 : Fin 1) (0 : Fin 1)) := by
  unfold k0_pay1
  show shapeCast S1x4 v157 shapeCasts_S1x4_S1x4 (ix2 0 1) + concatenate S1x4 1 _ _ (ix2 0 1) = _
  rw [shapeCast_self]
  refine congrArg (fun x => v157 (ix2 (0 : Fin 1) (1 : Fin 4)) + x) ?_
  refine (ConcatCols.cols4_apply (n := 1) (a := 1) (b := 1) (c := 1) (d := 1) (t := 4) _ _ _ _ _ rfl (0 : Fin 1) (1 : Fin 4)).trans ?_
  rw [dif_neg (by decide), dif_pos (by decide)]
  rfl

/-- The stored block, column 2: the carried value plus step 3's block total. -/
theorem pay1_apply2 (v9 : FVec Ideal S8x512 .f32) (v11 : FVec Ideal S8x64x128 .bf16) (v47 v83 v119 : FVec Ideal S1x1 .f32)
    (v121 : FVec Ideal S8x508x128 .bf16) (v127 : Vec Ideal S8x508x128 .bf16) (v157 : Vec Ideal S1x4 .f32) :
    k0_pay1 (F := Ideal) v9 v11 v47 v83 v119 v121 v127 v157 (ix2 (0 : Fin 1) (2 : Fin 4))
      = v157 (ix2 (0 : Fin 1) (2 : Fin 4)) + v119 (ix2 (0 : Fin 1) (0 : Fin 1)) := by
  unfold k0_pay1
  show shapeCast S1x4 v157 shapeCasts_S1x4_S1x4 (ix2 0 2) + concatenate S1x4 1 _ _ (ix2 0 2) = _
  rw [shapeCast_self]
  refine congrArg (fun x => v157 (ix2 (0 : Fin 1) (2 : Fin 4)) + x) ?_
  refine (ConcatCols.cols4_apply (n := 1) (a := 1) (b := 1) (c := 1) (d := 1) (t := 4) _ _ _ _ _ rfl (0 : Fin 1) (2 : Fin 4)).trans ?_
  rw [dif_neg (by decide), dif_neg (by decide), dif_pos (by decide)]
  rfl

/-- The stored block, column 3: the carried value plus step 4's block total. -/
theorem pay1_apply3 (v9 : FVec Ideal S8x512 .f32) (v11 : FVec Ideal S8x64x128 .bf16) (v47 v83 v119 : FVec Ideal S1x1 .f32)
    (v121 : FVec Ideal S8x508x128 .bf16) (v127 : Vec Ideal S8x508x128 .bf16) (v157 : Vec Ideal S1x4 .f32)
    (len : Fin 8 → BitVec 32) (neg : Fin 8 → Fin 64 → Fin 128 → EReal)
    (hv9 : ∀ (b : Fin 8) (t : Fin 512), v9 (ix2 b t) = msk (len b) t.val)
    (hv11 : ∀ (b : Fin 8) (q : Fin 64) (e : Fin 128), v11 (ix3 b q e) = neg b q e) :
    k0_pay1 (F := Ideal) v9 v11 v47 v83 v119 v121 v127 v157 (ix2 (0 : Fin 1) (3 : Fin 4))
      = v157 (ix2 (0 : Fin 1) (3 : Fin 4))
        + ∑ b : Fin 8, ∑ t : Fin 508, (zw - lp0 (blkRow 508 (fun b t e => v121 (ix3 b t e)) (fun b t e => v127 (ix3 b t e)) len neg b t)) := by
  unfold k0_pay1
  show shapeCast S1x4 v157 shapeCasts_S1x4_S1x4 (ix2 0 3) + concatenate S1x4 1 _ _ (ix2 0 3) = _
  rw [shapeCast_self]
  refine congrArg (fun x => v157 (ix2 (0 : Fin 1) (3 : Fin 4)) + x) ?_
  refine (ConcatCols.cols4_apply (n := 1) (a := 1) (b := 1) (c := 1) (d := 1) (t := 4) _ _ _ _ _ rfl (0 : Fin 1) (3 : Fin 4)).trans ?_
  rw [dif_neg (by decide), dif_neg (by decide), dif_neg (by decide)]
  refine (tot_apply _ _ _ _ _).trans ?_
  refine Finset.sum_congr rfl fun b _ => ?_
  refine (negrow_lsm_apply _ _ _ _ _ _ _ _ _ _ _ _ _ _ _ _ _ b).trans ?_
  refine Finset.sum_congr rfl fun t _ => ?_
  simp only [logits_apply _ _ _ _ dot_S8x508x128_S8x64x128_S8x508x64_2_2_1_1_0_0 rfl rfl rfl rfl rfl rfl]
  have hm := fun (b : Fin 8) (t : Fin 508) => mask_slice v9 len hv9 slices_S8x512_o0_0_S8x508 (by norm_num) b t
  simp only [hm, shapeCast_self, hv11]
  rfl

end Cert.KernelIdeal.KerPay

end
-- ==== Proof.KerBody.lean ====
/-
  What the body leaves in the output block at one grid point, as ONE function of the point's four input blocks (the
  context block `x0` [4, 8, 512, 128], the base block `x1` [8, 512, 128], the negative samples `x2` [8, 64, 128], the
  lengths `x3` [8, 1]) and of the value `prev` carried in the block: column `k` of the result is the carried entry
  plus step `k + 1`'s total over the block's eight rows — the context read at channel `k`, the base read `k + 1`
  positions later.
-/
import proofs.«132647_j30640296690406_2_alg».proof.Proof.KerPay
import Idealize.ShloMosaic.Lib.Pipeline.FrameBody

noncomputable section

open scoped BigOperators

namespace Cert.KernelIdeal.KerBody

open Cert.KernelIdeal Cert.KernelIdeal.Gen Idealize.ShloMosaic Idealize.ShloMosaic.ValueIdx Cert.CPC Cert.CPC.Ker Cert.KernelIdeal.KerPay

/-- A load through a unit-stride rectangle reads, at `y`, the contents at offset plus `y`. -/
theorem ld_apply {S : Shape} {e : EltTy} (X : S.Idx → Elt Ideal e) (off size : Fin S.rank → ℕ)
    (inb : ∀ a, off a + size a ≤ S.size a) (y : (Rect.unit (s := S) off size inb).shape.Idx) (k : S.Idx)
    (hk : ∀ a, (k a).val = off a + (y a).val) :
    View.ld (Val := Elt Ideal) X (Rect.unit off size inb) y = X k := by
  show X ((Rect.unit off size inb).idx y) = X k
  refine congrArg X (funext fun a => Fin.ext ?_)
  show off a + 1 * (y a).val = (k a).val
  rw [hk a, Nat.one_mul]

/-- The negated first log-softmax entries of a block's eight rows, summed over positions and rows. -/
def blkTot (n : ℕ) (cv bv : Fin 8 → Fin n → Fin 128 → EReal) (len : Fin 8 → BitVec 32) (neg : Fin 8 → Fin 64 → Fin 128 → EReal) : EReal :=
  ∑ b : Fin 8, ∑ t : Fin n, (zw - lp0 (blkRow n cv bv len neg b t))

/-- The block the body stores, from the input blocks and the carried value. -/
def bodyOut (x0 : Vec Ideal S4x8x512x128 .bf16) (x1 : Vec Ideal S8x512x128 .bf16) (x2 : Vec Ideal S8x64x128 .bf16)
    (x3 : Vec Ideal S8x1 .i32) (prev : Vec Ideal S1x4 .f32) : FVec Ideal S1x4 .f32 :=
  k0_pay1 (F := Ideal) (k0_pay3 x3) (k0_pay4 x2)
    (k0_pay7 (k0_pay5 x3 x2 (View.ld (Val := Elt Ideal) x0 (Rect.unit ![0, 0, 0, 0] S1x8x511x128.size inb_S4x8x512x128_S1x8x511x128_0_0_0_0)) (View.ld (Val := Elt Ideal) x1 (Rect.unit ![0, 1, 0] S8x511x128.size inb_S8x512x128_S8x511x128_0_1_0)))
      (k0_pay6 x3 x2 (View.ld (Val := Elt Ideal) x0 (Rect.unit ![0, 0, 0, 0] S1x8x511x128.size inb_S4x8x512x128_S1x8x511x128_0_0_0_0)) (View.ld (Val := Elt Ideal) x1 (Rect.unit ![0, 1, 0] S8x511x128.size inb_S8x512x128_S8x511x128_0_1_0))))
    (k0_pay9 (k0_pay8 (k0_pay3 x3) (k0_pay4 x2) (View.ld (Val := Elt Ideal) x0 (Rect.unit ![1, 0, 0, 0] S1x8x510x128.size inb_S4x8x512x128_S1x8x510x128_1_0_0_0)) (View.ld (Val := Elt Ideal) x1 (Rect.unit ![0, 2, 0] S8x510x128.size inb_S8x512x128_S8x510x128_0_2_0))))
    (k0_pay10 (k0_pay3 x3) (k0_pay4 x2) (View.ld (Val := Elt Ideal) x0 (Rect.unit ![2, 0, 0, 0] S1x8x509x128.size inb_S4x8x512x128_S1x8x509x128_2_0_0_0)) (View.ld (Val := Elt Ideal) x1 (Rect.unit ![0, 3, 0] S8x509x128.size inb_S8x512x128_S8x509x128_0_3_0)))
    (k0_pay11 (View.ld (Val := Elt Ideal) x0 (Rect.unit ![3, 0, 0, 0] S1x8x508x128.size inb_S4x8x512x128_S1x8x508x128_3_0_0_0)))
    (View.ld (Val := Elt Ideal) x1 (Rect.unit ![0, 4, 0] S8x508x128.size inb_S8x512x128_S8x508x128_0_4_0))
    prev

variable (x0 : Vec Ideal S4x8x512x128 .bf16) (x1 : Vec Ideal S8x512x128 .bf16) (x2 : Vec Ideal S8x64x128 .bf16)
  (x3 : Vec Ideal S8x1 .i32) (prev : Vec Ideal S1x4 .f32)

/-- Column 0: the carried entry plus step 1's block total. -/
theorem bodyOut_0 : bodyOut x0 x1 x2 x3 prev (ix2 (0 : Fin 1) (0 : Fin 4))
    = prev (ix2 (0 : Fin 1) (0 : Fin 4)) + blkTot 511 (fun b t e => x0 (ix4 (0 : Fin 4) b ⟨t.val, by have := t.isLt; omega⟩ e)) (fun b t e => x1 (ix3 b ⟨t.val + 1, by have := t.isLt; omega⟩ e)) (fun b => x3 (ix2 b (0 : Fin 1))) (fun b q e => x2 (ix3 b q e)) := by
  unfold bodyOut
  rw [pay1_apply0, step1_total]
  have h0 : ∀ (b : Fin 8) (t : Fin 511) (e : Fin 128), (View.ld (Val := Elt Ideal) x0 (Rect.unit ![0, 0, 0, 0] S1x8x511x128.size inb_S4x8x512x128_S1x8x511x128_0_0_0_0)) (ix4 (0 : Fin 1) b t e) = x0 (ix4 (0 : Fin 4) b ⟨t.val, by have := t.isLt; omega⟩ e) :=
    fun b t e => ld_apply x0 _ _ _ _ _ (fun a => by
      match a with
      | ⟨0, _⟩ => rfl
      | ⟨1, _⟩ => exact (Nat.zero_add _).symm
      | ⟨2, _⟩ => exact (Nat.zero_add _).symm
      | ⟨3, _⟩ => exact (Nat.zero_add _).symm)
  have h1 : ∀ (b : Fin 8) (t : Fin 511) (e : Fin 128), (View.ld (Val := Elt Ideal) x1 (Rect.unit ![0, 1, 0] S8x511x128.size inb_S8x512x128_S8x511x128_0_1_0)) (ix3 b t e) = x1 (ix3 b ⟨t.val + 1, by have := t.isLt; omega⟩ e) :=
    fun b t e => ld_apply x1 _ _ _ _ _ (fun a => by
      match a with
      | ⟨0, _⟩ => exact (Nat.zero_add _).symm
      | ⟨1, _⟩ => exact Nat.add_comm _ _
      | ⟨2, _⟩ => exact (Nat.zero_add _).symm)
  simp only [h0, h1]
  rfl

/-- Column 1: the carried entry plus step 2's block total. -/
theorem bodyOut_1 : bodyOut x0 x1 x2 x3 prev (ix2 (0 : Fin 1) (1 : Fin 4))
    = prev (ix2 (0 : Fin 1) (1 : Fin 4)) + blkTot 510 (fun b t e => x0 (ix4 (1 : Fin 4) b ⟨t.val, by have := t.isLt; omega⟩ e)) (fun b t e => x1 (ix3 b ⟨t.val + 2, by have := t.isLt; omega⟩ e)) (fun b => x3 (ix2 b (0 : Fin 1))) (fun b q e => x2 (ix3 b q e)) := by
  unfold bodyOut
  rw [pay1_apply1, pay9_apply]
  simp only [pay8_apply _ _ _ _ (fun b => x3 (ix2 b (0 : Fin 1))) (fun b q e => x2 (ix3 b q e)) (mask_apply x3) (pay4_apply x2)]
  have h0 : ∀ (b : Fin 8) (t : Fin 510) (e : Fin 128), (View.ld (Val := Elt Ideal) x0 (Rect.unit ![1, 0, 0, 0] S1x8x510x128.size inb_S4x8x512x128_S1x8x510x128_1_0_0_0)) (ix4 (0 : Fin 1) b t e) = x0 (ix4 (1 : Fin 4) b ⟨t.val, by have := t.isLt; omega⟩ e) :=
    fun b t e => ld_apply x0 _ _ _ _ _ (fun a => by
      match a with
      | ⟨0, _⟩ => rfl
      | ⟨1, _⟩ => exact (Nat.zero_add _).symm
      | ⟨2, _⟩ => exact (Nat.zero_add _).symm
      | ⟨3, _⟩ => exact (Nat.zero_add _).symm)
  have h1 : ∀ (b : Fin 8) (t : Fin 510) (e : Fin 128), (View.ld (Val := Elt Ideal) x1 (Rect.unit ![0, 2, 0] S8x510x128.size inb_S8x512x128_S8x510x128_0_2_0)) (ix3 b t e) = x1 (ix3 b ⟨t.val + 2, by have := t.isLt; omega⟩ e) :=
    fun b t e => ld_apply x1 _ _ _ _ _ (fun a => by
      match a with
      | ⟨0, _⟩ => exact (Nat.zero_add _).symm
      | ⟨1, _⟩ => exact Nat.add_comm _ _
      | ⟨2, _⟩ => exact (Nat.zero_add _).symm)
  simp only [h0, h1]
  rfl

/-- Column 2: the carried entry plus step 3's block total. -/
theorem bodyOut_2 : bodyOut x0 x1 x2 x3 prev (ix2 (0 : Fin 1) (2 : Fin 4))
    = prev (ix2 (0 : Fin 1) (2 : Fin 4)) + blkTot 509 (fun b t e => x0 (ix4 (2 : Fin 4) b ⟨t.val, by have := t.isLt; omega⟩ e)) (fun b t e => x1 (ix3 b ⟨t.val + 3, by have := t.isLt; omega⟩ e)) (fun b => x3 (ix2 b (0 : Fin 1))) (fun b q e => x2 (ix3 b q e)) := by
  unfold bodyOut
  rw [pay1_apply2, pay10_apply _ _ _ _ (fun b => x3 (ix2 b (0 : Fin 1))) (fun b q e => x2 (ix3 b q e)) (mask_apply x3) (pay4_apply x2)]
  have h0 : ∀ (b : Fin 8) (t : Fin 509) (e : Fin 128), (View.ld (Val := Elt Ideal) x0 (Rect.unit ![2, 0, 0, 0] S1x8x509x128.size inb_S4x8x512x128_S1x8x509x128_2_0_0_0)) (ix4 (0 : Fin 1) b t e) = x0 (ix4 (2 : Fin 4) b ⟨t.val, by have := t.isLt; omega⟩ e) :=
    fun b t e => ld_apply x0 _ _ _ _ _ (fun a => by
      match a with
      | ⟨0, _⟩ => rfl
      | ⟨1, _⟩ => exact (Nat.zero_add _).symm
      | ⟨2, _⟩ => exact (Nat.zero_add _).symm
      | ⟨3, _⟩ => exact (Nat.zero_add _).symm)
  have h1 : ∀ (b : Fin 8) (t : Fin 509) (e : Fin 128), (View.ld (Val := Elt Ideal) x1 (Rect.unit ![0, 3, 0] S8x509x128.size inb_S8x512x128_S8x509x128_0_3_0)) (ix3 b t e) = x1 (ix3 b ⟨t.val + 3, by have := t.isLt; omega⟩ e) :=
    fun b t e => ld_apply x1 _ _ _ _ _ (fun a => by
      match a with
      | ⟨0, _⟩ => exact (Nat.zero_add _).symm
      | ⟨1, _⟩ => exact Nat.add_comm _ _
      | ⟨2, _⟩ => exact (Nat.zero_add _).symm)
  simp only [h0, h1]
  rfl

/-- Column 3: the carried entry plus step 4's block total. -/
theorem bodyOut_3 : bodyOut x0 x1 x2 x3 prev (ix2 (0 : Fin 1) (3 : Fin 4))
    = prev (ix2 (0 : Fin 1) (3 : Fin 4)) + blkTot 508 (fun b t e => x0 (ix4 (3 : Fin 4) b ⟨t.val, by have := t.isLt; omega⟩ e)) (fun b t e => x1 (ix3 b ⟨t.val + 4, by have := t.isLt; omega⟩ e)) (fun b => x3 (ix2 b (0 : Fin 1))) (fun b q e => x2 (ix3 b q e)) := by
  unfold bodyOut
  rw [pay1_apply3 _ _ _ _ _ _ _ _ (fun b => x3 (ix2 b (0 : Fin 1))) (fun b q e => x2 (ix3 b q e)) (mask_apply x3) (pay4_apply x2)]
  have h0 : ∀ (b : Fin 8) (t : Fin 508) (e : Fin 128), (View.ld (Val := Elt Ideal) x0 (Rect.unit ![3, 0, 0, 0] S1x8x508x128.size inb_S4x8x512x128_S1x8x508x128_3_0_0_0)) (ix4 (0 : Fin 1) b t e) = x0 (ix4 (3 : Fin 4) b ⟨t.val, by have := t.isLt; omega⟩ e) :=
    fun b t e => ld_apply x0 _ _ _ _ _ (fun a => by
      match a with
      | ⟨0, _⟩ => rfl
      | ⟨1, _⟩ => exact (Nat.zero_add _).symm
      | ⟨2, _⟩ => exact (Nat.zero_add _).symm
      | ⟨3, _⟩ => exact (Nat.zero_add _).symm)
  have h1 : ∀ (b : Fin 8) (t : Fin 508) (e : Fin 128), (View.ld (Val := Elt Ideal) x1 (Rect.unit ![0, 4, 0] S8x508x128.size inb_S8x512x128_S8x508x128_0_4_0)) (ix3 b t e) = x1 (ix3 b ⟨t.val + 4, by have := t.isLt; omega⟩ e) :=
    fun b t e => ld_apply x1 _ _ _ _ _ (fun a => by
      match a with
      | ⟨0, _⟩ => exact (Nat.zero_add _).symm
      | ⟨1, _⟩ => exact Nat.add_comm _ _
      | ⟨2, _⟩ => exact (Nat.zero_add _).symm)
  simp only [pay11_apply, h0, h1]
  rfl

end Cert.KernelIdeal.KerBody

end
-- ==== Proof.KerArrays.lean ====
/-
  The arrays the kernel's region finds, and its block reads, as functions of the argument arrays.

  Before the region the program recasts the base array [128, 512, 128] and the context array [128, 512, 128, 4] to half
  precision (the identity on the extended reals), moves the context's channel axis to the front ([4, 128, 512, 128]),
  gathers the negative samples out of the base array recast as [65536, 128] at the normalised sample ids ([128, 64, 128]),
  and recasts the lengths [128] as [128, 1].  The region's grid has 16 points; at point t each array is read through
  the block of eight rows 8·t, …, 8·t + 7.  So, coordinate by coordinate: a block's entry at row b is the array's entry
  at row 8·t + b (a block's coordinate is the block index times the block's size plus the coordinate inside the block,
  and on every other axis the block index is zero); the transposed context at (k, row, p, e) is the context argument at
  (row, p, e, k); the recast lengths at (row, 0) is the length of the row; and the gathered array is, as a whole array,
  the same operations of the same arguments as the reference's gathered array.
-/
import proofs.«132647_j30640296690406_2_alg».proof.Proof.Gen.KernelIdeal.Frame
import proofs.«132647_j30640296690406_2_alg».proof.Proof.RefRead
import proofs.«132647_j30640296690406_2_alg».proof.Proof.Spec
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.KerArrays

open Cert.KernelIdeal Cert.KernelIdeal.Gen Idealize.ShloMosaic Idealize.ShloMosaic.ValueIdx
open Idealize.ShloMosaic.TcCoe Idealize.SL.Sem

variable (m : (ℓ : Loc nD τ sig) → Buf (Elt Ideal) ℓ) (c : Dev nD) (t : Fin cfg0.N)

/-- Row 8·t + b of the 128 rows, for a block number t below 16 and a row b of the block. -/
theorem row_lt (t : Fin cfg0.N) (b : Fin 8) : 8 * t.val + b.val < 128 := by
  have h : cfg0.N = 16 := Gen.N_0
  have := t.isLt; have := b.isLt; omega

/-! ## The arrays the region finds, as functions of the argument arrays -/

/-- The base array as staged: the format change is the identity on the extended reals. -/
theorem V_main_v0 : (Gen.V m c main_v0 : S128x512x128.Idx → EReal) = m ((c.tc : Thread nD τ).loc main_arg0) := by
  show StableHlo.after hostOps0 (fun b => m (c, b)) (Proc.devRef .tc main_v0) = _
  after_results
  rfl

/-- The lengths as staged: the [128] array recast as [128, 1]. -/
theorem V_main_v11 : (Gen.V m c main_v11 : S128x1.Idx → BitVec 32) = shapeCast S128x1 (m ((c.tc : Thread nD τ).loc main_arg2)) shapeCasts_S128_S128x1 := by
  show StableHlo.after hostOps0 (fun b => m (c, b)) (Proc.devRef .tc main_v11) = _
  after_results
  rfl

/-- The context array as staged: the channel axis moved to the front. -/
theorem V_main_v2 : (Gen.V m c main_v2 : S4x128x512x128.Idx → EReal) = transpose S4x128x512x128 [3, 0, 1, 2] (m ((c.tc : Thread nD τ).loc main_arg1)) transposes_S128x512x128x4_S4x128x512x128_3_0_1_2 := by
  show StableHlo.after hostOps0 (fun b => m (c, b)) (Proc.devRef .tc main_v2) = _
  after_results
  rfl

/-- The gathered negative samples as staged: the same operations of the same arguments as the reference's gathered array. -/
theorem V_main_v10 : (Gen.V m c main_v10 : S128x64x128.Idx → EReal) = Cert.ReferenceIdeal.ReadP.val_main_v17 (F := Ideal) (m ((c.tc : Thread nD τ).loc main_arg0)) (m ((c.tc : Thread nD τ).loc main_arg3)) := by
  show StableHlo.after hostOps0 (fun b => m (c, b)) (Proc.devRef .tc main_v10) = _
  after_results
  rfl

/-! ## The index maps over the grid -/

/-- Block t of the context array starts at row block t, all other block indices zero. -/
theorem idx0 : ∀ t : Fin cfg0.N, win0_0.index t (0 : Fin 4) = 0 ∧ win0_0.index t (1 : Fin 4) = t.val
    ∧ win0_0.index t (2 : Fin 4) = 0 ∧ win0_0.index t (3 : Fin 4) = 0 :=
  (by decide +kernel : ∀ t : Fin grid0.N, _)

/-- Block t of the base array starts at row block t. -/
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)

/-- Block t of the gathered array starts at row block t. -/
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)

/-- Block t of the lengths starts at row block t. -/
theorem idx3 : ∀ t : Fin cfg0.N, win0_3.index t (0 : Fin 2) = t.val ∧ win0_3.index t (1 : Fin 2) = 0 :=
  (by decide +kernel : ∀ t : Fin grid0.N, _)

/-! ## The block reads -/

/-- Entry (b, p, e) of block t of the base array is the base argument at row 8·t + b. -/
theorem blk_base (b : Fin 8) (p : Fin 512) (e : Fin 128) :
    Gen.iblk m c 1 t (ix3 b p e) = m ((c.tc : Thread nD τ).loc main_arg0) (ix3 ⟨8 * t.val + b.val, row_lt t b⟩ p e) := by
  show Gen.V m c main_v0 (((cfg0.win 1).blk t).view.emb (ix3 b p e)) = _
  rw [V_main_v0]
  refine congrArg (m ((c.tc : Thread nD τ).loc main_arg0)) ?_
  obtain ⟨e0, e1, e2⟩ := idx1 t
  funext a; apply Fin.ext
  match a with
  | ⟨0, _⟩ => show win0_1.index t (0 : Fin 3) * 8 + 1 * b.val = 8 * t.val + b.val; omega
  | ⟨1, _⟩ => show win0_1.index t (1 : Fin 3) * 512 + 1 * p.val = p.val; omega
  | ⟨2, _⟩ => show win0_1.index t (2 : Fin 3) * 128 + 1 * e.val = e.val; omega

/-- Entry (b, q, e) of block t of the gathered samples is the reference's gathered array at row 8·t + b. -/
theorem blk_neg (b : Fin 8) (q : Fin 64) (e : Fin 128) :
    Gen.iblk m c 2 t (ix3 b q e) = Cert.ReferenceIdeal.ReadP.val_main_v17 (F := Ideal) (m ((c.tc : Thread nD τ).loc main_arg0)) (m ((c.tc : Thread nD τ).loc main_arg3)) (ix3 ⟨8 * t.val + b.val, row_lt t b⟩ q e) := by
  show Gen.V m c main_v10 (((cfg0.win 2).blk t).view.emb (ix3 b q e)) = _
  rw [V_main_v10]
  refine congrArg (Cert.ReferenceIdeal.ReadP.val_main_v17 (F := Ideal) (m ((c.tc : Thread nD τ).loc main_arg0)) (m ((c.tc : Thread nD τ).loc main_arg3))) ?_
  obtain ⟨e0, e1, e2⟩ := idx2 t
  funext a; apply Fin.ext
  match a with
  | ⟨0, _⟩ => show win0_2.index t (0 : Fin 3) * 8 + 1 * b.val = 8 * t.val + b.val; omega
  | ⟨1, _⟩ => show win0_2.index t (1 : Fin 3) * 64 + 1 * q.val = q.val; omega
  | ⟨2, _⟩ => show win0_2.index t (2 : Fin 3) * 128 + 1 * e.val = e.val; omega

/-- Entry (k, b, p, e) of block t of the transposed context array is the context argument at row 8·t + b, channel k. -/
theorem blk_ctx (k : Fin 4) (b : Fin 8) (p : Fin 512) (e : Fin 128) :
    Gen.iblk m c 0 t (ix4 k b p e) = m ((c.tc : Thread nD τ).loc main_arg1) (ix4 ⟨8 * t.val + b.val, row_lt t b⟩ p e k) := by
  show Gen.V m c main_v2 (((cfg0.win 0).blk t).view.emb (ix4 k b p e)) = _
  rw [V_main_v2]
  obtain ⟨e0, e1, e2, e3⟩ := idx0 t
  refine transpose_apply _ _ _ _ _ (fun a => ?_)
  match a with
  | ⟨0, _⟩ => show k.val = win0_0.index t (0 : Fin 4) * 4 + 1 * k.val; omega
  | ⟨1, _⟩ => show 8 * t.val + b.val = win0_0.index t (1 : Fin 4) * 8 + 1 * b.val; omega
  | ⟨2, _⟩ => show p.val = win0_0.index t (2 : Fin 4) * 512 + 1 * p.val; omega
  | ⟨3, _⟩ => show e.val = win0_0.index t (3 : Fin 4) * 128 + 1 * e.val; omega

/-- Entry (b, 0) of block t of the recast lengths is the length of row 8·t + b. -/
theorem blk_len (b : Fin 8) :
    Gen.iblk m c 3 t (ix2 b (0 : Fin 1)) = m ((c.tc : Thread nD τ).loc main_arg2) (ix1 ⟨8 * t.val + b.val, row_lt t b⟩) := by
  show Gen.V m c main_v11 (((cfg0.win 3).blk t).view.emb (ix2 b (0 : Fin 1))) = _
  rw [V_main_v11]
  obtain ⟨e0, e1⟩ := idx3 t
  refine shapeCast_apply _ _ _ _ ?_
  rw [Shape.rowMajor_val_two]
  refine (Shape.rowMajor_val_one (d := ![128]) (ix1 ⟨8 * t.val + b.val, row_lt t b⟩)).trans ?_
  show 8 * t.val + b.val = (win0_3.index t (0 : Fin 2) * 8 + 1 * b.val) * 1 + (win0_3.index t (1 : Fin 2) * 1 + 1 * 0)
  omega

end Cert.KernelIdeal.KerArrays

end
-- ==== Proof.KerBlock.lean ====
/-
  The block function at grid point `t`, with the point's blocks read off the argument arrays: column `k` adds to the
  carried entry the sum, over rows 8·t … 8·t + 7 and all positions, of the negated first log-softmax entries of step
  `k + 1` — the block sum of the specification, whose gathered negative samples are the reference's own stage.
-/
import proofs.«132647_j30640296690406_2_alg».proof.Proof.KerBody
import proofs.«132647_j30640296690406_2_alg».proof.Proof.KerArrays

set_option maxRecDepth 16384

noncomputable section

open scoped BigOperators

namespace Cert.KernelIdeal.KerBlock

open Cert.KernelIdeal Cert.KernelIdeal.Gen Idealize.ShloMosaic Idealize.ShloMosaic.ValueIdx Idealize.SL.Sem
open Cert.KernelIdeal.KerPay Cert.KernelIdeal.KerBody Cert.KernelIdeal.KerArrays

/-- A grid point is one of sixteen. -/
theorem pt_lt (t : Fin cfg0.N) : t.val < 16 := lt_of_lt_of_eq t.isLt (show cfg0.N = 16 from Gen.N_0)

variable (m : (ℓ : Loc nD τ sig) → Buf (Elt Ideal) ℓ) (c : Dev nD) (t : Fin cfg0.N)

/-- Column 0 of the block function at point `t`: the carried entry plus step 1's sum over rows 8·t … 8·t + 7. -/
theorem block_col0 (prev : Vec Ideal S1x4 .f32) :
    bodyOut (Gen.iblk m c 0 t) (Gen.iblk m c 1 t) (Gen.iblk m c 2 t) (Gen.iblk m c 3 t) prev (ix2 (0 : Fin 1) (0 : Fin 4))
      = prev (ix2 (0 : Fin 1) (0 : Fin 4)) + CPC.blockSum (m ((c.tc : Thread nD τ).loc main_arg0)) (m ((c.tc : Thread nD τ).loc main_arg1)) (m ((c.tc : Thread nD τ).loc main_arg2))
        (Cert.ReferenceIdeal.ReadP.val_main_v17 (F := Ideal) (m ((c.tc : Thread nD τ).loc main_arg0)) (m ((c.tc : Thread nD τ).loc main_arg3))) 511 1 rfl 0 ⟨t.val, pt_lt t⟩ := by
  rw [bodyOut_0]
  refine congrArg (fun x => prev (ix2 (0 : Fin 1) (0 : Fin 4)) + x) ?_
  unfold blkTot CPC.blockSum CPC.entry
  refine Finset.sum_congr rfl fun b _ => Finset.sum_congr rfl fun p _ => ?_
  refine congrArg (fun l => CPC.zw - CPC.lp0 l) ?_
  funext j
  unfold blkRow CPC.row CPC.baseOf CPC.ctxOf CPC.lenOf CPC.negsOf
  simp only [blk_ctx m c t, blk_base m c t, blk_len m c t, blk_neg m c t]

/-- Column 1 of the block function at point `t`: the carried entry plus step 2's sum over rows 8·t … 8·t + 7. -/
theorem block_col1 (prev : Vec Ideal S1x4 .f32) :
    bodyOut (Gen.iblk m c 0 t) (Gen.iblk m c 1 t) (Gen.iblk m c 2 t) (Gen.iblk m c 3 t) prev (ix2 (0 : Fin 1) (1 : Fin 4))
      = prev (ix2 (0 : Fin 1) (1 : Fin 4)) + CPC.blockSum (m ((c.tc : Thread nD τ).loc main_arg0)) (m ((c.tc : Thread nD τ).loc main_arg1)) (m ((c.tc : Thread nD τ).loc main_arg2))
        (Cert.ReferenceIdeal.ReadP.val_main_v17 (F := Ideal) (m ((c.tc : Thread nD τ).loc main_arg0)) (m ((c.tc : Thread nD τ).loc main_arg3))) 510 2 rfl 1 ⟨t.val, pt_lt t⟩ := by
  rw [bodyOut_1]
  refine congrArg (fun x => prev (ix2 (0 : Fin 1) (1 : Fin 4)) + x) ?_
  unfold blkTot CPC.blockSum CPC.entry
  refine Finset.sum_congr rfl fun b _ => Finset.sum_congr rfl fun p _ => ?_
  refine congrArg (fun l => CPC.zw - CPC.lp0 l) ?_
  funext j
  unfold blkRow CPC.row CPC.baseOf CPC.ctxOf CPC.lenOf CPC.negsOf
  simp only [blk_ctx m c t, blk_base m c t, blk_len m c t, blk_neg m c t]

/-- Column 2 of the block function at point `t`: the carried entry plus step 3's sum over rows 8·t … 8·t + 7. -/
theorem block_col2 (prev : Vec Ideal S1x4 .f32) :
    bodyOut (Gen.iblk m c 0 t) (Gen.iblk m c 1 t) (Gen.iblk m c 2 t) (Gen.iblk m c 3 t) prev (ix2 (0 : Fin 1) (2 : Fin 4))
      = prev (ix2 (0 : Fin 1) (2 : Fin 4)) + CPC.blockSum (m ((c.tc : Thread nD τ).loc main_arg0)) (m ((c.tc : Thread nD τ).loc main_arg1)) (m ((c.tc : Thread nD τ).loc main_arg2))
        (Cert.ReferenceIdeal.ReadP.val_main_v17 (F := Ideal) (m ((c.tc : Thread nD τ).loc main_arg0)) (m ((c.tc : Thread nD τ).loc main_arg3))) 509 3 rfl 2 ⟨t.val, pt_lt t⟩ := by
  rw [bodyOut_2]
  refine congrArg (fun x => prev (ix2 (0 : Fin 1) (2 : Fin 4)) + x) ?_
  unfold blkTot CPC.blockSum CPC.entry
  refine Finset.sum_congr rfl fun b _ => Finset.sum_congr rfl fun p _ => ?_
  refine congrArg (fun l => CPC.zw - CPC.lp0 l) ?_
  funext j
  unfold blkRow CPC.row CPC.baseOf CPC.ctxOf CPC.lenOf CPC.negsOf
  simp only [blk_ctx m c t, blk_base m c t, blk_len m c t, blk_neg m c t]

/-- Column 3 of the block function at point `t`: the carried entry plus step 4's sum over rows 8·t … 8·t + 7. -/
theorem block_col3 (prev : Vec Ideal S1x4 .f32) :
    bodyOut (Gen.iblk m c 0 t) (Gen.iblk m c 1 t) (Gen.iblk m c 2 t) (Gen.iblk m c 3 t) prev (ix2 (0 : Fin 1) (3 : Fin 4))
      = prev (ix2 (0 : Fin 1) (3 : Fin 4)) + CPC.blockSum (m ((c.tc : Thread nD τ).loc main_arg0)) (m ((c.tc : Thread nD τ).loc main_arg1)) (m ((c.tc : Thread nD τ).loc main_arg2))
        (Cert.ReferenceIdeal.ReadP.val_main_v17 (F := Ideal) (m ((c.tc : Thread nD τ).loc main_arg0)) (m ((c.tc : Thread nD τ).loc main_arg3))) 508 4 rfl 3 ⟨t.val, pt_lt t⟩ := by
  rw [bodyOut_3]
  refine congrArg (fun x => prev (ix2 (0 : Fin 1) (3 : Fin 4)) + x) ?_
  unfold blkTot CPC.blockSum CPC.entry
  refine Finset.sum_congr rfl fun b _ => Finset.sum_congr rfl fun p _ => ?_
  refine congrArg (fun l => CPC.zw - CPC.lp0 l) ?_
  funext j
  unfold blkRow CPC.row CPC.baseOf CPC.ctxOf CPC.lenOf CPC.negsOf
  simp only [blk_ctx m c t, blk_base m c t, blk_len m c t, blk_neg m c t]

/-- What point `i` adds to column `s`: step `s + 1`'s block sum (zero past the sixteen points). -/
def B (s : Fin 4) (i : ℕ) : EReal :=
  if h : i < 16 then
    (match s with
      | ⟨0, _⟩ => CPC.blockSum (m ((c.tc : Thread nD τ).loc main_arg0)) (m ((c.tc : Thread nD τ).loc main_arg1)) (m ((c.tc : Thread nD τ).loc main_arg2))
        (Cert.ReferenceIdeal.ReadP.val_main_v17 (F := Ideal) (m ((c.tc : Thread nD τ).loc main_arg0)) (m ((c.tc : Thread nD τ).loc main_arg3))) 511 1 rfl 0 ⟨i, h⟩
      | ⟨1, _⟩ => CPC.blockSum (m ((c.tc : Thread nD τ).loc main_arg0)) (m ((c.tc : Thread nD τ).loc main_arg1)) (m ((c.tc : Thread nD τ).loc main_arg2))
        (Cert.ReferenceIdeal.ReadP.val_main_v17 (F := Ideal) (m ((c.tc : Thread nD τ).loc main_arg0)) (m ((c.tc : Thread nD τ).loc main_arg3))) 510 2 rfl 1 ⟨i, h⟩
      | ⟨2, _⟩ => CPC.blockSum (m ((c.tc : Thread nD τ).loc main_arg0)) (m ((c.tc : Thread nD τ).loc main_arg1)) (m ((c.tc : Thread nD τ).loc main_arg2))
        (Cert.ReferenceIdeal.ReadP.val_main_v17 (F := Ideal) (m ((c.tc : Thread nD τ).loc main_arg0)) (m ((c.tc : Thread nD τ).loc main_arg3))) 509 3 rfl 2 ⟨i, h⟩
      | ⟨3, _⟩ => CPC.blockSum (m ((c.tc : Thread nD τ).loc main_arg0)) (m ((c.tc : Thread nD τ).loc main_arg1)) (m ((c.tc : Thread nD τ).loc main_arg2))
        (Cert.ReferenceIdeal.ReadP.val_main_v17 (F := Ideal) (m ((c.tc : Thread nD τ).loc main_arg0)) (m ((c.tc : Thread nD τ).loc main_arg3))) 508 4 rfl 3 ⟨i, h⟩)
  else 0

/-- The block function adds `B` to the carried entry, column by column. -/
theorem block_adds (prev : Vec Ideal S1x4 .f32) (s : Fin 4) :
    bodyOut (Gen.iblk m c 0 t) (Gen.iblk m c 1 t) (Gen.iblk m c 2 t) (Gen.iblk m c 3 t) prev (ix2 (0 : Fin 1) s)
      = prev (ix2 (0 : Fin 1) s) + B m c s t.val := by
  unfold B
  rw [dif_pos (pt_lt t)]
  match s with
  | ⟨0, _⟩ => exact block_col0 m c t prev
  | ⟨1, _⟩ => exact block_col1 m c t prev
  | ⟨2, _⟩ => exact block_col2 m c t prev
  | ⟨3, _⟩ => exact block_col3 m c t prev

/-- The sixteen contributions to a column are the sixteen block sums. -/
theorem sum_B0 : ∑ i : Fin 16, B m c 0 i.val = ∑ blk : Fin 16, CPC.blockSum (m ((c.tc : Thread nD τ).loc main_arg0)) (m ((c.tc : Thread nD τ).loc main_arg1)) (m ((c.tc : Thread nD τ).loc main_arg2))
        (Cert.ReferenceIdeal.ReadP.val_main_v17 (F := Ideal) (m ((c.tc : Thread nD τ).loc main_arg0)) (m ((c.tc : Thread nD τ).loc main_arg3))) 511 1 rfl 0 blk :=
  Finset.sum_congr rfl fun i _ => by unfold B; rw [dif_pos i.isLt]
theorem sum_B1 : ∑ i : Fin 16, B m c 1 i.val = ∑ blk : Fin 16, CPC.blockSum (m ((c.tc : Thread nD τ).loc main_arg0)) (m ((c.tc : Thread nD τ).loc main_arg1)) (m ((c.tc : Thread nD τ).loc main_arg2))
        (Cert.ReferenceIdeal.ReadP.val_main_v17 (F := Ideal) (m ((c.tc : Thread nD τ).loc main_arg0)) (m ((c.tc : Thread nD τ).loc main_arg3))) 510 2 rfl 1 blk :=
  Finset.sum_congr rfl fun i _ => by unfold B; rw [dif_pos i.isLt]
theorem sum_B2 : ∑ i : Fin 16, B m c 2 i.val = ∑ blk : Fin 16, CPC.blockSum (m ((c.tc : Thread nD τ).loc main_arg0)) (m ((c.tc : Thread nD τ).loc main_arg1)) (m ((c.tc : Thread nD τ).loc main_arg2))
        (Cert.ReferenceIdeal.ReadP.val_main_v17 (F := Ideal) (m ((c.tc : Thread nD τ).loc main_arg0)) (m ((c.tc : Thread nD τ).loc main_arg3))) 509 3 rfl 2 blk :=
  Finset.sum_congr rfl fun i _ => by unfold B; rw [dif_pos i.isLt]
theorem sum_B3 : ∑ i : Fin 16, B m c 3 i.val = ∑ blk : Fin 16, CPC.blockSum (m ((c.tc : Thread nD τ).loc main_arg0)) (m ((c.tc : Thread nD τ).loc main_arg1)) (m ((c.tc : Thread nD τ).loc main_arg2))
        (Cert.ReferenceIdeal.ReadP.val_main_v17 (F := Ideal) (m ((c.tc : Thread nD τ).loc main_arg0)) (m ((c.tc : Thread nD τ).loc main_arg3))) 508 4 rfl 3 blk :=
  Finset.sum_congr rfl fun i _ => by unfold B; rw [dif_pos i.isLt]

end Cert.KernelIdeal.KerBlock

end
-- ==== Proof.KerRun.lean ====
/-
  The kernel program's run, read as a value.

  The region's grid has 16 points and one output block, the whole [1, 4] result array, which stays in place from point to
  point and is written back once, after the last point.  At point 0 the body stores zeros into the block and then the
  body's output over those zeros; at every later point it stores the body's output over what the point before left.  If
  the body's output adds, in column s, a contribution B s t to the carried entry, then after point n column s holds
  zero plus the contributions of points 0, …, n added in point order (induction on the point), so the result array's
  column s is zero plus the sum of the sixteen contributions.  After the region the program recasts the [1, 4] array as
  [4], divides each column by its count, adds the four quotients up from zero and divides by four: that is the result
  scalar.  The argument arrays are written by nothing and end as they began.
-/
import proofs.«132647_j30640296690406_2_alg».proof.Proof.Gen.KernelIdeal.Frame
import proofs.«132647_j30640296690406_2_alg».proof.Proof.KerBody
import proofs.«132647_j30640296690406_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.KerRun

open Cert.KernelIdeal Cert.KernelIdeal.Gen Idealize.ShloMosaic Idealize.ShloMosaic.ValueIdx Idealize.SL.Sem
open Idealize.ShloMosaic.TcCoe Idealize.ShloMosaic.Tactic
open Idealize.ShloMosaic.Pipeline (Dat)

/-! ## What each case's run leaves in the output block -/

theorem hz2 : (![0, 0] : Fin 2 → Nat) = fun _ => 0 := funext fun a => by fin_cases a <;> rfl
theorem hz3 : (![0, 0, 0] : Fin 3 → Nat) = fun _ => 0 := funext fun a => by fin_cases a <;> rfl

/-- At the first grid point the body zeroes the output block and then stores the body's output over those zeros. -/
theorem outA_eq (c : Dev nD) (i : grid0.Coords) (arg1 : Memref sig .tc .vmem S4x8x512x128 .bf16) (harg1 : arg1.IsWhole) (arg2 : Memref sig .tc .vmem S8x512x128 .bf16) (harg2 : arg2.IsWhole) (arg3 : Memref sig .tc .vmem S8x64x128 .bf16) (harg3 : arg3.IsWhole) (arg4 : Memref sig .tc .vmem S8x1 .i32) (harg4 : arg4.IsWhole) (arg5 : Memref sig .tc .vmem S1x4 .f32) (harg5 : arg5.IsWhole) (hc0 : cond0_0 i) (x0 : Vec Ideal S4x8x512x128 .bf16) (x1 : Vec Ideal S8x512x128 .bf16) (x2 : Vec Ideal S8x64x128 .bf16) (x3 : Vec Ideal S8x1 .i32) :
    out0_A_4 (F := Ideal) c i arg1 harg1 arg2 harg2 arg3 harg3 arg4 harg4 arg5 harg5 hc0 x0 x1 x2 x3
      = Cert.KernelIdeal.KerBody.bodyOut x0 x1 x2 x3 (k0_pay2 (F := Ideal)) := by
  unfold out0_A_4
  rw [View.read_writes_eq_canon _ _ _ (cover0_A_4 c i arg1 harg1 arg2 harg2 arg3 harg3 arg4 harg4 arg5 harg5 hc0 x0 x1 x2 x3)]
  unfold kernelRun0_A
  dsimp only
  rw [View.canon_cons_unit_zero (S := S1x4) hz2]
  sl_unfold_words
  simp only [View.readAt_eq_ld, harg1.read_unread, harg2.read_unread, harg3.read_unread, harg4.read_unread,
    View.ld_unit_zero (S := S8x1) hz2, View.ld_unit_zero (S := S8x64x128) hz3]
  rw [View.readCov_unit_zero (S := S1x4) _ hz2]
  rfl

/-- At every later grid point the body stores the body's output over what the point before left. -/
theorem outB_eq (c : Dev nD) (i : grid0.Coords) (arg1 : Memref sig .tc .vmem S4x8x512x128 .bf16) (harg1 : arg1.IsWhole) (arg2 : Memref sig .tc .vmem S8x512x128 .bf16) (harg2 : arg2.IsWhole) (arg3 : Memref sig .tc .vmem S8x64x128 .bf16) (harg3 : arg3.IsWhole) (arg4 : Memref sig .tc .vmem S8x1 .i32) (harg4 : arg4.IsWhole) (arg5 : Memref sig .tc .vmem S1x4 .f32) (harg5 : arg5.IsWhole) (hc0 : ¬cond0_0 i) (x0 : Vec Ideal S4x8x512x128 .bf16) (x1 : Vec Ideal S8x512x128 .bf16) (x2 : Vec Ideal S8x64x128 .bf16) (x3 : Vec Ideal S8x1 .i32) (xo4 : Vec Ideal S1x4 .f32) :
    out0_B_4 (F := Ideal) c i arg1 harg1 arg2 harg2 arg3 harg3 arg4 harg4 arg5 harg5 hc0 x0 x1 x2 x3 xo4
      = Cert.KernelIdeal.KerBody.bodyOut x0 x1 x2 x3 xo4 := by
  unfold out0_B_4
  rw [View.read_writes_eq_canon _ _ _ (cover0_B_4 c i arg1 harg1 arg2 harg2 arg3 harg3 arg4 harg4 arg5 harg5 hc0 x0 x1 x2 x3 xo4)]
  unfold kernelRun0_B
  dsimp only
  rw [View.canon_unit_zero (S := S1x4) hz2]
  sl_unfold_words
  simp only [View.readAt_eq_ld, harg1.read_unread, harg2.read_unread, harg3.read_unread, harg4.read_unread, harg5.read_unread,
    View.ld_unit_zero (S := S8x1) hz2, View.ld_unit_zero (S := S8x64x128) hz3, View.ld_unit_zero (S := S1x4) hz2]
  rfl

variable (m : (ℓ : Loc nD τ sig) → Buf (Elt Ideal) ℓ) (ρ : Dev nD → PrngReg)

theorem lt15 : 15 < cfg0.N := by rw [show cfg0.N = 16 from N_0]; decide

/-- What the last grid point leaves in the output block, as contents of the [1, 4] result array (its one block is the array). -/
abbrev result (c : Dev nD) : Buf (Elt Ideal) ((c : Thread nD τ).loc main_v12) := outsAt0 m c 15 lt15

/-- The one write-back, at the last point, writes it: block (0, 0) of the [1, 4] array read through zero offsets is the array. -/
theorem flushed_eq (c : Dev nD) (t : Fin cfg0.N) (hf : (cfg0.win 4).flush t = true) :
    (dats m 0 c).flushed 4 t = ((cfg0.win 4).blk t).view.read (Elt Ideal) (result m c) := by
  have hN : cfg0.N = 16 := N_0
  have h15 : t.val = 15 := by have := (flush0_4 t).mp hf; have := t.isLt; omega
  obtain rfl : t = t0_15 := Fin.ext h15
  show (cfg0.win 4).cut (grid0.coords t0_15) ((dats m 0 c).after 4 t0_15) = _
  rw [after0_4]
  have hz' : (fun a => win0_4.index t0_15 a * main_v12.ty.shape.size a) = fun _ => 0 := funext fun a => by fin_cases a <;> decide
  exact (Memref.read_access_unit_zero (Elt Ideal) main_v12 hz' (fun a => by rw [congrFun hz' a]; simp) (result m c)).symm

/-- So the result array ends holding what the last point left. -/
theorem final_o (c : Dev nD) : (dats m 0 c).arrAt 4 cfg0.N = result m c :=
  (dats m 0 c).arrAt_eq_of_cover 4 (result m c) (flushed_eq m c) fun i =>
    ⟨t0_15, (flush0_4 t0_15).mpr rfl, by
      show i ∈ ((View.whole main_v12).slice (win0_4.rect t0_15)).set
      rw [View.set_slice_whole, Rect.mem_set_unit]
      intro a
      have h0 : (i 0 : Nat) < 1 := (i 0).isLt
      have h1 : (i 1 : Nat) < 4 := (i 1).isLt
      match a with
      | ⟨0, _⟩ => show win0_4.index t0_15 0 * win0_4.size 0 ≤ (i 0 : Nat) ∧ (i 0 : Nat) < win0_4.index t0_15 0 * win0_4.size 0 + win0_4.xsize (grid0.coords t0_15) 0
                  rw [show win0_4.index t0_15 0 * win0_4.size 0 = 0 from by decide +kernel, show win0_4.xsize (grid0.coords t0_15) 0 = 1 from by decide +kernel]; omega
      | ⟨1, _⟩ => show win0_4.index t0_15 1 * win0_4.size 1 ≤ (i 1 : Nat) ∧ (i 1 : Nat) < win0_4.index t0_15 1 * win0_4.size 1 + win0_4.xsize (grid0.coords t0_15) 1
                  rw [show win0_4.index t0_15 1 * win0_4.size 1 = 0 from by decide +kernel, show win0_4.xsize (grid0.coords t0_15) 1 = 4 from by decide +kernel]; omega⟩

/-! ## The accumulation -/

/-- The zero store's payload is the zero word at every column. -/
theorem pay2_apply (s : Fin 4) : k0_pay2 (F := Ideal) (ix2 (0 : Fin 1) s) = Cert.CPC.zw := rfl

section Acc
variable (B : Dev nD → Fin 4 → ℕ → EReal)
  (hB : ∀ (c : Dev nD) (t : Fin cfg0.N) (prev : Vec Ideal S1x4 .f32) (s : Fin 4),
      Cert.KernelIdeal.KerBody.bodyOut (Gen.iblk m c 0 t) (Gen.iblk m c 1 t) (Gen.iblk m c 2 t) (Gen.iblk m c 3 t) prev (ix2 (0 : Fin 1) s)
        = prev (ix2 (0 : Fin 1) s) + B c s t.val)
include hB

/-- After point n, column s of the output block holds zero plus the contributions of points 0, …, n, in point order. -/
theorem acc (c : Dev nD) (s : Fin 4) :
    ∀ (n : ℕ) (hn : n < cfg0.N), outsAt0 m c n hn (ix2 (0 : Fin 1) s) = Cert.CPC.zw + ∑ i : Fin (n + 1), B c s i.val
  | 0, hn => by
    have e : outsAt0 m c 0 hn = Cert.KernelIdeal.KerBody.bodyOut (Gen.iblk m c 0 ⟨0, hn⟩) (Gen.iblk m c 1 ⟨0, hn⟩) (Gen.iblk m c 2 ⟨0, hn⟩) (Gen.iblk m c 3 ⟨0, hn⟩) (k0_pay2 (F := Ideal)) :=
      (outsAt0_A m c ⟨0, hn⟩ rfl).trans (outA_eq ..)
    rw [e, hB c ⟨0, hn⟩ _ s, pay2_apply, Fin.sum_univ_one]
    rfl
  | n + 1, hn => by
    have hN : cfg0.N = 16 := N_0
    have hBc : ¬(⟨n + 1, hn⟩ : Fin cfg0.N).val % 16 = 0 := by dsimp only; omega
    have e : outsAt0 m c (n + 1) hn = Cert.KernelIdeal.KerBody.bodyOut (Gen.iblk m c 0 ⟨n + 1, hn⟩) (Gen.iblk m c 1 ⟨n + 1, hn⟩) (Gen.iblk m c 2 ⟨n + 1, hn⟩) (Gen.iblk m c 3 ⟨n + 1, hn⟩) (outsAt0 m c n (Nat.lt_of_succ_lt hn)) :=
      (outsAt0_B m c ⟨n + 1, hn⟩ hBc).trans (outB_eq ..)
    rw [e, hB c ⟨n + 1, hn⟩ _ s, acc c s n (Nat.lt_of_succ_lt hn), Fin.sum_univ_castSucc (n := n + 1), add_assoc]
    rfl

/-- So the result array's column s is zero plus the sixteen points' contributions. -/
theorem result_apply (c : Dev nD) (s : Fin 4) : result m c (ix2 (0 : Fin 1) s) = Cert.CPC.zw + ∑ i : Fin 16, B c s i.val :=
  acc m B hB c s 15 lt15

end Acc

/-! ## The host operations after the region -/

/-- A rank-1 index is its one coordinate. -/
def idxEquiv1 {n : ℕ} : (⟨1, ![n]⟩ : Shape).Idx ≃ Fin n where
  toFun j := j 0
  invFun := ix1
  left_inv j := (eq_ix1 j).symm
  right_inv _ := rfl

/-- A sum over a rank-1 index set is the sum over its coordinate. -/
theorem sum_idx1 {M : Type*} [AddCommMonoid M] {n : ℕ} (f : (⟨1, ![n]⟩ : Shape).Idx → M) : ∑ j, f j = ∑ k : Fin n, f (ix1 k) :=
  (Equiv.sum_comp idxEquiv1.symm f).symm

/-- The result scalar from the result array: each column over its count, the four quotients added up from zero, over four. -/
theorem tail_eq (c : Dev nD) :
    Pipeline.afterTail₀ cfgs (dats m) 0 (V0 m) [hostOps1] c main_v16
      = fun _ => Ideal.div (Cert.CPC.zw + (Ideal.div (result m c (ix2 (0 : Fin 1) (0 : Fin 4))) (Ideal.ofBits .f32 0x477F8000#32)
            + Ideal.div (result m c (ix2 (0 : Fin 1) (1 : Fin 4))) (Ideal.ofBits .f32 0x477F0000#32)
            + Ideal.div (result m c (ix2 (0 : Fin 1) (2 : Fin 4))) (Ideal.ofBits .f32 0x477E8000#32)
            + Ideal.div (result m c (ix2 (0 : Fin 1) (3 : Fin 4))) (Ideal.ofBits .f32 0x477E0000#32))) (Ideal.ofBits .f32 0x40800000#32) := by
  unfold Pipeline.afterTail₀
  show StableHlo.after hostOps1 (Pipeline.withArrays spec0 c (V0 m c) fun w => (dats m 0 c).arrAt w cfg0.N) (Proc.devRef .tc main_v16) = _
  after_results
  have e12 : Pipeline.withArrays spec0 c (V0 m c) (fun w => (dats m 0 c).arrAt w cfg0.N) (Proc.devRef .tc main_v12) = result m c :=
    (Pipeline.withArrays_arr spec0 launch0.win.arr_inj c _ _ 4).trans (final_o m c)
  have ecst : Pipeline.withArrays spec0 c (V0 m c) (fun w => (dats m 0 c).arrAt w cfg0.N) (Proc.devRef .tc main_cst)
      = (fun i => Ideal.ofBits .f32 (lit0 (S4.rowMajor i))) := by
    rw [Pipeline.withArrays_of_ne _ c (V0 m c) _ main_cst (by exact (by decide : ∀ w, Pipeline.arrRef spec0 w ≠ main_cst))]
    show StableHlo.after hostOps0 (fun b => m (c, b)) (Proc.devRef .tc main_cst) = _
    after_results
    rfl
  rw [e12, ecst]
  funext j
  show Ideal.div (Ideal.hostReduceAdd reducesTo_S4_S_d0 (fun i => Ideal.div (shapeCast S4 (result m c) shapeCasts_S1x4_S4 i) (Ideal.ofBits .f32 (lit0 (S4.rowMajor i)))) (Ideal.ofBits .f32 0#32) j) (Ideal.ofBits .f32 0x40800000#32) = _
  rw [Ideal.hostReduceAdd_total reducesTo_S4_S_d0 (fun b => b.elim0), sum_idx1, Fin.sum_univ_four]
  simp only [shapeCast_1a_a_apply]
  rfl

/-! ## The run -/

/-- The kernel program's run, read: the result scalar is the four columns' accumulated contributions, each over its count,
    added up from zero, over four; the argument arrays end unchanged. -/
theorem ker_run_of (B : Dev nD → Fin 4 → ℕ → EReal)
    (hB : ∀ (c : Dev nD) (t : Fin cfg0.N) (prev : Vec Ideal S1x4 .f32) (s : Fin 4),
        Cert.KernelIdeal.KerBody.bodyOut (Gen.iblk m c 0 t) (Gen.iblk m c 1 t) (Gen.iblk m c 2 t) (Gen.iblk m c 3 t) prev (ix2 (0 : Fin 1) s)
          = prev (ix2 (0 : Fin 1) s) + B c s t.val) :
    θ_run (defs (F := Ideal)) (onTc (τ := τ) (main (F := Ideal))) ⟨m, fun _ => 0, ρ⟩ fun r => ∀ c : Dev nD,
      r.2.mem ((c.tc : Thread nD τ).loc main_v16) = (fun _ =>
          Ideal.div (Cert.CPC.zw + (Ideal.div (Cert.CPC.zw + ∑ i : Fin 16, B c 0 i.val) (Ideal.ofBits .f32 0x477F8000#32)
            + Ideal.div (Cert.CPC.zw + ∑ i : Fin 16, B c 1 i.val) (Ideal.ofBits .f32 0x477F0000#32)
            + Ideal.div (Cert.CPC.zw + ∑ i : Fin 16, B c 2 i.val) (Ideal.ofBits .f32 0x477E8000#32)
            + Ideal.div (Cert.CPC.zw + ∑ i : Fin 16, B c 3 i.val) (Ideal.ofBits .f32 0x477E0000#32)))
          (Ideal.ofBits .f32 0x40800000#32))
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3) :=
  (θ_run defs _ _).mono (fun _ h c =>
    ⟨((h c).2 main_v16 (Pipeline.mem_restRefs_of main_v16 (by decide) (by decide))).trans (by
        rw [tail_eq, result_apply m B hB c 0, result_apply m B hB c 1, result_apply m B hB c 2, result_apply m B hB c 3]),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KerRun

end
-- ==== Proof.lean ====
/-
  The kernel computes a contrastive-prediction loss over 128 rows in sixteen blocks of eight: for each of four prediction
  steps it forms, per row and position, the masked context vector, 65 logits (one positive score against the base
  array read some positions later, 64 scores against gathered negative samples), the first log-softmax entry, and adds
  the negated entries of the block into a carried [1, 4] block; after the grid the four totals are divided by the
  counts and averaged. The reference masks the whole context array, forms the same logits for all rows at once, takes
  minus the mean of the first log-softmax entries per step and averages. On the extended reals the two results are
  equal once every entry is a real number (which the finiteness of the inputs gives): a sum regrouped into blocks,
  and −(Σ p / N) = (Σ −p) / N.

  The frames of the two kernel programs are the generated ones; the reference's frame and value come from its run read
  back operation by operation; the kernel's value is read off the generated frame run.
-/
import proofs.«132647_j30640296690406_2_alg».proof.Defs
import proofs.«132647_j30640296690406_2_alg».proof.Proof.Gen.Kernel
import proofs.«132647_j30640296690406_2_alg».proof.Proof.Gen.Kernel.Skeleton
import proofs.«132647_j30640296690406_2_alg».proof.Proof.Gen.Kernel.Launch
import proofs.«132647_j30640296690406_2_alg».proof.Proof.Gen.Kernel.Points
import proofs.«132647_j30640296690406_2_alg».proof.Proof.Gen.Kernel.Frame
import proofs.«132647_j30640296690406_2_alg».proof.Proof.Gen.KernelIdeal
import proofs.«132647_j30640296690406_2_alg».proof.Proof.Gen.KernelIdeal.Skeleton
import proofs.«132647_j30640296690406_2_alg».proof.Proof.Gen.KernelIdeal.Launch
import proofs.«132647_j30640296690406_2_alg».proof.Proof.Gen.KernelIdeal.Points
import proofs.«132647_j30640296690406_2_alg».proof.Proof.Gen.KernelIdeal.Frame
import proofs.«132647_j30640296690406_2_alg».proof.Proof.Gen.ReferenceIdeal
import proofs.«132647_j30640296690406_2_alg».proof.Proof.Gen.Pre_finite_inputs
import proofs.«132647_j30640296690406_2_alg».proof.Proof.Spec
import proofs.«132647_j30640296690406_2_alg».proof.Proof.Bridge
import proofs.«132647_j30640296690406_2_alg».proof.Proof.Finite
import proofs.«132647_j30640296690406_2_alg».proof.Proof.RefValue
import proofs.«132647_j30640296690406_2_alg».proof.Proof.RefRunV
import proofs.«132647_j30640296690406_2_alg».proof.Proof.KerBlock
import proofs.«132647_j30640296690406_2_alg».proof.Proof.KerRun
import proofs.«132647_j30640296690406_2_alg».proof.Proof.LibRealClosure
import Idealize.ShloMosaic.Adequacy
import Idealize.ShloMosaic.Init

noncomputable section

namespace Cert.Proof

open Idealize.ShloMosaic Idealize.SL.Sem

/-- The gathered negative samples of the reference are real numbers when the base array is. -/
theorem gathered_real (x0 : (⟨Cert.ReferenceIdeal.S128x512x128, .f32⟩ : BufTy).Contents (Elt Ideal))
    (x3 : (⟨Cert.ReferenceIdeal.S128x64, .i32⟩ : BufTy).Contents (Elt Ideal)) (h0 : ∀ i, ∃ r : ℝ, x0 i = (r : EReal)) (i) :
    ∃ r : ℝ, Cert.ReferenceIdeal.ReadP.val_main_v17 (F := Ideal) x0 x3 i = (r : EReal) := by
  unfold Cert.ReferenceIdeal.ReadP.val_main_v17
  refine Cert.Lib.RealClosure.gather_real _ _ _ (fun i' => ?_) i
  unfold Cert.ReferenceIdeal.ReadP.val_main_v10 shapeCast
  exact h0 _

/-- The kernel's run: the result is the accumulated closed form of the argument arrays; the arguments end unchanged. -/
theorem ker_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v16)
          = (fun _ => Cert.CPC.accResult (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (Cert.ReferenceIdeal.ReadP.val_main_v17 (F := Ideal) (m ((c.tc : Thread Cert.KernelIdeal.nD Cert.KernelIdeal.τ).loc Cert.KernelIdeal.main_arg0))
                (m ((c.tc : Thread Cert.KernelIdeal.nD Cert.KernelIdeal.τ).loc Cert.KernelIdeal.main_arg3))))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run (Cert.KernelIdeal.defs (F := Ideal)) _ _).mono
    (fun _ h c => ⟨(h c).1.trans (by
        funext _
        unfold Cert.CPC.accResult Cert.CPC.accSum
        rw [Cert.KernelIdeal.KerBlock.sum_B0, Cert.KernelIdeal.KerBlock.sum_B1, Cert.KernelIdeal.KerBlock.sum_B2, Cert.KernelIdeal.KerBlock.sum_B3]),
      (h c).2⟩)
    (Cert.KernelIdeal.KerRun.ker_run_of m ρ (fun c => Cert.KernelIdeal.KerBlock.B m c)
      (fun c t prev s => Cert.KernelIdeal.KerBlock.block_adds m c t prev s))

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.ReferenceIdeal.RefRunV.ref_run (F := Ideal) m ρ)

/-- Both idealized programs end with the accumulated closed form: the kernel by its run; the reference's last stage is
    the mean form, which is the accumulated form on real entries. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, ker_run m ρ, ?_⟩
  refine (θ_run (Cert.ReferenceIdeal.defs (F := Ideal)) _ _).mono (fun _ h c => ⟨(h c).1.trans ?_, (h c).2⟩) (Cert.ReferenceIdeal.RefRunV.ref_run (F := Ideal) m' ρ')
  have hr := @Cert.Finite.args_real Cert.Pre_finite_inputs.Gen.facts m hpre c
  rw [(hagree c).1, (hagree c).2.1, (hagree c).2.2.1, (hagree c).2.2.2]
  funext i
  rw [Cert.ReferenceIdeal.RefValue.ref_result]
  exact (Cert.CPC.accResult_eq_refResult _ _ _ _ hr.1 hr.2 (gathered_real _ _ hr.1)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
